-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_v68) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x3 : Shape := ⟨2, ![100000, 3]⟩
abbrev S1600000x8 : Shape := ⟨2, ![1600000, 8]⟩
abbrev S137x64 : Shape := ⟨2, ![137, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S1600000x8 : S_.BroadcastsInDim S1600000x8 (![] : Fin 0 → Fin S1600000x8.rank)
  reducesTo_S1600000x8_S_d0_1 : S1600000x8.ReducesTo [0, 1] S_
  bcast_S_S137x64 : S_.BroadcastsInDim S137x64 (![] : Fin 0 → Fin S137x64.rank)
  reducesTo_S137x64_S_d0_1 : S137x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_

variable [Facts]

def fn_part5 {F : FTy → Type} [FloatOps F] (main_arg18 : FVec F S64x1 .f32) (main_arg19 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x1 .f32 := Host.absf main_arg18
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S64x64 .f32) (main_arg15 : FVec F S64 .f32) (main_arg16 : FVec F S64x64 .f32) (main_arg17 : FVec F S64 .f32) (main_arg18 : FVec F S64x1 .f32) (main_arg19 : FVec F S1 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg16
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S1 .f32) (main_arg12 : FVec F S128x64 .f32) (main_arg13 : FVec F S64 .f32) (main_arg14 : FVec F S64x64 .f32) (main_arg15 : FVec F S64 .f32) (main_arg16 : FVec F S64x64 .f32) (main_arg17 : FVec F S64 .f32) (main_arg18 : FVec F S64x1 .f32) (main_arg19 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S128x64 .f32 := Host.absf main_arg12
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_v63 main_v67

def fn_part2 {F : FTy → Type} [FloatOps F] (main_arg7 : FVec F S64 .f32) (main_arg8 : FVec F S64x64 .f32) (main_arg9 : FVec F S64 .f32) (main_arg10 : FVec F S64x1 .f32) (main_arg11 : FVec F S1 .f32) (main_arg12 : FVec F S128x64 .f32) (main_arg13 : FVec F S64 .f32) (main_arg14 : FVec F S64x64 .f32) (main_arg15 : FVec F S64 .f32) (main_arg16 : FVec F S64x64 .f32) (main_arg17 : FVec F S64 .f32) (main_arg18 : FVec F S64x1 .f32) (main_arg19 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S137x64 .f32) (main_arg5 : FVec F S64 .f32) (main_arg6 : FVec F S64x64 .f32) (main_arg7 : FVec F S64 .f32) (main_arg8 : FVec F S64x64 .f32) (main_arg9 : FVec F S64 .f32) (main_arg10 : FVec F S64x1 .f32) (main_arg11 : FVec F S1 .f32) (main_arg12 : FVec F S128x64 .f32) (main_arg13 : FVec F S64 .f32) (main_arg14 : FVec F S64x64 .f32) (main_arg15 : FVec F S64 .f32) (main_arg16 : FVec F S64x64 .f32) (main_arg17 : FVec F S64 .f32) (main_arg18 : FVec F S64x1 .f32) (main_arg19 : FVec F S1 .f32) (main_v13 : IVec S_ 1) (main_v16 : IVec S1600000x8 1) : IVec S_ 1 :=
  let main_c_5 : IVec S_ 1 := constantI S_ 1 1#1
  let main_v17 : IVec S_ 1 := (fun x v => Host.reduce IntOp.andi x v reducesTo_S1600000x8_S_d0_1 h_S_) main_v16 main_c_5
  let main_v18 : IVec S_ 1 := andi main_v13 main_v17
  let main_v19 : FVec F S137x64 .f32 := Host.absf main_arg4
  let main_cst_6 : FVec F S_ .f32 := constant S_ .f32 0x7F800000#32
  let main_v20 : FVec F S137x64 .f32 := broadcastInDim S137x64 ![] bcast_S_S137x64 main_cst_6
  let main_v21 : IVec S137x64 1 := cmpf .olt main_v19 main_v20
  let main_c_7 : IVec S_ 1 := constantI S_ 1 1#1
  let main_v22 : IVec S_ 1 := (fun x v => Host.reduce IntOp.andi x v reducesTo_S137x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S100000x64 .f32) (main_arg1 : FVec F S100000x3 .f32) (main_arg2 : FVec F S100000x3 .f32) (main_arg3 : FVec F S1600000x8 .f32) (main_arg4 : FVec F S137x64 .f32) (main_arg5 : FVec F S64 .f32) (main_arg6 : FVec F S64x64 .f32) (main_arg7 : FVec F S64 .f32) (main_arg8 : FVec F S64x64 .f32) (main_arg9 : FVec F S64 .f32) (main_arg10 : FVec F S64x1 .f32) (main_arg11 : FVec F S1 .f32) (main_arg12 : FVec F S128x64 .f32) (main_arg13 : FVec F S64 .f32) (main_arg14 : FVec F S64x64 .f32) (main_arg15 : FVec F S64 .f32) (main_arg16 : FVec F S64x64 .f32) (main_arg17 : FVec F S64 .f32) (main_arg18 : FVec F S64x1 .f32) (main_arg19 : FVec F S1 .f32) (main_arg20 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S100000x3 .f32 := Host.absf main_arg2
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S1600000x8 .f32 := Host.absf main_arg3
  let main_cst_4 : FVec F S_ .f32 := constant S_ .f32 0x7F800000#32
  let main_v15 : FVec F S1600000x8 .f32 := broadcastInDim S1600000x8 ![] bcast_S_S1600000x8 main_cst_4
  let main_v16 : IVec S1600000x8 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S100000x64 : Shape := ⟨2, ![100000, 64]⟩
abbrev S100000x3 : Shape := ⟨2, ![100000, 3]⟩
abbrev S1600000x8 : Shape := ⟨2, ![1600000, 8]⟩
abbrev S137x64 : Shape := ⟨2, ![137, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1600000x9 : Shape := ⟨2, ![1600000, 9]⟩
abbrev S1600000x64 : Shape := ⟨2, ![1600000, 64]⟩
abbrev S1x64 : Shape := ⟨2, ![1, 64]⟩
abbrev S8x64 : Shape := ⟨2, ![8, 64]⟩
abbrev S1x1 : Shape := ⟨2, ![1, 1]⟩
abbrev S8000x64 : Shape := ⟨2, ![8000, 64]⟩
abbrev S8000x9 : Shape := ⟨2, ![8000, 9]⟩
abbrev S8000x1 : Shape := ⟨2, ![8000, 1]⟩
abbrev S8000x8 : Shape := ⟨2, ![8000, 8]⟩
abbrev S1600000x68 : Shape := ⟨2, ![1600000, 68]⟩
abbrev S100000x68 : Shape := ⟨2, ![100000, 68]⟩
abbrev S100000x1 : Shape := ⟨2, ![100000, 1]⟩
abbrev S100000x9 : Shape := ⟨2, ![100000, 9]⟩
abbrev S100000x6 : Shape := ⟨2, ![100000, 6]⟩
abbrev S5000x64 : Shape := ⟨2, ![5000, 64]⟩
abbrev S5000x9 : Shape := ⟨2, ![5000, 9]⟩
abbrev S5000x6 : Shape := ⟨2, ![5000, 6]⟩
abbrev S5000x3 : Shape := ⟨2, ![5000, 3]⟩
abbrev S5000x1 : Shape := ⟨2, ![5000, 1]⟩

abbrev nBuf : Space → Nat
  | .hbm => 105
  | .vmem => 40
  | .smem => 0
  | _ => 0

abbrev bufTy : (tb : Table) → Fin (tcTables nBuf tb) → BufTy
  | .hbm, ⟨0, _⟩ => ⟨S100000x64, .f32⟩
  | .hbm, ⟨1, _⟩ => ⟨S100000x3, .f32⟩
  | .hbm, ⟨2, _⟩ => ⟨S100000x3, .f32⟩
  | .hbm, ⟨3, _⟩ => ⟨S1600000x8, .f32⟩
  | .hbm, ⟨4, _⟩ => ⟨S137x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S128x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x1, .f32⟩
  | .hbm, ⟨19, _⟩ => ⟨S1, .f32⟩
  | .hbm, ⟨20, _⟩ => ⟨S2x1600000, .i32⟩
  | .hbm, ⟨21, _⟩ => ⟨S1x1600000, .i32⟩
  | .hbm, ⟨22, _⟩ => ⟨S1600000, .i32⟩
  | .hbm, ⟨23, _⟩ => ⟨S1x1600000, .i32⟩
  | .hbm, ⟨24, _⟩ => ⟨S1600000, .i32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x3, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x3, .f32⟩
  | .hbm, ⟨43, _⟩ => ⟨S1600000x3, .f32⟩
  | .hbm, ⟨44, _⟩ => ⟨S1600000x3, .f32⟩
  | .hbm, ⟨45, _⟩ => ⟨S_, .f32⟩
  | .hbm, ⟨46, _⟩ => ⟨S1600000, .f32⟩
  | .hbm, ⟨47, _⟩ => ⟨S1600000x1, .f32⟩
  | .hbm, ⟨48, _⟩ => ⟨S1600000x9, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S64x64, .f32⟩
  | .hbm, ⟨68, _⟩ => ⟨S64x64, .f32⟩
  | .hbm, ⟨69, _⟩ => ⟨S1x64, .f32⟩
  | .hbm, ⟨70, _⟩ => ⟨S8x64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x1, .f32⟩
  | .hbm, ⟨75, _⟩ => ⟨S1600000x64, .f32⟩
  | .hbm, ⟨76, _⟩ => ⟨S1600000x1, .f32⟩
  | .hbm, ⟨77, _⟩ => ⟨S1600000x3, .f32⟩
  | .hbm, ⟨78, _⟩ => ⟨S1600000x3, .f32⟩
  | .hbm, ⟨79, _⟩ => ⟨S_, .f32⟩
  | .hbm, ⟨80, _⟩ => ⟨S1600000x1, .f32⟩
  | .hbm, ⟨81, _⟩ => ⟨S1600000x68, .f32⟩
  | .hbm, ⟨82, _⟩ => ⟨S_, .f32⟩
  | .hbm, ⟨83, _⟩ => ⟨S100000x68, .f32⟩
  | .hbm, ⟨84, _⟩ => ⟨S1600000x1, .i32⟩
  | .hbm, ⟨85, _⟩ => ⟨S100000x68, .f32⟩
  | .hbm, ⟨86, _⟩ => ⟨S100000x64, .f32⟩
  | .hbm, ⟨87, _⟩ => ⟨S100000x3, .f32⟩
  | .hbm, ⟨88, _⟩ => ⟨S100000x1, .f32⟩
  | .hbm, ⟨89, _⟩ => ⟨S_, .f32⟩
  | .hbm, ⟨90, _⟩ => ⟨S100000x1, .f32⟩
  | .hbm, ⟨91, _⟩ => ⟨S100000x1, .f32⟩
  | .hbm, ⟨92, _⟩ => ⟨S100000x3, .f32⟩
  | .hbm, ⟨93, _⟩ => ⟨S100000x3, .f32⟩
  | .hbm, ⟨94, _⟩ => ⟨S64x64, .f32⟩
  | .hbm, ⟨95, _⟩ => ⟨S64x64, .f32⟩
  | .hbm, ⟨96, _⟩ => ⟨S100000x9, .f32⟩
  | .hbm, ⟨97, _⟩ => ⟨S1x64, .f32⟩
  | .hbm, ⟨98, _⟩ => ⟨S1x1, .f32⟩
  | .hbm, ⟨99, _⟩ => ⟨S1x64, .f32⟩
  | .hbm, ⟨100, _⟩ => ⟨S1x64, .f32⟩
  | .hbm, ⟨101, _⟩ => ⟨S100000x64, .f32⟩
  | .hbm, ⟨102, _⟩ => ⟨S100000x6, .f32⟩
  | .hbm, ⟨103, _⟩ => ⟨S100000x3, .f32⟩
  | .hbm, ⟨104, _⟩ => ⟨S100000x3, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x9, .f32⟩
  | .local _ .vmem, ⟨5, _⟩ => ⟨S8000x9, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S8x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S64x1, .f32⟩
  | .local _ .vmem, ⟨16, _⟩ => ⟨S1x1, .f32⟩
  | .local _ .vmem, ⟨17, _⟩ => ⟨S8000x64, .f32⟩
  | .local _ .vmem, ⟨18, _⟩ => ⟨S8000x64, .f32⟩
  | .local _ .vmem, ⟨19, _⟩ => ⟨S8000x1, .f32⟩
  | .local _ .vmem, ⟨20, _⟩ => ⟨S8000x1, .f32⟩
  | .local _ .vmem, ⟨21, _⟩ => ⟨S5000x64, .f32⟩
  | .local _ .vmem, ⟨22, _⟩ => ⟨S5000x64, .f32⟩
  | .local _ .vmem, ⟨23, _⟩ => ⟨S5000x9, .f32⟩
  | .local _ .vmem, ⟨24, _⟩ => ⟨S5000x9, .f32⟩
  | .local _ .vmem, ⟨25, _⟩ => ⟨S5000x64, .f32⟩
  | .local _ .vmem, ⟨26, _⟩ => ⟨S5000x64, .f32⟩
  | .local _ .vmem, ⟨27, _⟩ => ⟨S64x64, .f32⟩
  | .local _ .vmem, ⟨28, _⟩ => ⟨S1x64, .f32⟩
  | .local _ .vmem, ⟨29, _⟩ => ⟨S64x1, .f32⟩
  | .local _ .vmem, ⟨30, _⟩ => ⟨S1x1, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S64x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x6, .f32⟩
  | .local _ .vmem, ⟨39, _⟩ => ⟨S5000x6, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_3 : Ref sig .tc := ⟨.hbm, 49, rfl⟩
abbrev main_v23 : Ref sig .tc := ⟨.hbm, 50, rfl⟩
abbrev main_v24 : Ref sig .tc := ⟨.hbm, 51, rfl⟩
abbrev main_c_4 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_5 : Ref sig .tc := ⟨.hbm, 58, rfl⟩
abbrev main_v30 : Ref sig .tc := ⟨.hbm, 59, rfl⟩
abbrev main_v31 : Ref sig .tc := ⟨.hbm, 60, rfl⟩
abbrev main_c_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45_0 : Ref sig .tc := ⟨.hbm, 75, rfl⟩
abbrev main_v45_1 : Ref sig .tc := ⟨.hbm, 76, rfl⟩
abbrev main_v46 : Ref sig .tc := ⟨.hbm, 77, rfl⟩
abbrev main_v47 : Ref sig .tc := ⟨.hbm, 78, rfl⟩
abbrev main_cst_7 : Ref sig .tc := ⟨.hbm, 79, rfl⟩
abbrev main_v48 : Ref sig .tc := ⟨.hbm, 80, rfl⟩
abbrev main_v49 : Ref sig .tc := ⟨.hbm, 81, rfl⟩
abbrev main_cst_8 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_9 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67_0 : Ref sig .tc := ⟨.hbm, 101, rfl⟩
abbrev main_v67_1 : Ref sig .tc := ⟨.hbm, 102, rfl⟩
abbrev main_v68 : Ref sig .tc := ⟨.hbm, 103, rfl⟩
abbrev main_v69 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg11_0 : Ref sig .tc := ⟨.vmem, 35, rfl⟩
abbrev cc1_stg12_0 : Ref sig .tc := ⟨.vmem, 36, rfl⟩
abbrev cc1_stg12_1 : Ref sig .tc := ⟨.vmem, 37, rfl⟩
abbrev cc1_stg13_0 : Ref sig .tc := ⟨.vmem, 38, rfl⟩
abbrev cc1_stg13_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem10_0 : DmaSem sig := 34
abbrev cc1_sem11_0 : DmaSem sig := 35
abbrev cc1_sem12_0 : DmaSem sig := 36
abbrev cc1_sem12_1 : DmaSem sig := 37
abbrev cc1_sem13_0 : DmaSem sig := 38
abbrev cc1_sem13_1 : DmaSem sig := 39

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8000x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S5000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S5000x6 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  concatenates_S1600000x1_S1600000x8_S1600000x9_d1 : Shape.Concatenates [S1600000x1, S1600000x8] S1600000x9 1
  slices_S137x64_S64x64_0_0 : S137x64.Slices ![0, 0] S64x64
  slices_S137x64_S64x64_64_0 : S137x64.Slices ![64, 0] S64x64
  slices_S137x64_S1x64_128_0 : S137x64.Slices ![128, 0] S1x64
  slices_S137x64_S8x64_129_0 : S137x64.Slices ![129, 0] S8x64
  shapeCasts_S64_S1x64 : S64.ShapeCasts S1x64
  shapeCasts_S1_S1x1 : S1.ShapeCasts S1x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x9_S8000x9_0_0 : ∀ a, (![0, 0] : Fin 2 → Nat) a + S8000x9.size a ≤ S8000x9.size a
  h_S8000x9 : 0 < S8000x9.numel
  shapeCasts_S8000x9_S8000x9 : S8000x9.ShapeCasts S8000x9
  slices_S8000x9_o0_0_S8000x1 : S8000x9.Slices ![0, 0] S8000x1
  slices_S8000x9_o0_1_S8000x8 : S8000x9.Slices ![0, 1] S8000x8
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S8000x1_S8000x64 : S8000x1.Broadcasts S8000x64
  broadcasts_S1x64_S8000x64 : S1x64.Broadcasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  bcast_S1600000x1_S1600000x3_0_1 : S1600000x1.BroadcastsInDim S1600000x3 (![0, 1] : Fin 2 → Fin S1600000x3.rank)
  bcast_S_S1600000x1 : S_.BroadcastsInDim S1600000x1 (![] : Fin 0 → Fin S1600000x1.rank)
  concatenates_S1600000x64_S1600000x3_S1600000x1_S1600000x68_d1 : Shape.Concatenates [S1600000x64, S1600000x3, S1600000x1] S1600000x68 1
  bcast_S_S100000x68 : S_.BroadcastsInDim S100000x68 (![] : Fin 0 → Fin S100000x68.rank)
  slices_S100000x68_S100000x64_0_0 : S100000x68.Slices ![0, 0] S100000x64
  slices_S100000x68_S100000x3_0_64 : S100000x68.Slices ![0, 64] S100000x3
  slices_S100000x68_S100000x1_0_67 : S100000x68.Slices ![0, 67] S100000x1
  bcast_S_S100000x1 : S_.BroadcastsInDim S100000x1 (![] : Fin 0 → Fin S100000x1.rank)
  bcast_S100000x1_S100000x3_0_1 : S100000x1.BroadcastsInDim S100000x3 (![0, 1] : Fin 2 → Fin S100000x3.rank)
  slices_S128x64_S64x64_0_0 : S128x64.Slices ![0, 0] S64x64
  slices_S128x64_S64x64_64_0 : S128x64.Slices ![64, 0] S64x64
  concatenates_S100000x3_S100000x3_S100000x3_S100000x9_d1 : Shape.Concatenates [S100000x3, S100000x3, S100000x3] S100000x9 1
  inb_S5000x64_S5000x64_0_0 : ∀ a, (![0, 0] : Fin 2 → Nat) a + S5000x64.size a ≤ S5000x64.size a
  h_S5000x64 : 0 < S5000x64.numel
  inb_S5000x9_S5000x9_0_0 : ∀ a, (![0, 0] : Fin 2 → Nat) a + S5000x9.size a ≤ S5000x9.size a
  h_S5000x9 : 0 < S5000x9.numel
  shapeCasts_S5000x9_S5000x9 : S5000x9.ShapeCasts S5000x9
  slices_S5000x9_o0_0_S5000x3 : S5000x9.Slices ![0, 0] S5000x3
  slices_S5000x9_o0_3_S5000x3 : S5000x9.Slices ![0, 3] S5000x3
  slices_S5000x9_o0_6_S5000x3 : S5000x9.Slices ![0, 6] S5000x3
  shapeCasts_S5000x64_S5000x64 : S5000x64.ShapeCasts S5000x64
  broadcasts_S1x64_S5000x64 : S1x64.Broadcasts S5000x64
  broadcasts_S1x1_S5000x1 : S1x1.Broadcasts S5000x1
  broadcasts_S5000x1_S5000x3 : S5000x1.Broadcasts S5000x3
  inb_S5000x6_S5000x3_0_0 : ∀ a, (![0, 0] : Fin 2 → Nat) a + S5000x3.size a ≤ S5000x6.size a
  h_S5000x3 : 0 < S5000x3.numel
  inb_S5000x6_S5000x3_0_3 : ∀ a, (![0, 3] : Fin 2 → Nat) a + S5000x3.size a ≤ S5000x6.size a
  slices_S100000x6_S100000x3_0_0 : S100000x6.Slices ![0, 0] S100000x3
  slices_S100000x6_S100000x3_0_3 : S100000x6.Slices ![0, 3] S100000x3
  gather_S100000x3_S1600000x1_S1600000x3_1_0_n_n_0_1_13_wf : GatherDims.WF S100000x3 S1600000x1 S1600000x3 [1] [0] [] [0] [] 1 ![1, 3]
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  dot_S8000x8_S8x64_S8000x64_1_0_0_1_n_n_wf : DotDims.WF S8000x8 S8x64 S8000x64 [1] [0] [0] [1] [] []
  dot_S8000x64_S64x1_S8000x1_1_0_0_1_n_n_wf : DotDims.WF S8000x64 S64x1 S8000x1 [1] [0] [0] [1] [] []
  scatter_S100000x68_S1600000x1_S1600000x68_1_0_0_1_wf : ScatterDims.WF S100000x68 S1600000x1 S1600000x68 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x9.size a ≤ S1600000x9.size a
  hwx0_2 : ∀ i : grid0.Coords, EltTy.bits .f32 = 32 ∨ (Rect.block (s := S1600000x9) S8000x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x64.size a ≤ S8x64.size a
  hwx0_6 : ∀ i : grid0.Coords, EltTy.bits .f32 = 32 ∨ (Rect.block (s := S8x64) S8x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x1.size a ≤ S64x1.size a
  hwx0_12 : ∀ i : grid0.Coords, EltTy.bits .f32 = 32 ∨ (Rect.block (s := S64x1) S64x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8000x64.size a ≤ S1600000x64.size a
  hwx0_14 : ∀ i : grid0.Coords, EltTy.bits .f32 = 32 ∨ (Rect.block (s := S1600000x64) S8000x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8000x1.size a ≤ S1600000x1.size a
  hwx0_15 : ∀ i : grid0.Coords, EltTy.bits .f32 = 32 ∨ (Rect.block (s := S1600000x1) S8000x1.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x9.size a ≤ S100000x9.size a
  hwx1_1 : ∀ i : grid1.Coords, EltTy.bits .f32 = 32 ∨ (Rect.block (s := S100000x9) S5000x9.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x64.size a ≤ S64x64.size a
  hwx1_10 : ∀ i : grid1.Coords, EltTy.bits .f32 = 32 ∨ (Rect.block (s := S64x64) S64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x64.size a ≤ S100000x64.size a
  hwx1_12 : ∀ i : grid1.Coords, EltTy.bits .f32 = 32 ∨ (Rect.block (s := S100000x64) S5000x64.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S5000x6.size a ≤ S100000x6.size a
  hwx1_13 : ∀ i : grid1.Coords, EltTy.bits .f32 = 32 ∨ (Rect.block (s := S100000x6) S5000x6.size (cc1_transform_13 i) (hinb1_13 i)).WholeWords (EltTy.packing .f32)

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x8_S8x64_S8000x64_1_0_0_1_n_n : DotDims S8000x8 S8x64 S8000x64 where
  lhsContracting := [1]
  rhsContracting := [0]
  lhsNonContracting := [0]
  rhsNonContracting := [1]
  lhsBatch := []
  rhsBatch := []
  wf := dot_S8000x8_S8x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf
def scatter_S100000x68_S1600000x1_S1600000x68_1_0_0_1 : ScatterDims S100000x68 S1600000x1 S1600000x68 where
  updateWindowDims := [1]
  insertedWindowDims := [0]
  scatterDimsToOperandDims := [0]
  indexVectorDim := 1
  wf := scatter_S100000x68_S1600000x1_S1600000x68_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v29) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S8000x9.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S8x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v43) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S64x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v44) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v45_0) S8000x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v45_1) S8000x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S5000x9.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg16) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg18) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v61) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v65) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg14) S64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v66) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v67_0) S5000x64.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v67_1) S5000x6.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000x3 : Shape := ⟨2, ![100000, 3]⟩
abbrev S1600000x8 : Shape := ⟨2, ![1600000, 8]⟩
abbrev S137x64 : Shape := ⟨2, ![137, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S128x64 : Shape := ⟨2, ![128, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1600000x64 : Shape := ⟨2, ![1600000, 64]⟩
abbrev S1600000x137 : Shape := ⟨2, ![1600000, 137]⟩
abbrev S1x64 : Shape := ⟨2, ![1, 64]⟩
abbrev S1x1 : Shape := ⟨2, ![1, 1]⟩
abbrev S100000x1 : Shape := ⟨2, ![100000, 1]⟩
abbrev S100000x128 : Shape := ⟨2, ![100000, 128]⟩

abbrev nBuf : Space → Nat
  | .hbm => 131
  | .vmem => 0
  | .smem => 0
  | _ => 0

abbrev hbmTy0_0 (i : Nat) : BufTy := match i % 128 with
  | 0 => ⟨S100000x64, .f32⟩
  | 1 => ⟨S100000x3, .f32⟩
  | 2 => ⟨S100000x3, .f32⟩
  | 3 => ⟨S1600000x8, .f32⟩
  | 4 => ⟨S137x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x1, .f32⟩
  | 11 => ⟨S1, .f32⟩
  | 12 => ⟨S128x64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64x1, .f32⟩
  | 19 => ⟨S1, .f32⟩
  | 20 => ⟨S2x1600000, .i32⟩
  | 21 => ⟨S1x1600000, .i32⟩
  | 22 => ⟨S1600000, .i32⟩
  | 23 => ⟨S1x1600000, .i32⟩
  | 24 => ⟨S1600000, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x3, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x3, .f32⟩
  | 43 => ⟨S1600000x3, .f32⟩
  | 44 => ⟨S1600000x3, .f32⟩
  | 45 => ⟨S_, .f32⟩
  | 46 => ⟨S1600000, .f32⟩
  | 47 => ⟨S1600000x1, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x64, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1600000x137, .f32⟩
  | 67 => ⟨S1600000x64, .f32⟩
  | 68 => ⟨S1x64, .f32⟩
  | 69 => ⟨S1600000x64, .f32⟩
  | 70 => ⟨S1600000x64, .f32⟩
  | 71 => ⟨S1600000x64, .f32⟩
  | 72 => ⟨S1600000x64, .f32⟩
  | 73 => ⟨S1x64, .f32⟩
  | 74 => ⟨S1600000x64, .f32⟩
  | 75 => ⟨S1600000x64, .f32⟩
  | 76 => ⟨S1600000x64, .f32⟩
  | 77 => ⟨S1600000x64, .f32⟩
  | 78 => ⟨S1x64, .f32⟩
  | 79 => ⟨S1600000x64, .f32⟩
  | 80 => ⟨S1600000x64, .f32⟩
  | 81 => ⟨S1600000x64, .f32⟩
  | 82 => ⟨S1600000x1, .f32⟩
  | 83 => ⟨S1x1, .f32⟩
  | 84 => ⟨S1600000x1, .f32⟩
  | 85 => ⟨S1600000x1, .f32⟩
  | 86 => ⟨S1600000x1, .f32⟩
  | 87 => ⟨S100000x64, .f32⟩
  | 88 => ⟨S1x64, .f32⟩
  | 89 => ⟨S100000x64, .f32⟩
  | 90 => ⟨S100000x64, .f32⟩
  | 91 => ⟨S100000x64, .f32⟩
  | 92 => ⟨S100000x1, .f32⟩
  | 93 => ⟨S1x1, .f32⟩
  | 94 => ⟨S100000x1, .f32⟩
  | 95 => ⟨S100000x1, .f32⟩
  | 96 => ⟨S1600000x3, .f32⟩
  | 97 => ⟨S1600000x3, .f32⟩
  | 98 => ⟨S_, .f32⟩
  | 99 => ⟨S100000x3, .f32⟩
  | 100 => ⟨S1600000x1, .i32⟩
  | 101 => ⟨S100000x3, .f32⟩
  | 102 => ⟨S_, .f32⟩
  | 103 => ⟨S1600000x1, .f32⟩
  | 104 => ⟨S_, .f32⟩
  | 105 => ⟨S100000x1, .f32⟩
  | 106 => ⟨S1600000x1, .i32⟩
  | 107 => ⟨S100000x1, .f32⟩
  | 108 => ⟨S_, .f32⟩
  | 109 => ⟨S100000x1, .f32⟩
  | 110 => ⟨S100000x1, .f32⟩
  | 111 => ⟨S100000x3, .f32⟩
  | 112 => ⟨S100000x3, .f32⟩
  | 113 => ⟨S100000x3, .f32⟩
  | 114 => ⟨S100000x3, .f32⟩
  | 115 => ⟨S100000x3, .f32⟩
  | 116 => ⟨S100000x3, .f32⟩
  | 117 => ⟨S_, .f32⟩
  | 118 => ⟨S100000x64, .f32⟩
  | 119 => ⟨S1600000x1, .i32⟩
  | 120 => ⟨S100000x64, .f32⟩
  | 121 => ⟨S100000x128, .f32⟩
  | 122 => ⟨S100000x64, .f32⟩
  | 123 => ⟨S1x64, .f32⟩
  | 124 => ⟨S100000x64, .f32⟩
  | 125 => ⟨S100000x64, .f32⟩
  | 126 => ⟨S100000x64, .f32⟩
  | 127 => ⟨S100000x64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_v21 : Ref sig .tc := ⟨.hbm, 47, rfl⟩
abbrev main_c_3 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_5 : Ref sig .tc := ⟨.hbm, 57, rfl⟩
abbrev main_v29 : Ref sig .tc := ⟨.hbm, 58, rfl⟩
abbrev main_v30 : Ref sig .tc := ⟨.hbm, 59, rfl⟩
abbrev main_c_6 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_7 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_8 : Ref sig .tc := ⟨.hbm, 102, rfl⟩
abbrev main_v71 : Ref sig .tc := ⟨.hbm, 103, rfl⟩
abbrev main_cst_9 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_10 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_11 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  concatenates_S1600000x64_S1600000x64_S1600000x1_S1600000x8_S1600000x137_d1 : Shape.Concatenates [S1600000x64, S1600000x64, S1600000x1, S1600000x8] S1600000x137 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S1x64_S100000x64_0_1 : S1x64.BroadcastsInDim S100000x64 (![0, 1] : Fin 2 → Fin S100000x64.rank)
  bcast_S1x1_S100000x1_0_1 : S1x1.BroadcastsInDim S100000x1 (![0, 1] : Fin 2 → Fin S100000x1.rank)
  bcast_S1600000x1_S1600000x3_0_1 : S1600000x1.BroadcastsInDim S1600000x3 (![0, 1] : Fin 2 → Fin S1600000x3.rank)
  bcast_S_S100000x3 : S_.BroadcastsInDim S100000x3 (![] : Fin 0 → Fin S100000x3.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x3_0_1 : S100000x1.BroadcastsInDim S100000x3 (![0, 1] : Fin 2 → Fin S100000x3.rank)
  bcast_S_S100000x64 : S_.BroadcastsInDim S100000x64 (![] : Fin 0 → Fin S100000x64.rank)
  concatenates_S100000x64_S100000x64_S100000x128_d1 : Shape.Concatenates [S100000x64, S100000x64] S100000x128 1
  gather_S100000x3_S1600000x1_S1600000x3_1_0_n_n_0_1_13_wf : GatherDims.WF S100000x3 S1600000x1 S1600000x3 [1] [0] [] [0] [] 1 ![1, 3]
  gather_S100000x64_S1600000x1_S1600000x64_1_0_n_n_0_1_164_wf : GatherDims.WF S100000x64 S1600000x1 S1600000x64 [1] [0] [] [0] [] 1 ![1, 64]
  dot_S1600000x137_S137x64_S1600000x64_1_0_0_1_n_n_wf : DotDims.WF S1600000x137 S137x64 S1600000x64 [1] [0] [0] [1] [] []
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  scatter_S100000x3_S1600000x1_S1600000x3_1_0_0_1_wf : ScatterDims.WF S100000x3 S1600000x1 S1600000x3 [1] [0] [0] 1
  scatter_S100000x1_S1600000x1_S1600000x1_1_0_0_1_wf : ScatterDims.WF S100000x1 S1600000x1 S1600000x1 [1] [0] [0] 1
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x137_S137x64_S1600000x64_1_0_0_1_n_n : DotDims S1600000x137 S137x64 S1600000x64 where
  lhsContracting := [1]
  rhsContracting := [0]
  lhsNonContracting := [0]
  rhsNonContracting := [1]
  lhsBatch := []
  rhsBatch := []
  wf := dot_S1600000x137_S137x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.StageData.lean ====
import proofs.«169352_j52699248722544_2_alg».proof.Proof.Gen.KernelIdeal.Launch
import proofs.«169352_j52699248722544_2_alg».proof.Proof.Gen.KernelIdeal.Skeleton
import proofs.«169352_j52699248722544_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The data of the two pipelined stages

Everything below is stated at a parameter `V`: what the core's buffers hold when a stage is entered. -/

section Stages

variable (V : (c : Dev nD) → (b : Ref sig .tc) → Buf (Elt F) ((c : Thread nD τ).loc b))

/-! ## Whole-buffer rectangles of the staging shapes, and the two column halves of the 5000×6 buffer -/

abbrev boxE64 : Rect S8000x64 := Rect.unit (s := S8000x64) ![0, 0] S8000x64.size inb_S8000x64_S8000x64_0_0
abbrev boxE9 : Rect S8000x9 := Rect.unit (s := S8000x9) ![0, 0] S8000x9.size inb_S8000x9_S8000x9_0_0
abbrev boxE1 : Rect S8000x1 := Rect.unit (s := S8000x1) ![0, 0] S8000x1.size inb_S8000x1_S8000x1_0_0
abbrev boxSq : Rect S64x64 := Rect.unit (s := S64x64) ![0, 0] S64x64.size inb_S64x64_S64x64_0_0
abbrev boxRow : Rect S1x64 := Rect.unit (s := S1x64) ![0, 0] S1x64.size inb_S1x64_S1x64_0_0
abbrev boxOct : Rect S8x64 := Rect.unit (s := S8x64) ![0, 0] S8x64.size inb_S8x64_S8x64_0_0
abbrev boxCol : Rect S64x1 := Rect.unit (s := S64x1) ![0, 0] S64x1.size inb_S64x1_S64x1_0_0
abbrev boxPt : Rect S1x1 := Rect.unit (s := S1x1) ![0, 0] S1x1.size inb_S1x1_S1x1_0_0
abbrev boxN64 : Rect S5000x64 := Rect.unit (s := S5000x64) ![0, 0] S5000x64.size inb_S5000x64_S5000x64_0_0
abbrev boxN9 : Rect S5000x9 := Rect.unit (s := S5000x9) ![0, 0] S5000x9.size inb_S5000x9_S5000x9_0_0
/-- Columns 0, 1, 2 of the 5000×6 buffer. -/
abbrev boxLo : Rect S5000x6 := Rect.unit (s := S5000x6) ![0, 0] S5000x3.size inb_S5000x6_S5000x3_0_0
/-- Columns 3, 4, 5 of the 5000×6 buffer. -/
abbrev boxHi : Rect S5000x6 := Rect.unit (s := S5000x6) ![0, 3] S5000x3.size inb_S5000x6_S5000x3_0_3

/-! ## The edge stage (200 points, 16 windows) -/

/-- Window `w`'s block at point `t`, read off the window's array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 14's buffer (the messages) after the body: one store of the whole block. -/
def out0_14 (x0 x1 : Vec F S8000x64 .f32) (x2 : Vec F S8000x9 .f32) (x3 x4 : Vec F S64x64 .f32) (x5 : Vec F S1x64 .f32)
    (x6 : Vec F S8x64 .f32) (x7 : Vec F S1x64 .f32) (x8 : Vec F S64x64 .f32) (x9 : Vec F S1x64 .f32) : Vec F S8000x64 .f32 :=
  View.canon [⟨boxE64, k0_pay1 (k0_pay3 (View.ld x0 boxE64) (View.ld x1 boxE64) (View.ld x2 boxE9) (View.ld x5 boxRow) (View.ld x3 boxSq) (View.ld x4 boxSq) (View.ld x6 boxOct) (View.ld x7 boxRow)) (View.ld x8 boxSq) (View.ld x9 boxRow)⟩]

/-- Window 15's buffer (the coordinate gates) after the body: one store of the whole block. -/
def out0_15 (x0 x1 : Vec F S8000x64 .f32) (x2 : Vec F S8000x9 .f32) (x3 x4 : Vec F S64x64 .f32) (x5 : Vec F S1x64 .f32)
    (x6 : Vec F S8x64 .f32) (x7 : Vec F S1x64 .f32) (x8 : Vec F S64x64 .f32) (x9 : Vec F S1x64 .f32)
    (x10 : Vec F S64x64 .f32) (x11 : Vec F S1x64 .f32) (x12 : Vec F S64x1 .f32) (x13 : Vec F S1x1 .f32) : Vec F S8000x1 .f32 :=
  View.canon [⟨boxE1, k0_pay2 (k0_pay3 (View.ld x0 boxE64) (View.ld x1 boxE64) (View.ld x2 boxE9) (View.ld x5 boxRow) (View.ld x3 boxSq) (View.ld x4 boxSq) (View.ld x6 boxOct) (View.ld x7 boxRow)) (View.ld x8 boxSq) (View.ld x9 boxRow)
    (View.ld x10 boxSq) (View.ld x11 boxRow) (View.ld x12 boxCol) (View.ld x13 boxPt)⟩]

/-- The edge stage's proof data on core `c`: every array as the stage finds it; after the body at point `t` each input
    buffer still at its block and each output buffer at the stored value; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 16, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-! ## The node stage (20 points, 14 windows) -/

/-- Window `w`'s block at point `t`, read off the window's array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 12's buffer (the new features) after the body: one store of the whole block, from the node features `x0`,
    the summed messages `x2` and the update network's weights `x7 .. x11`. -/
def out1_12 (x0 x2 : Vec F S5000x64 .f32) (x7 x8 : Vec F S64x64 .f32) (x9 : Vec F S1x64 .f32) (x10 : Vec F S64x64 .f32)
    (x11 : Vec F S1x64 .f32) : Vec F S5000x64 .f32 :=
  View.canon [⟨boxN64, k1_pay1 (k1_pay5 (View.ld x0 boxN64) (View.ld x7 boxSq)) (k1_pay6 (View.ld x2 boxN64)) (k1_pay7 (View.ld x8 boxSq))
    (View.ld x9 boxRow) (View.ld x10 boxSq) (View.ld x11 boxRow)⟩]

/-- Window 13's buffer (new velocity in columns 0..2, new position in columns 3..5) after the body: two stores, the later
    one first, from the node features `x0`, the geometry block `x1` and the velocity network's weights `x3 .. x6`. -/
def out1_13 (x0 : Vec F S5000x64 .f32) (x1 : Vec F S5000x9 .f32) (x3 : Vec F S64x64 .f32) (x4 : Vec F S1x64 .f32)
    (x5 : Vec F S64x1 .f32) (x6 : Vec F S1x1 .f32) : Vec F S5000x6 .f32 :=
  View.canon [⟨boxHi, k1_pay4 (View.ld x0 boxN64) (View.ld x1 boxN9) (View.ld x3 boxSq) (View.ld x4 boxRow) (View.ld x5 boxCol) (View.ld x6 boxPt)⟩,
    ⟨boxLo, k1_pay3 (View.ld x0 boxN64) (View.ld x1 boxN9) (View.ld x3 boxSq) (View.ld x4 boxRow) (View.ld x5 boxCol) (View.ld x6 boxPt)⟩]

/-- The node stage's proof data on core `c`, as the edge stage's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 2 t) (iblk1 V c 7 t) (iblk1 V c 8 t) (iblk1 V c 9 t) (iblk1 V c 10 t) (iblk1 V c 11 t)
    | ⟨13, _⟩ => out1_13 (iblk1 V c 0 t) (iblk1 V c 1 t) (iblk1 V c 3 t) (iblk1 V c 4 t) (iblk1 V c 5 t) (iblk1 V c 6 t)
    | ⟨_ + 14, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 2 t) (iblk1 V c 7 t) (iblk1 V c 8 t) (iblk1 V c 9 t) (iblk1 V c 10 t) (iblk1 V c 11 t) := by dsimp only [dat1]
theorem after1_13 (c : Dev nD) (t : Fin cfg1.N) : (dat1 V c).after 13 t = out1_13 (iblk1 V c 0 t) (iblk1 V c 1 t) (iblk1 V c 3 t) (iblk1 V c 4 t) (iblk1 V c 5 t) (iblk1 V c 6 t) := by dsimp only [dat1]

end Stages

/-! # The buffers' contents at the five boundaries of the run

The run is: a stretch of plain operations, the edge stage, a second stretch, the node stage, a last stretch. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch: what the edge stage is entered from. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b
/-- After the edge stage: its arrays at what its write-backs leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- After the second stretch: what the node stage is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the node stage. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
/-- After the last stretch: the end of the run. -/
abbrev W5 : Dev nD → Valuation τ sig (Elt F) := fun c => StableHlo.after hostOps2 (W4 m ρ c)

end Cert.KernelIdeal.Stage

end
-- ==== Proof.EdgeStage.lean ====
import proofs.«169352_j52699248722544_2_alg».proof.Proof.StageData

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in an input window's buffer

An input window's current buffer holds the window's block at the point, whether or not a copy was started there: where
none was, the block index has not moved since the point before, and the body left the block in place. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)
theorem before0_12 (c : Dev nD) (t : Fin cfg0.N) (d) : (dat0 V c).before 12 t d = iblk0 V c 12 t :=
  ((dat0 V c).before_in_eq_fetched 12 rfl (fun _ => rfl) (fun _ _ _ => rfl)
    (fun t => by rw [after0_12]; unfold Dat.blockOf iblk0; rw [A_eq0]; try rfl) t d).trans
    (by unfold Dat.fetched Dat.blockOf iblk0; rw [A_eq0]; try rfl)
theorem before0_13 (c : Dev nD) (t : Fin cfg0.N) (d) : (dat0 V c).before 13 t d = iblk0 V c 13 t :=
  ((dat0 V c).before_in_eq_fetched 13 rfl (fun _ => rfl) (fun _ _ _ => rfl)
    (fun t => by rw [after0_13]; unfold Dat.blockOf iblk0; rw [A_eq0]; try rfl) t d).trans
    (by unfold Dat.fetched Dat.blockOf iblk0; rw [A_eq0]; try rfl)

/-! ## The stores of an output window fill its buffer -/

theorem cover0_14 (p0 : Vec F S8000x64 .f32) (y : S8000x64.Idx) :
    ∃ pc ∈ ([⟨boxE64, p0⟩] : List (View.Piece (Elt F) S8000x64 .f32)), y ∈ pc.1.set :=
  View.cover_of_tiled [⟨boxE64, p0⟩] S8000x64.size (by rfl) y
theorem cover0_15 (p0 : Vec F S8000x1 .f32) (y : S8000x1.Idx) :
    ∃ pc ∈ ([⟨boxE1, p0⟩] : List (View.Piece (Elt F) S8000x1 .f32)), y ∈ pc.1.set :=
  View.cover_of_tiled [⟨boxE1, p0⟩] S8000x1.size (by rfl) y

/-! ## The body on whole staging buffers -/

set_option maxHeartbeats 4000000 in
/-- The body, run on whole staging buffers whose inputs read `x0 …` and whose outputs hold anything, reaches its
    continuation with the inputs as they were and each output at its stored value. -/
theorem sound_kernel0 (c : Dev nD) (E : Set ℕ) (i : grid0.Coords)
    (a0 : Memref sig .tc .vmem S8000x64 .f32) (h0 : a0.IsWhole) (a1 : Memref sig .tc .vmem S8000x64 .f32) (h1 : a1.IsWhole) (a2 : Memref sig .tc .vmem S8000x9 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S8x64 .f32) (h6 : a6.IsWhole) (a7 : Memref sig .tc .vmem S1x64 .f32) (h7 : a7.IsWhole) (a8 : Memref sig .tc .vmem S64x64 .f32) (h8 : a8.IsWhole) (a9 : Memref sig .tc .vmem S1x64 .f32) (h9 : a9.IsWhole) (a10 : Memref sig .tc .vmem S64x64 .f32) (h10 : a10.IsWhole) (a11 : Memref sig .tc .vmem S1x64 .f32) (h11 : a11.IsWhole) (a12 : Memref sig .tc .vmem S64x1 .f32) (h12 : a12.IsWhole) (a13 : Memref sig .tc .vmem S1x1 .f32) (h13 : a13.IsWhole) (a14 : Memref sig .tc .vmem S8000x64 .f32) (h14 : a14.IsWhole) (a15 : Memref sig .tc .vmem S8000x1 .f32) (h15 : a15.IsWhole)
    (x0 : Vec F S8000x64 .f32) (x1 : Vec F S8000x64 .f32) (x2 : Vec F S8000x9 .f32) (x3 : Vec F S64x64 .f32) (x4 : Vec F S64x64 .f32) (x5 : Vec F S1x64 .f32) (x6 : Vec F S8x64 .f32) (x7 : Vec F S1x64 .f32) (x8 : Vec F S64x64 .f32) (x9 : Vec F S1x64 .f32) (x10 : Vec F S64x64 .f32) (x11 : Vec F S1x64 .f32) (x12 : Vec F S64x1 .f32) (x13 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13
        ∗ (∃ d, owns (c : Thread nD τ) a14 fullShare d) ∗ (∃ d, owns (c : Thread nD τ) a15 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13
            ∗ owns (c : Thread nD τ) a14 fullShare (out0_14 x0 x1 x2 x3 x4 x5 x6 x7 x8 x9) ∗ owns (c : Thread nD τ) a15 fullShare (out0_15 x0 x1 x2 x3 x4 x5 x6 x7 x8 x9 x10 x11 x12 x13)) -∗ K ⟨⟩))
      ⊢ wp frame (wpE (defs₀ (F := F)) Variants.none c none) E (cc0__edge_mlp_kernel i a0 h0 a1 h1 a2 h2 a3 h3 a4 h4 a5 h5 a6 h6 a7 h7 a8 h8 a9 h9 a10 h10 a11 h11 a12 h12 a13 h13 a14 h14 a15 h15) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover0_14 _)
  iexists _; isplitr
  swap; · iexact H15
  ipureintro
  exact View.read_writes_eq_canon _ _ _ (cover0_15 _)

/-! ## The body at a point of the grid -/

/-- What the body is entered with at point `t`: the stage's invariant, what the core owes, and every window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

set_option maxHeartbeats 4000000 in
/-- The body at any point: each input buffer holds its block, so the triple on whole buffers applies; the invariant and
    the core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body obligation of the stage's pipeline, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Stage

end
-- ==== Proof.NodeStage.lean ====
import proofs.«169352_j52699248722544_2_alg».proof.Proof.StageData

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in an input window's buffer

An input window's current buffer holds the window's block at the point, whether or not a copy was started there: where
none was, the block index has not moved since the point before, and the body left the block in place. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl)
    (fun t => by rw [after1_11]; unfold Dat.blockOf iblk1; rw [A_eq1]; try rfl) t d).trans
    (by unfold Dat.fetched Dat.blockOf iblk1; rw [A_eq1]; try rfl)

/-! ## The stores of an output window fill its buffer -/

theorem cover1_12 (p0 : Vec F S5000x64 .f32) (y : S5000x64.Idx) :
    ∃ pc ∈ ([⟨boxN64, p0⟩] : List (View.Piece (Elt F) S5000x64 .f32)), y ∈ pc.1.set :=
  View.cover_of_tiled [⟨boxN64, p0⟩] S5000x64.size (by rfl) y
theorem cover1_13 (p0 : Vec F S5000x3 .f32) (p1 : Vec F S5000x3 .f32) (y : S5000x6.Idx) :
    ∃ pc ∈ ([⟨boxHi, p0⟩, ⟨boxLo, p1⟩] : List (View.Piece (Elt F) S5000x6 .f32)), y ∈ pc.1.set :=
  View.cover_of_tiled [⟨boxHi, p0⟩, ⟨boxLo, p1⟩] S5000x3.size (by rfl) y

/-! ## The body on whole staging buffers -/

set_option maxHeartbeats 4000000 in
/-- The body, run on whole staging buffers whose inputs read `x0 …` and whose outputs hold anything, reaches its
    continuation with the inputs as they were and each output at its stored value. -/
theorem sound_kernel1 (c : Dev nD) (E : Set ℕ) (i : grid1.Coords)
    (a0 : Memref sig .tc .vmem S5000x64 .f32) (h0 : a0.IsWhole) (a1 : Memref sig .tc .vmem S5000x9 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x1 .f32) (h5 : a5.IsWhole) (a6 : Memref sig .tc .vmem S1x1 .f32) (h6 : a6.IsWhole) (a7 : Memref sig .tc .vmem S64x64 .f32) (h7 : a7.IsWhole) (a8 : Memref sig .tc .vmem S64x64 .f32) (h8 : a8.IsWhole) (a9 : Memref sig .tc .vmem S1x64 .f32) (h9 : a9.IsWhole) (a10 : Memref sig .tc .vmem S64x64 .f32) (h10 : a10.IsWhole) (a11 : Memref sig .tc .vmem S1x64 .f32) (h11 : a11.IsWhole) (a12 : Memref sig .tc .vmem S5000x64 .f32) (h12 : a12.IsWhole) (a13 : Memref sig .tc .vmem S5000x6 .f32) (h13 : a13.IsWhole)
    (x0 : Vec F S5000x64 .f32) (x1 : Vec F S5000x9 .f32) (x2 : Vec F S5000x64 .f32) (x3 : Vec F S64x64 .f32) (x4 : Vec F S1x64 .f32) (x5 : Vec F S64x1 .f32) (x6 : Vec F S1x1 .f32) (x7 : Vec F S64x64 .f32) (x8 : Vec F S64x64 .f32) (x9 : Vec F S1x64 .f32) (x10 : Vec F S64x64 .f32) (x11 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11
        ∗ (∃ d, owns (c : Thread nD τ) a12 fullShare d) ∗ (∃ d, owns (c : Thread nD τ) a13 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11
            ∗ owns (c : Thread nD τ) a12 fullShare (out1_12 x0 x2 x7 x8 x9 x10 x11) ∗ owns (c : Thread nD τ) a13 fullShare (out1_13 x0 x1 x3 x4 x5 x6)) -∗ K ⟨⟩))
      ⊢ wp frame (wpE (defs₀ (F := F)) Variants.none c none) E (cc1__node_update_kernel i a0 h0 a1 h1 a2 h2 a3 h3 a4 h4 a5 h5 a6 h6 a7 h7 a8 h8 a9 h9 a10 h10 a11 h11 a12 h12 a13 h13) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover1_12 _)
  iexists _; isplitr
  swap; · iexact H13
  ipureintro
  exact View.read_writes_eq_canon _ _ _ (cover1_13 _ _)

/-! ## The body at a point of the grid -/

/-- What the body is entered with at point `t`: the stage's invariant, what the core owes, and every window's current
    staging buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 4000000 in
/-- The body at any point: each input buffer holds its block, so the triple on whole buffers applies; the invariant and
    the core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation of the stage's pipeline, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Stage

end
-- ==== Proof.Run.lean ====
import proofs.«169352_j52699248722544_2_alg».proof.Proof.EdgeStage
import proofs.«169352_j52699248722544_2_alg».proof.Proof.NodeStage
import proofs.«169352_j52699248722544_2_alg».proof.Proof.Gen.KernelIdeal.Regions

set_option maxRecDepth 16384

noncomputable section

namespace Cert.KernelIdeal.Stage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: three stretches of plain operations around the two pipelined stages -/

/-! ## Each stage's arrays at its exit, and every other buffer as at its entry -/

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched

No plain operation writes an argument; a stage reads an argument through an input window, whose array it leaves as found,
or does not touch it. So the contents at the end, read at an argument, walk back to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 8).trans (((dat0 (V1 m ρ) c).arrAt_in 8 rfl _).trans (A_eq0 (V1 m ρ) c 8))
    _ = W0 m ρ c (Proc.devRef .tc main_arg6) := StableHlo.after_of_writes_sub hostOps0 _ hostOps0_writes (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := (W2_arr m ρ c 10).trans (((dat0 (V1 m ρ) c).arrAt_in 10 rfl _).trans (A_eq0 (V1 m ρ) c 10))
    _ = W0 m ρ c (Proc.devRef .tc main_arg8) := StableHlo.after_of_writes_sub hostOps0 _ hostOps0_writes (by decide)
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := (W2_arr m ρ c 12).trans (((dat0 (V1 m ρ) c).arrAt_in 12 rfl _).trans (A_eq0 (V1 m ρ) c 12))
    _ = W0 m ρ c (Proc.devRef .tc main_arg10) := StableHlo.after_of_writes_sub hostOps0 _ hostOps0_writes (by decide)
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := StableHlo.after_of_writes_sub hostOps2 _ hostOps2_writes (by decide)
    _ = W3 m ρ c (Proc.devRef .tc main_arg14) := (W4_arr m ρ c 10).trans (((dat1 (V3 m ρ) c).arrAt_in 10 rfl _).trans (A_eq1 (V3 m ρ) c 10))
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := StableHlo.after_of_writes_sub hostOps2 _ hostOps2_writes (by decide)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

theorem W5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := StableHlo.after_of_writes_sub hostOps2 _ hostOps2_writes (by decide)
    _ = W3 m ρ c (Proc.devRef .tc main_arg16) := (W4_arr m ρ c 3).trans (((dat1 (V3 m ρ) c).arrAt_in 3 rfl _).trans (A_eq1 (V3 m ρ) c 3))
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl

theorem W5_main_arg17 (c : Dev nD) : W5 m ρ c (Proc.devRef .tc main_arg17) = m ((c : Thread nD τ).loc main_arg17) :=
  calc W5 m ρ c (Proc.devRef .tc main_arg17)
    _ = W4 m ρ c (Proc.devRef .tc main_arg17) := StableHlo.after_of_writes_sub hostOps2 _ hostOps2_writes (by decide)
    _ = W3 m ρ c (Proc.devRef .tc main_arg17) := W4_of_ne m ρ c main_arg17 (by decide)
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl

theorem W5_main_arg18 (c : Dev nD) : W5 m ρ c (Proc.devRef .tc main_arg18) = m ((c : Thread nD τ).loc main_arg18) :=
  calc W5 m ρ c (Proc.devRef .tc main_arg18)
    _ = W4 m ρ c (Proc.devRef .tc main_arg18) := StableHlo.after_of_writes_sub hostOps2 _ hostOps2_writes (by decide)
    _ = W3 m ρ c (Proc.devRef .tc main_arg18) := (W4_arr m ρ c 5).trans (((dat1 (V3 m ρ) c).arrAt_in 5 rfl _).trans (A_eq1 (V3 m ρ) c 5))
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl

theorem W5_main_arg19 (c : Dev nD) : W5 m ρ c (Proc.devRef .tc main_arg19) = m ((c : Thread nD τ).loc main_arg19) :=
  calc W5 m ρ c (Proc.devRef .tc main_arg19)
    _ = W4 m ρ c (Proc.devRef .tc main_arg19) := StableHlo.after_of_writes_sub hostOps2 _ hostOps2_writes (by decide)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = W0 m ρ c (Proc.devRef .tc main_arg19) := StableHlo.after_of_writes_sub hostOps0 _ hostOps0_writes (by decide)
    _ = m ((c : Thread nD τ).loc main_arg19) := rfl

theorem W5_main_arg20 (c : Dev nD) : W5 m ρ c (Proc.devRef .tc main_arg20) = m ((c : Thread nD τ).loc main_arg20) :=
  calc W5 m ρ c (Proc.devRef .tc main_arg20)
    _ = W4 m ρ c (Proc.devRef .tc main_arg20) := StableHlo.after_of_writes_sub hostOps2 _ hostOps2_writes (by decide)
    _ = W3 m ρ c (Proc.devRef .tc main_arg20) := W4_of_ne m ρ c main_arg20 (by decide)
    _ = W2 m ρ c (Proc.devRef .tc main_arg20) := StableHlo.after_of_writes_sub hostOps1 _ hostOps1_writes (by decide)
    _ = W1 m ρ c (Proc.devRef .tc main_arg20) := W2_of_ne m ρ c main_arg20 (by decide)
    _ = W0 m ρ c (Proc.devRef .tc main_arg20) := StableHlo.after_of_writes_sub hostOps0 _ hostOps0_writes (by decide)
    _ = m ((c : Thread nD τ).loc main_arg20) := rfl

/-! ## The proof data of both stages, and what rides beside the buffers -/

abbrev adm : (p : Fin 2) → (pcfgs (F := F) p).Adm := fun p => (cfgs p).toPCfg_adm
/-- Each stage's proof data at the contents the stage is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
/-- A stretch of plain operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the register at some state. -/
abbrev Tₙ (c : Dev nD) : sProp 𝕄 := iprop(StableHlo.held (c : Thread nD τ) (Pipeline.ucRefs τ sig) (W5 m ρ c) ∗ ∃ r, prngReg c r)

/-! ## The stages as segments -/

set_option backward.isDefEq.respectTransparency.types false in
/-- Stage 0 as a segment of the run: entered with every unscoped buffer at `W1`, left with them at `W2`. Its
    arrays are split out of the unscoped buffers on entry and put back at their final contents on exit; the generator
    register goes into the stage's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 as a segment of the run: entered with every unscoped buffer at `W3`, left with them at `W4`. Its
    arrays are split out of the unscoped buffers on entry and put back at their final contents on exit; the generator
    register goes into the stage's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- The program is the run of the five segments. -/
theorem main_run (c : Dev nD) : main (F := F) c = Pipeline.Seg.run (segs m ρ) := by
  rw [main_chain c, Pipeline.Seg.run_eq_chain]; rfl

set_option backward.isDefEq.respectTransparency.types false in
/-- From any memory with zero counters every weakly fair execution terminates without fault, and every unscoped buffer
    of every core ends at the final contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: the run terminates without fault and every argument array ends holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run _ _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c),
     (h c _ (mem_uc main_arg15 (by decide))).trans (W5_main_arg15 m ρ c),
     (h c _ (mem_uc main_arg16 (by decide))).trans (W5_main_arg16 m ρ c),
     (h c _ (mem_uc main_arg17 (by decide))).trans (W5_main_arg17 m ρ c),
     (h c _ (mem_uc main_arg18 (by decide))).trans (W5_main_arg18 m ρ c),
     (h c _ (mem_uc main_arg19 (by decide))).trans (W5_main_arg19 m ρ c),
     (h c _ (mem_uc main_arg20 (by decide))).trans (W5_main_arg20 m ρ c)⟩) (run_all m ρ)

end Cert.KernelIdeal.Stage

end
-- ==== Proof.BitsStageData.lean ====
import proofs.«169352_j52699248722544_2_alg».proof.Proof.Gen.Kernel.Launch
import proofs.«169352_j52699248722544_2_alg».proof.Proof.Gen.Kernel.Skeleton
import proofs.«169352_j52699248722544_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The data of the two pipelined stages

Everything below is stated at a parameter `V`: what the core's buffers hold when a stage is entered. -/

section Stages

variable (V : (c : Dev nD) → (b : Ref sig .tc) → Buf (Elt F) ((c : Thread nD τ).loc b))

/-! ## Whole-buffer rectangles of the staging shapes, and the two column halves of the 5000×6 buffer -/

abbrev boxE64 : Rect S8000x64 := Rect.unit (s := S8000x64) ![0, 0] S8000x64.size inb_S8000x64_S8000x64_0_0
abbrev boxE9 : Rect S8000x9 := Rect.unit (s := S8000x9) ![0, 0] S8000x9.size inb_S8000x9_S8000x9_0_0
abbrev boxE1 : Rect S8000x1 := Rect.unit (s := S8000x1) ![0, 0] S8000x1.size inb_S8000x1_S8000x1_0_0
abbrev boxSq : Rect S64x64 := Rect.unit (s := S64x64) ![0, 0] S64x64.size inb_S64x64_S64x64_0_0
abbrev boxRow : Rect S1x64 := Rect.unit (s := S1x64) ![0, 0] S1x64.size inb_S1x64_S1x64_0_0
abbrev boxOct : Rect S8x64 := Rect.unit (s := S8x64) ![0, 0] S8x64.size inb_S8x64_S8x64_0_0
abbrev boxCol : Rect S64x1 := Rect.unit (s := S64x1) ![0, 0] S64x1.size inb_S64x1_S64x1_0_0
abbrev boxPt : Rect S1x1 := Rect.unit (s := S1x1) ![0, 0] S1x1.size inb_S1x1_S1x1_0_0
abbrev boxN64 : Rect S5000x64 := Rect.unit (s := S5000x64) ![0, 0] S5000x64.size inb_S5000x64_S5000x64_0_0
abbrev boxN9 : Rect S5000x9 := Rect.unit (s := S5000x9) ![0, 0] S5000x9.size inb_S5000x9_S5000x9_0_0
/-- Columns 0, 1, 2 of the 5000×6 buffer. -/
abbrev boxLo : Rect S5000x6 := Rect.unit (s := S5000x6) ![0, 0] S5000x3.size inb_S5000x6_S5000x3_0_0
/-- Columns 3, 4, 5 of the 5000×6 buffer. -/
abbrev boxHi : Rect S5000x6 := Rect.unit (s := S5000x6) ![0, 3] S5000x3.size inb_S5000x6_S5000x3_0_3

/-! ## The edge stage (200 points, 16 windows) -/

/-- Window `w`'s block at point `t`, read off the window's array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 14's buffer (the messages) after the body: one store of the whole block. -/
def out0_14 (x0 x1 : Vec F S8000x64 .f32) (x2 : Vec F S8000x9 .f32) (x3 x4 : Vec F S64x64 .f32) (x5 : Vec F S1x64 .f32)
    (x6 : Vec F S8x64 .f32) (x7 : Vec F S1x64 .f32) (x8 : Vec F S64x64 .f32) (x9 : Vec F S1x64 .f32) : Vec F S8000x64 .f32 :=
  View.canon [⟨boxE64, k0_pay1 (k0_pay3 (View.ld x0 boxE64) (View.ld x1 boxE64) (View.ld x2 boxE9) (View.ld x5 boxRow) (View.ld x3 boxSq) (View.ld x4 boxSq) (View.ld x6 boxOct) (View.ld x7 boxRow)) (View.ld x8 boxSq) (View.ld x9 boxRow)⟩]

/-- Window 15's buffer (the coordinate gates) after the body: one store of the whole block. -/
def out0_15 (x0 x1 : Vec F S8000x64 .f32) (x2 : Vec F S8000x9 .f32) (x3 x4 : Vec F S64x64 .f32) (x5 : Vec F S1x64 .f32)
    (x6 : Vec F S8x64 .f32) (x7 : Vec F S1x64 .f32) (x8 : Vec F S64x64 .f32) (x9 : Vec F S1x64 .f32)
    (x10 : Vec F S64x64 .f32) (x11 : Vec F S1x64 .f32) (x12 : Vec F S64x1 .f32) (x13 : Vec F S1x1 .f32) : Vec F S8000x1 .f32 :=
  View.canon [⟨boxE1, k0_pay2 (k0_pay3 (View.ld x0 boxE64) (View.ld x1 boxE64) (View.ld x2 boxE9) (View.ld x5 boxRow) (View.ld x3 boxSq) (View.ld x4 boxSq) (View.ld x6 boxOct) (View.ld x7 boxRow)) (View.ld x8 boxSq) (View.ld x9 boxRow)
    (View.ld x10 boxSq) (View.ld x11 boxRow) (View.ld x12 boxCol) (View.ld x13 boxPt)⟩]

/-- The edge stage's proof data on core `c`: every array as the stage finds it; after the body at point `t` each input
    buffer still at its block and each output buffer at the stored value; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 16, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-! ## The node stage (20 points, 14 windows) -/

/-- Window `w`'s block at point `t`, read off the window's array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 12's buffer (the new features) after the body: one store of the whole block, from the node features `x0`,
    the summed messages `x2` and the update network's weights `x7 .. x11`. -/
def out1_12 (x0 x2 : Vec F S5000x64 .f32) (x7 x8 : Vec F S64x64 .f32) (x9 : Vec F S1x64 .f32) (x10 : Vec F S64x64 .f32)
    (x11 : Vec F S1x64 .f32) : Vec F S5000x64 .f32 :=
  View.canon [⟨boxN64, k1_pay1 (k1_pay5 (View.ld x0 boxN64) (View.ld x7 boxSq)) (k1_pay6 (View.ld x2 boxN64)) (k1_pay7 (View.ld x8 boxSq))
    (View.ld x9 boxRow) (View.ld x10 boxSq) (View.ld x11 boxRow)⟩]

/-- Window 13's buffer (new velocity in columns 0..2, new position in columns 3..5) after the body: two stores, the later
    one first, from the node features `x0`, the geometry block `x1` and the velocity network's weights `x3 .. x6`. -/
def out1_13 (x0 : Vec F S5000x64 .f32) (x1 : Vec F S5000x9 .f32) (x3 : Vec F S64x64 .f32) (x4 : Vec F S1x64 .f32)
    (x5 : Vec F S64x1 .f32) (x6 : Vec F S1x1 .f32) : Vec F S5000x6 .f32 :=
  View.canon [⟨boxHi, k1_pay4 (View.ld x0 boxN64) (View.ld x1 boxN9) (View.ld x3 boxSq) (View.ld x4 boxRow) (View.ld x5 boxCol) (View.ld x6 boxPt)⟩,
    ⟨boxLo, k1_pay3 (View.ld x0 boxN64) (View.ld x1 boxN9) (View.ld x3 boxSq) (View.ld x4 boxRow) (View.ld x5 boxCol) (View.ld x6 boxPt)⟩]

/-- The node stage's proof data on core `c`, as the edge stage's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 2 t) (iblk1 V c 7 t) (iblk1 V c 8 t) (iblk1 V c 9 t) (iblk1 V c 10 t) (iblk1 V c 11 t)
    | ⟨13, _⟩ => out1_13 (iblk1 V c 0 t) (iblk1 V c 1 t) (iblk1 V c 3 t) (iblk1 V c 4 t) (iblk1 V c 5 t) (iblk1 V c 6 t)
    | ⟨_ + 14, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 2 t) (iblk1 V c 7 t) (iblk1 V c 8 t) (iblk1 V c 9 t) (iblk1 V c 10 t) (iblk1 V c 11 t) := by dsimp only [dat1]
theorem after1_13 (c : Dev nD) (t : Fin cfg1.N) : (dat1 V c).after 13 t = out1_13 (iblk1 V c 0 t) (iblk1 V c 1 t) (iblk1 V c 3 t) (iblk1 V c 4 t) (iblk1 V c 5 t) (iblk1 V c 6 t) := by dsimp only [dat1]

end Stages

/-! # The buffers' contents at the five boundaries of the run

The run is: a stretch of plain operations, the edge stage, a second stretch, the node stage, a last stretch. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch: what the edge stage is entered from. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b
/-- After the edge stage: its arrays at what its write-backs leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- After the second stretch: what the node stage is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the node stage. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
/-- After the last stretch: the end of the run. -/
abbrev W5 : Dev nD → Valuation τ sig (Elt F) := fun c => StableHlo.after hostOps2 (W4 m ρ c)

end Cert.Kernel.Stage

end
-- ==== Proof.BitsEdgeStage.lean ====
import proofs.«169352_j52699248722544_2_alg».proof.Proof.BitsStageData

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in an input window's buffer

An input window's current buffer holds the window's block at the point, whether or not a copy was started there: where
none was, the block index has not moved since the point before, and the body left the block in place. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl)
    (fun t => by rw [after0_11]; unfold Dat.blockOf iblk0; rw [A_eq0]; try rfl) t d).trans
    (by unfold Dat.fetched Dat.blockOf iblk0; rw [A_eq0]; try rfl)
theorem before0_12 (c : Dev nD) (t : Fin cfg0.N) (d) : (dat0 V c).before 12 t d = iblk0 V c 12 t :=
  ((dat0 V c).before_in_eq_fetched 12 rfl (fun _ => rfl) (fun _ _ _ => rfl)
    (fun t => by rw [after0_12]; unfold Dat.blockOf iblk0; rw [A_eq0]; try rfl) t d).trans
    (by unfold Dat.fetched Dat.blockOf iblk0; rw [A_eq0]; try rfl)
theorem before0_13 (c : Dev nD) (t : Fin cfg0.N) (d) : (dat0 V c).before 13 t d = iblk0 V c 13 t :=
  ((dat0 V c).before_in_eq_fetched 13 rfl (fun _ => rfl) (fun _ _ _ => rfl)
    (fun t => by rw [after0_13]; unfold Dat.blockOf iblk0; rw [A_eq0]; try rfl) t d).trans
    (by unfold Dat.fetched Dat.blockOf iblk0; rw [A_eq0]; try rfl)

/-! ## The stores of an output window fill its buffer -/

theorem cover0_14 (p0 : Vec F S8000x64 .f32) (y : S8000x64.Idx) :
    ∃ pc ∈ ([⟨boxE64, p0⟩] : List (View.Piece (Elt F) S8000x64 .f32)), y ∈ pc.1.set :=
  View.cover_of_tiled [⟨boxE64, p0⟩] S8000x64.size (by rfl) y
theorem cover0_15 (p0 : Vec F S8000x1 .f32) (y : S8000x1.Idx) :
    ∃ pc ∈ ([⟨boxE1, p0⟩] : List (View.Piece (Elt F) S8000x1 .f32)), y ∈ pc.1.set :=
  View.cover_of_tiled [⟨boxE1, p0⟩] S8000x1.size (by rfl) y

/-! ## The body on whole staging buffers -/

set_option maxHeartbeats 4000000 in
/-- The body, run on whole staging buffers whose inputs read `x0 …` and whose outputs hold anything, reaches its
    continuation with the inputs as they were and each output at its stored value. -/
theorem sound_kernel0 (c : Dev nD) (E : Set ℕ) (i : grid0.Coords)
    (a0 : Memref sig .tc .vmem S8000x64 .f32) (h0 : a0.IsWhole) (a1 : Memref sig .tc .vmem S8000x64 .f32) (h1 : a1.IsWhole) (a2 : Memref sig .tc .vmem S8000x9 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S8x64 .f32) (h6 : a6.IsWhole) (a7 : Memref sig .tc .vmem S1x64 .f32) (h7 : a7.IsWhole) (a8 : Memref sig .tc .vmem S64x64 .f32) (h8 : a8.IsWhole) (a9 : Memref sig .tc .vmem S1x64 .f32) (h9 : a9.IsWhole) (a10 : Memref sig .tc .vmem S64x64 .f32) (h10 : a10.IsWhole) (a11 : Memref sig .tc .vmem S1x64 .f32) (h11 : a11.IsWhole) (a12 : Memref sig .tc .vmem S64x1 .f32) (h12 : a12.IsWhole) (a13 : Memref sig .tc .vmem S1x1 .f32) (h13 : a13.IsWhole) (a14 : Memref sig .tc .vmem S8000x64 .f32) (h14 : a14.IsWhole) (a15 : Memref sig .tc .vmem S8000x1 .f32) (h15 : a15.IsWhole)
    (x0 : Vec F S8000x64 .f32) (x1 : Vec F S8000x64 .f32) (x2 : Vec F S8000x9 .f32) (x3 : Vec F S64x64 .f32) (x4 : Vec F S64x64 .f32) (x5 : Vec F S1x64 .f32) (x6 : Vec F S8x64 .f32) (x7 : Vec F S1x64 .f32) (x8 : Vec F S64x64 .f32) (x9 : Vec F S1x64 .f32) (x10 : Vec F S64x64 .f32) (x11 : Vec F S1x64 .f32) (x12 : Vec F S64x1 .f32) (x13 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13
        ∗ (∃ d, owns (c : Thread nD τ) a14 fullShare d) ∗ (∃ d, owns (c : Thread nD τ) a15 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13
            ∗ owns (c : Thread nD τ) a14 fullShare (out0_14 x0 x1 x2 x3 x4 x5 x6 x7 x8 x9) ∗ owns (c : Thread nD τ) a15 fullShare (out0_15 x0 x1 x2 x3 x4 x5 x6 x7 x8 x9 x10 x11 x12 x13)) -∗ K ⟨⟩))
      ⊢ wp frame (wpE (defs₀ (F := F)) Variants.none c none) E (cc0__edge_mlp_kernel i a0 h0 a1 h1 a2 h2 a3 h3 a4 h4 a5 h5 a6 h6 a7 h7 a8 h8 a9 h9 a10 h10 a11 h11 a12 h12 a13 h13 a14 h14 a15 h15) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover0_14 _)
  iexists _; isplitr
  swap; · iexact H15
  ipureintro
  exact View.read_writes_eq_canon _ _ _ (cover0_15 _)

/-! ## The body at a point of the grid -/

/-- What the body is entered with at point `t`: the stage's invariant, what the core owes, and every window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

set_option maxHeartbeats 4000000 in
/-- The body at any point: each input buffer holds its block, so the triple on whole buffers applies; the invariant and
    the core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body obligation of the stage's pipeline, at every point. -/
theorem body_obligation0 (c : Dev nD) : BodyObligation (dat0 (F := F) V c) (defs₀ (F := F)) Variants.none () Set.univ := fun t => by
  rw [bigSep_W0, bigSep_W0]
  exact sound_body0 V c t

end

end Cert.Kernel.Stage

end
-- ==== Proof.BitsNodeStage.lean ====
import proofs.«169352_j52699248722544_2_alg».proof.Proof.BitsStageData

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body finds in an input window's buffer

An input window's current buffer holds the window's block at the point, whether or not a copy was started there: where
none was, the block index has not moved since the point before, and the body left the block in place. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl)
    (fun t => by rw [after1_11]; unfold Dat.blockOf iblk1; rw [A_eq1]; try rfl) t d).trans
    (by unfold Dat.fetched Dat.blockOf iblk1; rw [A_eq1]; try rfl)

/-! ## The stores of an output window fill its buffer -/

theorem cover1_12 (p0 : Vec F S5000x64 .f32) (y : S5000x64.Idx) :
    ∃ pc ∈ ([⟨boxN64, p0⟩] : List (View.Piece (Elt F) S5000x64 .f32)), y ∈ pc.1.set :=
  View.cover_of_tiled [⟨boxN64, p0⟩] S5000x64.size (by rfl) y
theorem cover1_13 (p0 : Vec F S5000x3 .f32) (p1 : Vec F S5000x3 .f32) (y : S5000x6.Idx) :
    ∃ pc ∈ ([⟨boxHi, p0⟩, ⟨boxLo, p1⟩] : List (View.Piece (Elt F) S5000x6 .f32)), y ∈ pc.1.set :=
  View.cover_of_tiled [⟨boxHi, p0⟩, ⟨boxLo, p1⟩] S5000x3.size (by rfl) y

/-! ## The body on whole staging buffers -/

set_option maxHeartbeats 4000000 in
/-- The body, run on whole staging buffers whose inputs read `x0 …` and whose outputs hold anything, reaches its
    continuation with the inputs as they were and each output at its stored value. -/
theorem sound_kernel1 (c : Dev nD) (E : Set ℕ) (i : grid1.Coords)
    (a0 : Memref sig .tc .vmem S5000x64 .f32) (h0 : a0.IsWhole) (a1 : Memref sig .tc .vmem S5000x9 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x1 .f32) (h5 : a5.IsWhole) (a6 : Memref sig .tc .vmem S1x1 .f32) (h6 : a6.IsWhole) (a7 : Memref sig .tc .vmem S64x64 .f32) (h7 : a7.IsWhole) (a8 : Memref sig .tc .vmem S64x64 .f32) (h8 : a8.IsWhole) (a9 : Memref sig .tc .vmem S1x64 .f32) (h9 : a9.IsWhole) (a10 : Memref sig .tc .vmem S64x64 .f32) (h10 : a10.IsWhole) (a11 : Memref sig .tc .vmem S1x64 .f32) (h11 : a11.IsWhole) (a12 : Memref sig .tc .vmem S5000x64 .f32) (h12 : a12.IsWhole) (a13 : Memref sig .tc .vmem S5000x6 .f32) (h13 : a13.IsWhole)
    (x0 : Vec F S5000x64 .f32) (x1 : Vec F S5000x9 .f32) (x2 : Vec F S5000x64 .f32) (x3 : Vec F S64x64 .f32) (x4 : Vec F S1x64 .f32) (x5 : Vec F S64x1 .f32) (x6 : Vec F S1x1 .f32) (x7 : Vec F S64x64 .f32) (x8 : Vec F S64x64 .f32) (x9 : Vec F S1x64 .f32) (x10 : Vec F S64x64 .f32) (x11 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11
        ∗ (∃ d, owns (c : Thread nD τ) a12 fullShare d) ∗ (∃ d, owns (c : Thread nD τ) a13 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11
            ∗ owns (c : Thread nD τ) a12 fullShare (out1_12 x0 x2 x7 x8 x9 x10 x11) ∗ owns (c : Thread nD τ) a13 fullShare (out1_13 x0 x1 x3 x4 x5 x6)) -∗ K ⟨⟩))
      ⊢ wp frame (wpE (defs₀ (F := F)) Variants.none c none) E (cc1__node_update_kernel i a0 h0 a1 h1 a2 h2 a3 h3 a4 h4 a5 h5 a6 h6 a7 h7 a8 h8 a9 h9 a10 h10 a11 h11 a12 h12 a13 h13) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0; subst hf1; subst hf2; subst hf3; subst hf4; subst hf5; subst hf6; subst hf7; subst hf8; subst hf9; subst hf10; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover1_12 _)
  iexists _; isplitr
  swap; · iexact H13
  ipureintro
  exact View.read_writes_eq_canon _ _ _ (cover1_13 _ _)

/-! ## The body at a point of the grid -/

/-- What the body is entered with at point `t`: the stage's invariant, what the core owes, and every window's current
    staging buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 4000000 in
/-- The body at any point: each input buffer holds its block, so the triple on whole buffers applies; the invariant and
    the core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation of the stage's pipeline, at every point. -/
theorem body_obligation1 (c : Dev nD) : BodyObligation (dat1 (F := F) V c) (defs₀ (F := F)) Variants.none () Set.univ := fun t => by
  rw [bigSep_W1, bigSep_W1]
  exact sound_body1 V c t

end

end Cert.Kernel.Stage

end
-- ==== Proof.BitsRun.lean ====
import proofs.«169352_j52699248722544_2_alg».proof.Proof.BitsEdgeStage
import proofs.«169352_j52699248722544_2_alg».proof.Proof.BitsNodeStage
import proofs.«169352_j52699248722544_2_alg».proof.Proof.Gen.Kernel.Regions

set_option maxRecDepth 16384

noncomputable section

namespace Cert.Kernel.Stage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: three stretches of plain operations around the two pipelined stages -/

/-! ## Each stage's arrays at its exit, and every other buffer as at its entry -/

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched

No plain operation writes an argument; a stage reads an argument through an input window, whose array it leaves as found,
or does not touch it. So the contents at the end, read at an argument, walk back to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 8).trans (((dat0 (V1 m ρ) c).arrAt_in 8 rfl _).trans (A_eq0 (V1 m ρ) c 8))
    _ = W0 m ρ c (Proc.devRef .tc main_arg6) := StableHlo.after_of_writes_sub hostOps0 _ hostOps0_writes (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := (W2_arr m ρ c 10).trans (((dat0 (V1 m ρ) c).arrAt_in 10 rfl _).trans (A_eq0 (V1 m ρ) c 10))
    _ = W0 m ρ c (Proc.devRef .tc main_arg8) := StableHlo.after_of_writes_sub hostOps0 _ hostOps0_writes (by decide)
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := (W2_arr m ρ c 12).trans (((dat0 (V1 m ρ) c).arrAt_in 12 rfl _).trans (A_eq0 (V1 m ρ) c 12))
    _ = W0 m ρ c (Proc.devRef .tc main_arg10) := StableHlo.after_of_writes_sub hostOps0 _ hostOps0_writes (by decide)
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := StableHlo.after_of_writes_sub hostOps2 _ hostOps2_writes (by decide)
    _ = W3 m ρ c (Proc.devRef .tc main_arg14) := (W4_arr m ρ c 10).trans (((dat1 (V3 m ρ) c).arrAt_in 10 rfl _).trans (A_eq1 (V3 m ρ) c 10))
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := StableHlo.after_of_writes_sub hostOps2 _ hostOps2_writes (by decide)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

theorem W5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := StableHlo.after_of_writes_sub hostOps2 _ hostOps2_writes (by decide)
    _ = W3 m ρ c (Proc.devRef .tc main_arg16) := (W4_arr m ρ c 3).trans (((dat1 (V3 m ρ) c).arrAt_in 3 rfl _).trans (A_eq1 (V3 m ρ) c 3))
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl

theorem W5_main_arg17 (c : Dev nD) : W5 m ρ c (Proc.devRef .tc main_arg17) = m ((c : Thread nD τ).loc main_arg17) :=
  calc W5 m ρ c (Proc.devRef .tc main_arg17)
    _ = W4 m ρ c (Proc.devRef .tc main_arg17) := StableHlo.after_of_writes_sub hostOps2 _ hostOps2_writes (by decide)
    _ = W3 m ρ c (Proc.devRef .tc main_arg17) := W4_of_ne m ρ c main_arg17 (by decide)
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl

theorem W5_main_arg18 (c : Dev nD) : W5 m ρ c (Proc.devRef .tc main_arg18) = m ((c : Thread nD τ).loc main_arg18) :=
  calc W5 m ρ c (Proc.devRef .tc main_arg18)
    _ = W4 m ρ c (Proc.devRef .tc main_arg18) := StableHlo.after_of_writes_sub hostOps2 _ hostOps2_writes (by decide)
    _ = W3 m ρ c (Proc.devRef .tc main_arg18) := (W4_arr m ρ c 5).trans (((dat1 (V3 m ρ) c).arrAt_in 5 rfl _).trans (A_eq1 (V3 m ρ) c 5))
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl

theorem W5_main_arg19 (c : Dev nD) : W5 m ρ c (Proc.devRef .tc main_arg19) = m ((c : Thread nD τ).loc main_arg19) :=
  calc W5 m ρ c (Proc.devRef .tc main_arg19)
    _ = W4 m ρ c (Proc.devRef .tc main_arg19) := StableHlo.after_of_writes_sub hostOps2 _ hostOps2_writes (by decide)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = W0 m ρ c (Proc.devRef .tc main_arg19) := StableHlo.after_of_writes_sub hostOps0 _ hostOps0_writes (by decide)
    _ = m ((c : Thread nD τ).loc main_arg19) := rfl

theorem W5_main_arg20 (c : Dev nD) : W5 m ρ c (Proc.devRef .tc main_arg20) = m ((c : Thread nD τ).loc main_arg20) :=
  calc W5 m ρ c (Proc.devRef .tc main_arg20)
    _ = W4 m ρ c (Proc.devRef .tc main_arg20) := StableHlo.after_of_writes_sub hostOps2 _ hostOps2_writes (by decide)
    _ = W3 m ρ c (Proc.devRef .tc main_arg20) := W4_of_ne m ρ c main_arg20 (by decide)
    _ = W2 m ρ c (Proc.devRef .tc main_arg20) := StableHlo.after_of_writes_sub hostOps1 _ hostOps1_writes (by decide)
    _ = W1 m ρ c (Proc.devRef .tc main_arg20) := W2_of_ne m ρ c main_arg20 (by decide)
    _ = W0 m ρ c (Proc.devRef .tc main_arg20) := StableHlo.after_of_writes_sub hostOps0 _ hostOps0_writes (by decide)
    _ = m ((c : Thread nD τ).loc main_arg20) := rfl

/-! ## The proof data of both stages, and what rides beside the buffers -/

abbrev adm : (p : Fin 2) → (pcfgs (F := F) p).Adm := fun p => (cfgs p).toPCfg_adm
/-- Each stage's proof data at the contents the stage is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
/-- A stretch of plain operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the register at some state. -/
abbrev Tₙ (c : Dev nD) : sProp 𝕄 := iprop(StableHlo.held (c : Thread nD τ) (Pipeline.ucRefs τ sig) (W5 m ρ c) ∗ ∃ r, prngReg c r)

/-! ## The stages as segments -/

set_option backward.isDefEq.respectTransparency.types false in
/-- Stage 0 as a segment of the run: entered with every unscoped buffer at `W1`, left with them at `W2`. Its
    arrays are split out of the unscoped buffers on entry and put back at their final contents on exit; the generator
    register goes into the stage's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Stage 1 as a segment of the run: entered with every unscoped buffer at `W3`, left with them at `W4`. Its
    arrays are split out of the unscoped buffers on entry and put back at their final contents on exit; the generator
    register goes into the stage's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- The program is the run of the five segments. -/
theorem main_run (c : Dev nD) : main (F := F) c = Pipeline.Seg.run (segs m ρ) := by
  rw [main_chain c, Pipeline.Seg.run_eq_chain]; rfl

set_option backward.isDefEq.respectTransparency.types false in
/-- From any memory with zero counters every weakly fair execution terminates without fault, and every unscoped buffer
    of every core ends at the final contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: the run terminates without fault and every argument array ends holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run _ _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c),
     (h c _ (mem_uc main_arg15 (by decide))).trans (W5_main_arg15 m ρ c),
     (h c _ (mem_uc main_arg16 (by decide))).trans (W5_main_arg16 m ρ c),
     (h c _ (mem_uc main_arg17 (by decide))).trans (W5_main_arg17 m ρ c),
     (h c _ (mem_uc main_arg18 (by decide))).trans (W5_main_arg18 m ρ c),
     (h c _ (mem_uc main_arg19 (by decide))).trans (W5_main_arg19 m ρ c),
     (h c _ (mem_uc main_arg20 (by decide))).trans (W5_main_arg20 m ρ c)⟩) (run_all m ρ)

end Cert.Kernel.Stage

end
-- ==== Proof.Agree.lean ====
import proofs.«169352_j52699248722544_2_alg».proof.Defs

namespace Cert.Bridge

open Idealize.ShloMosaic Idealize.SL.Sem

/-- On core `c` the reference's memory `m'` and the kernel's memory `m` hold the same 21 argument arrays, paired by
    position: the hypothesis under which the two programs are compared. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)

end Cert.Bridge
-- ==== Proof.LibMatmulPlain.lean ====
/-
  A plain matrix product read at an entry. For dimension numbers that contract the left operand's axis 1 with the right
  operand's axis 0 and have no batch axis, the product of an [A, K] and a [K, B] array accumulated into the zero splat
  has, at `(p, q)`, the value `∑ k, lhs (p, k) * rhs (k, q)` on the extended reals; for any sizes A, K, B and any two
  float formats of the operands (a change of format is the identity on the extended reals).
-/
import Idealize.ShloMosaic.PureOps.Ideal.Laws
import Idealize.ShloMosaic.Lib.ValueIdx

noncomputable section

open scoped BigOperators
open Idealize.ShloMosaic Idealize.ShloMosaic.ValueIdx

namespace MatmulPlain

/-- The matrix product into a zero accumulator at entry `(p, q)`. -/
theorem matmul_zero_apply {A K B : Nat} {φ₁ φ₂ : FTy}
    (d : DotDims ⟨2, ![A, K]⟩ ⟨2, ![K, B]⟩ ⟨2, ![A, B]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![A, K]⟩ φ₁) (rhs : FVec Ideal ⟨2, ![K, B]⟩ φ₂) (p : Fin A) (q : Fin B) :
    matmul d prec lhs rhs (constant ⟨2, ![A, B]⟩ .f32 0x00000000#32) (ix2 p q)
      = ∑ k : Fin K, lhs (ix2 p k) * rhs (ix2 k q) := by
  obtain ⟨lc, rc, ln, rn, lb, rb, wf⟩ := d
  simp only at hlc hrc hln hrn hlb hrb
  subst hlc hrc hln hrn hlb hrb
  let D : DotDims ⟨2, ![A, K]⟩ ⟨2, ![K, B]⟩ ⟨2, ![A, B]⟩ := ⟨[1], [0], [0], [1], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = k.val :=
    (D.rhsIdx_val_of_single rfl (ix2 p q) _).trans hk
  have r1 : (D.rhsIdx (ix2 p q) ((contrEquiv1 D K rfl rfl).symm k) (1 : Fin 2)).val = q.val := by
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 k q := funext fun a => Fin.ext (by
    match a with
    | ⟨0, _⟩ => exact r0
    | ⟨1, _⟩ => exact r1)
  rw [el, er]

end MatmulPlain

end
-- ==== Proof.Spec.lean ====
/-
  The layer both programs compute, as pure functions on the extended reals.

  An edge `e` carries the feature rows of its two end nodes (`hi e`, `hj e`, 64 entries each), the difference of the
  end nodes' coordinates (`dif e`, 3 entries), its squared length (`rad e`) and 8 edge attributes (`ea e`).
  An affine map is `aff a W b c = (∑ k, a k * W k c) + b c`; `T` is the hyperbolic tangent of the extended reals.
  The message of an edge is two affine maps with `T` after each, applied to the 137 entries
  `hi e ++ hj e ++ [rad e] ++ ea e`; its coordinate gate two more applied to the message. A node `n` receives the edges
  of `S n`: the messages are summed, the gated differences are averaged (divided by the larger of the count and one),
  and the node's velocity, position and features are updated from them.
  Nothing here mentions a program: the two programs are each shown to compute these functions.
-/
import Mathlib.Data.EReal.Operations
import Mathlib.Algebra.BigOperators.Fin
import Idealize.ShloMosaic.PureOps.Ideal

noncomputable section

open scoped BigOperators
open Idealize.ShloMosaic

namespace MsgPass

/-- The hyperbolic tangent of the extended reals (`-1` and `1` at the infinities). -/
abbrev T : EReal → EReal := Ideal.tanh

/-- An affine map read at output `c`: the row `a` against column `c` of `W`, plus the bias. -/
def aff {K C : Nat} (a : Fin K → EReal) (W : Fin K → Fin C → EReal) (b : Fin C → EReal) (c : Fin C) : EReal :=
  (∑ k, a k * W k c) + b c

/-- The 137 inputs of an edge's first affine map: the two feature rows, the squared length, the attributes. -/
def feat (hi hj : Fin 64 → EReal) (r : EReal) (ea : Fin 8 → EReal) (k : Fin 137) : EReal :=
  if h1 : k.val < 64 then hi ⟨k.val, h1⟩
  else if h2 : k.val < 128 then hj ⟨k.val - 64, by omega⟩
  else if k.val = 128 then r
  else ea ⟨k.val - 129, by omega⟩

/-- The 128 inputs of a node's feature update: its own features, then the summed messages. -/
def cat2 (a b : Fin 64 → EReal) (k : Fin 128) : EReal :=
  if h1 : k.val < 64 then a ⟨k.val, h1⟩ else b ⟨k.val - 64, by omega⟩

/-- Two affine maps with `T` after the first. -/
def mlp {K H C : Nat} (a : Fin K → EReal) (W1 : Fin K → Fin H → EReal) (b1 : Fin H → EReal)
    (W2 : Fin H → Fin C → EReal) (b2 : Fin C → EReal) (c : Fin C) : EReal :=
  aff (fun k => T (aff a W1 b1 k)) W2 b2 c

/-- The weights of the four two-layer maps. -/
structure Weights where
  we1 : Fin 137 → Fin 64 → EReal
  be1 : Fin 64 → EReal
  we2 : Fin 64 → Fin 64 → EReal
  be2 : Fin 64 → EReal
  wx1 : Fin 64 → Fin 64 → EReal
  bx1 : Fin 64 → EReal
  wx2 : Fin 64 → Fin 1 → EReal
  bx2 : Fin 1 → EReal
  wh1 : Fin 128 → Fin 64 → EReal
  bh1 : Fin 64 → EReal
  wh2 : Fin 64 → Fin 64 → EReal
  bh2 : Fin 64 → EReal
  wv1 : Fin 64 → Fin 64 → EReal
  bv1 : Fin 64 → EReal
  wv2 : Fin 64 → Fin 1 → EReal
  bv2 : Fin 1 → EReal

variable (P : Weights)

/-- An edge's message, entry `c`. -/
def msg (hi hj : Fin 64 → EReal) (r : EReal) (ea : Fin 8 → EReal) (c : Fin 64) : EReal :=
  T (mlp (feat hi hj r ea) P.we1 P.be1 P.we2 P.be2 c)

/-- An edge's coordinate gate. -/
def gate (hi hj : Fin 64 → EReal) (r : EReal) (ea : Fin 8 → EReal) : EReal :=
  T (mlp (msg P hi hj r ea) P.wx1 P.bx1 P.wx2 P.bx2 0)

/-- A node's velocity gate. -/
def vgate (h : Fin 64 → EReal) : EReal := mlp h P.wv1 P.bv1 P.wv2 P.bv2 0

section Node
variable {E : Type} (S : Finset E) (z o : EReal)
variable (m : E → Fin 64 → EReal) (tr : E → Fin 3 → EReal)

/-- The messages a node receives, summed from `z`. -/
def msgSum (c : Fin 64) : EReal := z + ∑ e ∈ S, m e c
/-- The gated differences it receives, summed from `z`, over the larger of their number (ones summed from `z`) and `o`. -/
def trMean (j : Fin 3) : EReal := Ideal.div (z + ∑ e ∈ S, tr e j) (max (z + ∑ _e ∈ S, o) o)

/-- The node's new velocity, position and features. -/
def velNew (h : Fin 64 → EReal) (v : Fin 3 → EReal) (j : Fin 3) : EReal := v j * vgate P h + trMean S z o tr j
def posNew (h : Fin 64 → EReal) (x v : Fin 3 → EReal) (j : Fin 3) : EReal := x j + velNew P S z o tr h v j
def featNew (h : Fin 64 → EReal) (c : Fin 64) : EReal :=
  mlp (cat2 h (msgSum S z m)) P.wh1 P.bh1 P.wh2 P.bh2 c

end Node

/-! ## Sums over a concatenation split into the sums over its pieces (no finiteness: only that addition on the
    extended reals is commutative and associative) -/

/-- A sum over 137 indices is the sum over the first 64, the next 64, index 128, and the last 8. -/
theorem sum137 {M : Type} [AddCommMonoid M] (f : Fin 137 → M) :
    ∑ k, f k = (∑ k : Fin 64, f ⟨k.val, by omega⟩) + (∑ k : Fin 64, f ⟨64 + k.val, by omega⟩)
      + f ⟨128, by omega⟩ + ∑ k : Fin 8, f ⟨129 + k.val, by omega⟩ := by
  have e1 : (∑ k : Fin 137, f k) = ∑ k : Fin (129 + 8), f ⟨k.val, by omega⟩ := rfl
  rw [e1, Fin.sum_univ_add]
  have e2 : (∑ k : Fin 129, f ⟨(Fin.castAdd 8 k).val, by omega⟩) = ∑ k : Fin (128 + 1), f ⟨k.val, by omega⟩ := rfl
  rw [e2, Fin.sum_univ_castSucc]
  have e3 : (∑ k : Fin 128, f ⟨(Fin.castSucc k).val, by omega⟩) = ∑ k : Fin (64 + 64), f ⟨k.val, by omega⟩ := rfl
  rw [e3, Fin.sum_univ_add]
  rfl

/-- A sum over 128 indices is the sum over the first 64 and the last 64. -/
theorem sum128 {M : Type} [AddCommMonoid M] (f : Fin 128 → M) :
    ∑ k, f k = (∑ k : Fin 64, f ⟨k.val, by omega⟩) + ∑ k : Fin 64, f ⟨64 + k.val, by omega⟩ := by
  have e1 : (∑ k : Fin 128, f k) = ∑ k : Fin (64 + 64), f ⟨k.val, by omega⟩ := rfl
  rw [e1, Fin.sum_univ_add]
  rfl

end MsgPass

end
-- ==== Proof.EdgePayload.lean ====
/-
  The edge stage's arithmetic at one entry. A block holds 8000 edges. Row `r` of the block has the two end nodes'
  feature rows `v0 r`, `v2 r`, and a row `v4 r` of nine numbers: the squared distance first, then the eight attributes.
  The first layer adds four partial products — the two feature rows against the first and the second 64 rows of the
  weight matrix (`v14`, `v19`), the squared distance times the weight matrix's row 128 (`v8`), the attributes against
  its last eight rows (`v26`) — and the bias `v31`, and takes the hyperbolic tangent. The next three layers are each a
  product with a weight matrix, a bias row added, and the hyperbolic tangent. Changes of float format are the identity on
  the extended reals, so they do not appear.
-/
import proofs.«169352_j52699248722544_2_alg».proof.Proof.Gen.KernelIdeal.Skeleton
import proofs.«169352_j52699248722544_2_alg».proof.Proof.LibMatmulPlain
import proofs.«169352_j52699248722544_2_alg».proof.Proof.Spec
import Idealize.ShloMosaic.Lib.ValueIdx
import Idealize.ShloMosaic.Lib.Pipeline.Value
import Idealize.ShloMosaic.Lib.ValueLayout

noncomputable section

open scoped BigOperators
open Idealize.ShloMosaic Idealize.ShloMosaic.ValueIdx MsgPass

namespace Cert.KernelIdeal.EdgeValue

open Cert.KernelIdeal Cert.KernelIdeal.Gen

variable [hK : Cert.KernelIdeal.Facts]

/-- The hyperbolic tangent of a vector, at an index. -/
theorem tanh_apply {s : Shape} {φ : FTy} (a : FVec Ideal s φ) (i : s.Idx) : tanh a i = T (a i) := rfl

/-- A row of 64 repeated down 8000 rows. -/
theorem bcastRow64 (v : (⟨2, ![1, 64]⟩ : Shape).Idx → EReal) (r : Fin 8000) (c : Fin 64) :
    broadcastTo S8000x64 v broadcasts_S1x64_S8000x64 (ix2 r c) = v (ix2 (0 : Fin 1) c) :=
  broadcastTo_1b_ab_apply v _ r c

/-- A column of 8000 repeated across 64 columns. -/
theorem bcastCol64 (v : (⟨2, ![8000, 1]⟩ : Shape).Idx → EReal) (r : Fin 8000) (c : Fin 64) :
    broadcastTo S8000x64 v broadcasts_S8000x1_S8000x64 (ix2 r c) = v (ix2 r (0 : Fin 1)) :=
  broadcastTo_apply v _ (ix2 r c) (ix2 r (0 : Fin 1)) fun a => by
    match a with
    | ⟨0, _⟩ => rfl
    | ⟨1, _⟩ => rfl

/-- One number repeated down a column of 8000. -/
theorem bcastOne (v : (⟨2, ![1, 1]⟩ : Shape).Idx → EReal) (r : Fin 8000) :
    broadcastTo S8000x1 v broadcasts_S1x1_S8000x1 (ix2 r (0 : Fin 1)) = v (ix2 (0 : Fin 1) (0 : Fin 1)) :=
  broadcastTo_1b_ab_apply v _ r 0

/-- Column 0 of the nine-number rows. -/
theorem sliceRad (v : (⟨2, ![8000, 9]⟩ : Shape).Idx → EReal) (r : Fin 8000) :
    extractStridedSlice S8000x1 ![0, 0] v slices_S8000x9_o0_0_S8000x1 (ix2 r (0 : Fin 1)) = v (ix2 r (0 : Fin 9)) :=
  extractStridedSlice_apply _ v _ (ix2 r (0 : Fin 1)) (ix2 r (0 : Fin 9)) fun a => by
    match a with
    | ⟨0, _⟩ => exact (Nat.zero_add _).symm
    | ⟨1, _⟩ => rfl

/-- Columns 1 to 8 of the nine-number rows. -/
theorem sliceAttr (v : (⟨2, ![8000, 9]⟩ : Shape).Idx → EReal) (r : Fin 8000) (k : Fin 8) :
    extractStridedSlice S8000x8 ![0, 1] v slices_S8000x9_o0_1_S8000x8 (ix2 r k)
      = v (ix2 r (⟨1 + k.val, by omega⟩ : Fin 9)) :=
  extractStridedSlice_apply _ v _ (ix2 r k) (ix2 r (⟨1 + k.val, by omega⟩ : Fin 9)) fun a => by
    match a with
    | ⟨0, _⟩ => exact (Nat.zero_add _).symm
    | ⟨1, _⟩ => rfl

/-- The three matrix products of the stage, each into a zero accumulator, at an entry. -/
theorem mm64 {φ₁ φ₂ : FTy} (a : FVec Ideal S8000x64 φ₁) (b : FVec Ideal S64x64 φ₂) (r : Fin 8000) (c : Fin 64) :
    matmul dot_S8000x64_S64x64_S8000x64_1_0_0_1_n_n none a b (constant S8000x64 .f32 0x00000000#32) (ix2 r c)
      = ∑ k : Fin 64, a (ix2 r k) * b (ix2 k c) :=
  MatmulPlain.matmul_zero_apply _ rfl rfl rfl rfl rfl rfl none a b r c

theorem mm8 {φ₁ φ₂ : FTy} (a : FVec Ideal S8000x8 φ₁) (b : FVec Ideal S8x64 φ₂) (r : Fin 8000) (c : Fin 64) :
    matmul dot_S8000x8_S8x64_S8000x64_1_0_0_1_n_n none a b (constant S8000x64 .f32 0x00000000#32) (ix2 r c)
      = ∑ k : Fin 8, a (ix2 r k) * b (ix2 k c) :=
  MatmulPlain.matmul_zero_apply _ rfl rfl rfl rfl rfl rfl none a b r c

theorem mm1 {φ₁ φ₂ : FTy} (a : FVec Ideal S8000x64 φ₁) (b : FVec Ideal S64x1 φ₂) (r : Fin 8000) :
    matmul dot_S8000x64_S64x1_S8000x1_1_0_0_1_n_n none a b (constant S8000x1 .f32 0x00000000#32) (ix2 r (0 : Fin 1))
      = ∑ k : Fin 64, a (ix2 r k) * b (ix2 k (0 : Fin 1)) :=
  MatmulPlain.matmul_zero_apply _ rfl rfl rfl rfl rfl rfl none a b r 0

/-- The first layer at row `r`, output `c`. -/
theorem layer1_apply (v0 v2 : Vec Ideal S8000x64 .f32) (v4 : Vec Ideal S8000x9 .f32) (v8 : Vec Ideal S1x64 .f32)
    (v14 v19 : Vec Ideal S64x64 .f32) (v26 : Vec Ideal S8x64 .f32) (v31 : Vec Ideal S1x64 .f32)
    (r : Fin 8000) (c : Fin 64) :
    k0_pay3 (F := Ideal) v0 v2 v4 v8 v14 v19 v26 v31 (ix2 r c)
      = T (((((∑ k : Fin 64, v0 (ix2 r k) * v14 (ix2 k c)) + ∑ k : Fin 64, v2 (ix2 r k) * v19 (ix2 k c))
            + v4 (ix2 r (0 : Fin 9)) * v8 (ix2 (0 : Fin 1) c))
          + ∑ k : Fin 8, v4 (ix2 r (⟨1 + k.val, by omega⟩ : Fin 9)) * v26 (ix2 k c))
        + v31 (ix2 (0 : Fin 1) c)) := by
  unfold k0_pay3
  simp only [shapeCast_self, truncf_apply, tanh_apply, addf_apply, mulf_apply, mm64, mm8, bcastRow64, bcastCol64,
    sliceRad, sliceAttr]

/-- The second layer (the message) at row `r`, output `c`, from the first layer's values `t1`. -/
theorem layer2_apply (t1 : FVec Ideal S8000x64 .bf16) (v37 : Vec Ideal S64x64 .f32) (v40 : Vec Ideal S1x64 .f32)
    (r : Fin 8000) (c : Fin 64) :
    k0_pay1 (F := Ideal) t1 v37 v40 (ix2 r c)
      = T ((∑ k : Fin 64, t1 (ix2 r k) * v37 (ix2 k c)) + v40 (ix2 (0 : Fin 1) c)) := by
  unfold k0_pay1
  simp only [shapeCast_self, truncf_apply, tanh_apply, addf_apply, mm64, bcastRow64]

/-- The fourth layer (the gate) at row `r`, from the first layer's values `t1`. -/
theorem layer4_apply (t1 : FVec Ideal S8000x64 .bf16) (v37 : Vec Ideal S64x64 .f32) (v40 : Vec Ideal S1x64 .f32)
    (v46 : Vec Ideal S64x64 .f32) (v49 : Vec Ideal S1x64 .f32) (v55 : Vec Ideal S64x1 .f32) (v58 : Vec Ideal S1x1 .f32)
    (r : Fin 8000) :
    k0_pay2 (F := Ideal) t1 v37 v40 v46 v49 v55 v58 (ix2 r (0 : Fin 1))
      = T ((∑ k : Fin 64, T ((∑ k' : Fin 64, k0_pay1 (F := Ideal) t1 v37 v40 (ix2 r k') * v46 (ix2 k' k))
              + v49 (ix2 (0 : Fin 1) k)) * v55 (ix2 k (0 : Fin 1)))
          + v58 (ix2 (0 : Fin 1) (0 : Fin 1))) := by
  unfold k0_pay2
  simp only [shapeCast_self, truncf_apply, tanh_apply, addf_apply, mm64, mm1, bcastRow64, bcastOne]

end Cert.KernelIdeal.EdgeValue

end
-- ==== Proof.LayerLaws.lean ====
/-
  The regrouping laws between the two programs' arrangements of one affine map. The row an edge's first layer is
  applied to is a concatenation of four pieces, so the sum over its 137 entries is the sum of four partial sums, each
  against the matching rows of the weight matrix; likewise the 128-entry row of a node's feature update is two pieces.
  Only commutativity and associativity of addition on the extended reals are used (no entry need be finite).
-/
import proofs.«169352_j52699248722544_2_alg».proof.Proof.Spec

noncomputable section

open scoped BigOperators

namespace MsgPass

/-- The first affine map of an edge, as four partial products and the bias. -/
theorem aff_feat (hi hj : Fin 64 → EReal) (r : EReal) (ea : Fin 8 → EReal)
    (W : Fin 137 → Fin 64 → EReal) (b : Fin 64 → EReal) (c : Fin 64) :
    aff (feat hi hj r ea) W b c
      = ((((∑ k : Fin 64, hi k * W ⟨k.val, by omega⟩ c) + ∑ k : Fin 64, hj k * W ⟨64 + k.val, by omega⟩ c)
            + r * W ⟨128, by omega⟩ c)
          + ∑ k : Fin 8, ea k * W ⟨129 + k.val, by omega⟩ c)
        + b c := by
  unfold aff
  rw [sum137]
  have e1 : ∀ k : Fin 64, feat hi hj r ea ⟨k.val, by omega⟩ = hi k := fun k => by
    have h1 : k.val < 64 := k.isLt
    simp [feat, h1]
  have e2 : ∀ k : Fin 64, feat hi hj r ea ⟨64 + k.val, by omega⟩ = hj k := fun k => by
    have h1 : ¬ (64 + k.val < 64) := by omega
    have h2 : 64 + k.val < 128 := by omega
    simp [feat, h1, h2]
  have e3 : feat hi hj r ea ⟨128, by omega⟩ = r := by
    simp [feat]
  have e4 : ∀ k : Fin 8, feat hi hj r ea ⟨129 + k.val, by omega⟩ = ea k := fun k => by
    have h1 : ¬ (129 + k.val < 64) := by omega
    have h2 : ¬ (129 + k.val < 128) := by omega
    have h3 : ¬ (129 + k.val = 128) := by omega
    simp [feat, h1, h2, h3]
  simp only [e1, e2, e3, e4]

/-- The first affine map of a node's feature update, as two partial products and the bias. -/
theorem aff_cat2 (a m : Fin 64 → EReal) (W : Fin 128 → Fin 64 → EReal) (b : Fin 64 → EReal) (c : Fin 64) :
    aff (cat2 a m) W b c
      = ((∑ k : Fin 64, a k * W ⟨k.val, by omega⟩ c) + ∑ k : Fin 64, m k * W ⟨64 + k.val, by omega⟩ c) + b c := by
  unfold aff
  rw [sum128]
  have e1 : ∀ k : Fin 64, cat2 a m ⟨k.val, by omega⟩ = a k := fun k => by
    have h1 : k.val < 64 := k.isLt
    simp [cat2, h1]
  have e2 : ∀ k : Fin 64, cat2 a m ⟨64 + k.val, by omega⟩ = m k := fun k => by
    have h1 : ¬ (64 + k.val < 64) := by omega
    simp [cat2, h1]
  simp only [e1, e2]

end MsgPass

end
-- ==== Proof.EdgeBlock.lean ====
/-
  One block of the edge stage computes the layer's message and gate. If row `r` of the three edge blocks holds an
  edge's two feature rows, its squared distance and its attributes, and the eleven weight blocks hold the weight matrices
  and bias rows of the layer's first two two-layer maps — the first matrix cut into its rows 0–63, 64–127, 128 and
  129–136 —, then what the body stores at `(r, q)` of the message block is the layer's message entry `q`, and what it
  stores at row `r` of the gate block is the layer's gate. The one law used is that a sum over the 137 concatenated
  entries is the sum of the four partial sums.
-/
import proofs.«169352_j52699248722544_2_alg».proof.Proof.EdgePayload
import proofs.«169352_j52699248722544_2_alg».proof.Proof.LayerLaws

noncomputable section

open scoped BigOperators
open Idealize.ShloMosaic Idealize.ShloMosaic.ValueIdx MsgPass

namespace Cert.KernelIdeal.EdgeValue

open Cert.KernelIdeal Cert.KernelIdeal.Gen

variable [hK : Cert.KernelIdeal.Facts]

section
variable (P : Weights)
variable (x0 x1 : Vec Ideal S8000x64 .f32) (x2 : Vec Ideal S8000x9 .f32) (x3 x4 : Vec Ideal S64x64 .f32)
  (x5 : Vec Ideal S1x64 .f32) (x6 : Vec Ideal S8x64 .f32) (x7 : Vec Ideal S1x64 .f32) (x8 : Vec Ideal S64x64 .f32)
  (x9 : Vec Ideal S1x64 .f32)
variable (hi hj : Fin 64 → EReal) (rd : EReal) (ea : Fin 8 → EReal) (r : Fin 8000)
variable (h0 : ∀ k : Fin 64, x0 (ix2 r k) = hi k) (h1 : ∀ k : Fin 64, x1 (ix2 r k) = hj k)
  (h2 : x2 (ix2 r (0 : Fin 9)) = rd) (h2' : ∀ k : Fin 8, x2 (ix2 r (⟨1 + k.val, by omega⟩ : Fin 9)) = ea k)
  (h3 : ∀ (k c : Fin 64), x3 (ix2 k c) = P.we1 ⟨k.val, by omega⟩ c)
  (h4 : ∀ (k c : Fin 64), x4 (ix2 k c) = P.we1 ⟨64 + k.val, by omega⟩ c)
  (h5 : ∀ c : Fin 64, x5 (ix2 (0 : Fin 1) c) = P.we1 ⟨128, by omega⟩ c)
  (h6 : ∀ (k : Fin 8) (c : Fin 64), x6 (ix2 k c) = P.we1 ⟨129 + k.val, by omega⟩ c)
  (h7 : ∀ c : Fin 64, x7 (ix2 (0 : Fin 1) c) = P.be1 c)
  (h8 : ∀ (k c : Fin 64), x8 (ix2 k c) = P.we2 k c)
  (h9 : ∀ c : Fin 64, x9 (ix2 (0 : Fin 1) c) = P.be2 c)

include h0 h1 h2 h2' h3 h4 h5 h6 h7 in
/-- The first layer's value at `(r, k)` is the hyperbolic tangent of the layer's first affine map. -/
theorem first_of_blocks (k : Fin 64) :
    k0_pay3 (F := Ideal) x0 x1 x2 x5 x3 x4 x6 x7 (ix2 r k) = T (aff (feat hi hj rd ea) P.we1 P.be1 k) := by
  rw [layer1_apply, aff_feat]
  simp only [h0, h1, h2, h2', h3, h4, h5, h6, h7]

include h0 h1 h2 h2' h3 h4 h5 h6 h7 h8 h9 in
/-- The message block at `(r, q)`. -/
theorem msg_of_blocks (q : Fin 64) :
    k0_pay1 (F := Ideal) (k0_pay3 (F := Ideal) x0 x1 x2 x5 x3 x4 x6 x7) x8 x9 (ix2 r q) = msg P hi hj rd ea q := by
  rw [layer2_apply]
  simp only [first_of_blocks P x0 x1 x2 x3 x4 x5 x6 x7 hi hj rd ea r h0 h1 h2 h2' h3 h4 h5 h6 h7, h8, h9]
  rfl

variable (x10 : Vec Ideal S64x64 .f32) (x11 : Vec Ideal S1x64 .f32) (x12 : Vec Ideal S64x1 .f32) (x13 : Vec Ideal S1x1 .f32)
variable (h10 : ∀ (k c : Fin 64), x10 (ix2 k c) = P.wx1 k c) (h11 : ∀ c : Fin 64, x11 (ix2 (0 : Fin 1) c) = P.bx1 c)
  (h12 : ∀ k : Fin 64, x12 (ix2 k (0 : Fin 1)) = P.wx2 k 0) (h13 : x13 (ix2 (0 : Fin 1) (0 : Fin 1)) = P.bx2 0)

include h0 h1 h2 h2' h3 h4 h5 h6 h7 h8 h9 h10 h11 h12 h13 in
/-- The gate block at row `r`. -/
theorem gate_of_blocks :
    k0_pay2 (F := Ideal) (k0_pay3 (F := Ideal) x0 x1 x2 x5 x3 x4 x6 x7) x8 x9 x10 x11 x12 x13 (ix2 r (0 : Fin 1))
      = gate P hi hj rd ea := by
  rw [layer4_apply]
  simp only [msg_of_blocks P x0 x1 x2 x3 x4 x5 x6 x7 x8 x9 hi hj rd ea r h0 h1 h2 h2' h3 h4 h5 h6 h7 h8 h9,
    h10, h11, h12, h13]
  rfl

end

end Cert.KernelIdeal.EdgeValue

end
-- ==== Proof.Arrays.lean ====
/-
  Arrays as the layer's data: the weight matrices and bias rows of the four two-layer maps read out of the
  seven matrices and eight vectors both programs take, the rows of a two-axis array, and the set of edges that
  a column of 32-bit row indices sends to a given node (the index read signed; an edge whose index is negative
  or not below the number of nodes lands nowhere).
-/
import proofs.«169352_j52699248722544_2_alg».proof.Proof.Spec
import Idealize.ShloMosaic.Lib.ValueIdx

noncomputable section

open Idealize.ShloMosaic Idealize.ShloMosaic.ValueIdx

namespace MsgPass

/-- A two-axis array of extended reals. -/
abbrev Mat (a b : Nat) : Type := (⟨2, ![a, b]⟩ : Shape).Idx → EReal
/-- A one-axis array of extended reals. -/
abbrev Row (a : Nat) : Type := (⟨1, ![a]⟩ : Shape).Idx → EReal

/-- Entry `(p, q)` of a matrix, as a function of the two coordinates. -/
abbrev ent {a b : Nat} (A : Mat a b) (p : Fin a) (q : Fin b) : EReal := A (ix2 p q)
/-- Entry `q` of a vector. -/
abbrev ent1 {a : Nat} (v : Row a) (q : Fin a) : EReal := v (ix1 q)

/-- The weights of the layer from the programs' weight arguments, in the order both programs take them. -/
def weights (a4 : Mat 137 64) (a5 : Row 64) (a6 : Mat 64 64) (a7 : Row 64) (a8 : Mat 64 64) (a9 : Row 64)
    (a10 : Mat 64 1) (a11 : Row 1) (a12 : Mat 128 64) (a13 : Row 64) (a14 : Mat 64 64) (a15 : Row 64)
    (a16 : Mat 64 64) (a17 : Row 64) (a18 : Mat 64 1) (a19 : Row 1) : Weights where
  we1 := ent a4
  be1 := ent1 a5
  we2 := ent a6
  be2 := ent1 a7
  wx1 := ent a8
  bx1 := ent1 a9
  wx2 := ent a10
  bx2 := ent1 a11
  wh1 := ent a12
  bh1 := ent1 a13
  wh2 := ent a14
  bh2 := ent1 a15
  wv1 := ent a16
  bv1 := ent1 a17
  wv2 := ent a18
  bv2 := ent1 a19

/-- The zero and the one both programs write as 32-bit float words. -/
abbrev zeroW : EReal := Ideal.ofBits .f32 0x00000000#32
abbrev oneW : EReal := Ideal.ofBits .f32 0x3F800000#32

/-- The edges a column of row indices sends to node `n`. -/
def landing {E N : Nat} (col : (⟨2, ![E, 1]⟩ : Shape).Idx → BitVec 32) (n : Fin N) : Finset (Fin E) :=
  Finset.univ.filter fun e => (col (ix2 e 0)).toInt = (n.val : Int)

end MsgPass

end
-- ==== Proof.EdgeArrays.lean ====
/-
  What the edge stage leaves in its two output arrays. Point `t` of the 200 handles edges `8000 t … 8000 t + 7999`: its
  blocks of the three edge arrays are those rows, its blocks of the eleven weight arrays are the whole arrays, and it
  writes back rows `8000 t …` of the message array and of the gate array. So edge `e` is row `e % 8000` of point
  `e / 8000`, every edge is covered, and the two arrays end holding each edge's message and gate, as the layer defines
  them from the edge's data as the stage finds it.
-/
import proofs.«169352_j52699248722544_2_alg».proof.Proof.StageData
import proofs.«169352_j52699248722544_2_alg».proof.Proof.EdgeBlock
import proofs.«169352_j52699248722544_2_alg».proof.Proof.Arrays
import Idealize.ShloMosaic.Lib.Pipeline.Value

set_option maxRecDepth 16384

noncomputable section

open scoped BigOperators
open Idealize.ShloMosaic Idealize.ShloMosaic.TcCoe Idealize.SL.Sem Idealize.ShloMosaic.ValueIdx MsgPass

namespace Cert.KernelIdeal.EdgeValue

open Cert.KernelIdeal Cert.KernelIdeal.Gen Cert.KernelIdeal.Stage

variable (V : (c : Dev nD) → (b : Ref sig .tc) → Buf (Elt Ideal) ((c : Thread nD τ).loc b)) (c : Dev nD) (P : Weights)

theorem hz : (![0, 0] : Fin 2 → Nat) = fun _ => 0 := funext fun a => by fin_cases a <;> rfl

/-! ## An edge's data as the stage finds it -/

def hiAt (e : Fin 1600000) (k : Fin 64) : EReal := (V c main_v29 : S1600000x64.Idx → EReal) (ix2 e k)
def hjAt (e : Fin 1600000) (k : Fin 64) : EReal := (V c main_v36 : S1600000x64.Idx → EReal) (ix2 e k)
def radAt (e : Fin 1600000) : EReal := (V c main_v22 : S1600000x9.Idx → EReal) (ix2 e (0 : Fin 9))
def eaAt (e : Fin 1600000) (k : Fin 8) : EReal :=
  (V c main_v22 : S1600000x9.Idx → EReal) (ix2 e (⟨1 + k.val, by omega⟩ : Fin 9))

/-- The weight arrays the stage finds hold the layer's first two two-layer maps. -/
structure EdgeWeights : Prop where
  w1a : ∀ k q : Fin 64, (V c main_v37 : S64x64.Idx → EReal) (ix2 k q) = P.we1 ⟨k.val, by omega⟩ q
  w1b : ∀ k q : Fin 64, (V c main_v38 : S64x64.Idx → EReal) (ix2 k q) = P.we1 ⟨64 + k.val, by omega⟩ q
  w1r : ∀ q : Fin 64, (V c main_v39 : S1x64.Idx → EReal) (ix2 (0 : Fin 1) q) = P.we1 ⟨128, by omega⟩ q
  w1e : ∀ (k : Fin 8) (q : Fin 64), (V c main_v40 : S8x64.Idx → EReal) (ix2 k q) = P.we1 ⟨129 + k.val, by omega⟩ q
  b1 : ∀ q : Fin 64, (V c main_v41 : S1x64.Idx → EReal) (ix2 (0 : Fin 1) q) = P.be1 q
  w2 : ∀ k q : Fin 64, (V c main_arg6 : S64x64.Idx → EReal) (ix2 k q) = P.we2 k q
  b2 : ∀ q : Fin 64, (V c main_v42 : S1x64.Idx → EReal) (ix2 (0 : Fin 1) q) = P.be2 q
  wx1 : ∀ k q : Fin 64, (V c main_arg8 : S64x64.Idx → EReal) (ix2 k q) = P.wx1 k q
  bx1 : ∀ q : Fin 64, (V c main_v43 : S1x64.Idx → EReal) (ix2 (0 : Fin 1) q) = P.bx1 q
  wx2 : ∀ k : Fin 64, (V c main_arg10 : S64x1.Idx → EReal) (ix2 k (0 : Fin 1)) = P.wx2 k 0
  bx2 : (V c main_v44 : S1x1.Idx → EReal) (ix2 (0 : Fin 1) (0 : Fin 1)) = P.bx2 0

/-- Each edge's message, as one function of the message array's index. -/
def msgArr : S1600000x64.Idx → EReal := fun i =>
  msg P (hiAt V c ⟨(i 0).val, (i 0).isLt⟩) (hjAt V c ⟨(i 0).val, (i 0).isLt⟩) (radAt V c ⟨(i 0).val, (i 0).isLt⟩)
    (eaAt V c ⟨(i 0).val, (i 0).isLt⟩) ⟨(i 1).val, (i 1).isLt⟩

/-- Each edge's gate, as one function of the gate array's index. -/
def gateArr : S1600000x1.Idx → EReal := fun i =>
  gate P (hiAt V c ⟨(i 0).val, (i 0).isLt⟩) (hjAt V c ⟨(i 0).val, (i 0).isLt⟩) (radAt V c ⟨(i 0).val, (i 0).isLt⟩)
    (eaAt V c ⟨(i 0).val, (i 0).isLt⟩)

/-! ## The blocks of a point -/

theorem n200 : cfg0.N = 200 := N_0

/-- Row `r` of point `t` is edge `8000 t + r`. -/
def erow (t : Fin cfg0.N) (r : Fin 8000) : Fin 1600000 :=
  ⟨t.val * 8000 + r.val, by have h1 : t.val < 200 := lt_of_lt_of_eq t.isLt n200; have := r.isLt; omega⟩

/-- The printed index maps over the 200 points: the three edge windows and the two output windows are at block row
    `t`, column block 0; the weight windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

section Reads
variable (t : Fin cfg0.N) (r : Fin 8000)

theorem blk0_apply (k : Fin 64) : iblk0 V c 0 t (ix2 r k) = hiAt V c (erow t r) k := by
  obtain ⟨⟨e0, e1⟩, -⟩ := idx_facts t
  show (V c main_v29 : S1600000x64.Idx → EReal) (((cfg0.win 0).blk t).view.emb (ix2 r k)) = (V c main_v29 : S1600000x64.Idx → EReal) (ix2 (erow t r) k)
  refine congrArg (V c main_v29 : S1600000x64.Idx → EReal) (funext fun a => Fin.ext ?_)
  match a with
  | ⟨0, _⟩ => show win0_0.index t (0 : Fin 2) * 8000 + 1 * r.val = t.val * 8000 + r.val; omega
  | ⟨1, _⟩ => show win0_0.index t (1 : Fin 2) * 64 + 1 * k.val = k.val; omega

theorem blk1_apply (k : Fin 64) : iblk0 V c 1 t (ix2 r k) = hjAt V c (erow t r) k := by
  obtain ⟨-, ⟨e0, e1⟩, -⟩ := idx_facts t
  show (V c main_v36 : S1600000x64.Idx → EReal) (((cfg0.win 1).blk t).view.emb (ix2 r k)) = (V c main_v36 : S1600000x64.Idx → EReal) (ix2 (erow t r) k)
  refine congrArg (V c main_v36 : S1600000x64.Idx → EReal) (funext fun a => Fin.ext ?_)
  match a with
  | ⟨0, _⟩ => show win0_1.index t (0 : Fin 2) * 8000 + 1 * r.val = t.val * 8000 + r.val; omega
  | ⟨1, _⟩ => show win0_1.index t (1 : Fin 2) * 64 + 1 * k.val = k.val; omega

theorem blk2_apply (k : Fin 9) :
    iblk0 V c 2 t (ix2 r k) = (V c main_v22 : S1600000x9.Idx → EReal) (ix2 (erow t r) k) := by
  obtain ⟨-, -, ⟨e0, e1⟩, -⟩ := idx_facts t
  show (V c main_v22 : S1600000x9.Idx → EReal) (((cfg0.win 2).blk t).view.emb (ix2 r k)) = (V c main_v22 : S1600000x9.Idx → EReal) (ix2 (erow t r) k)
  refine congrArg (V c main_v22 : S1600000x9.Idx → EReal) (funext fun a => Fin.ext ?_)
  match a with
  | ⟨0, _⟩ => show win0_2.index t (0 : Fin 2) * 8000 + 1 * r.val = t.val * 8000 + r.val; omega
  | ⟨1, _⟩ => show win0_2.index t (1 : Fin 2) * 9 + 1 * k.val = k.val; omega

end Reads

/-! ## The weight blocks are the whole weight arrays -/

theorem blk3_apply (t : Fin cfg0.N) (p : Fin 64) (q : Fin 64) :
    iblk0 V c 3 t (ix2 p q) = (V c main_v37 : S64x64.Idx → EReal) (ix2 p q) := by
  have e := (idx_facts t).2.2.2.1
  show (V c main_v37 : S64x64.Idx → EReal) (((cfg0.win 3).blk t).view.emb (ix2 p q)) = (V c main_v37 : S64x64.Idx → EReal) (ix2 p q)
  refine congrArg (V c main_v37 : S64x64.Idx → EReal) (funext fun a => Fin.ext ?_)
  match a with
  | ⟨0, _⟩ => show win0_3.index t (0 : Fin 2) * 64 + 1 * p.val = p.val; have := e.1; omega
  | ⟨1, _⟩ => show win0_3.index t (1 : Fin 2) * 64 + 1 * q.val = q.val; have := e.2; omega

theorem blk4_apply (t : Fin cfg0.N) (p : Fin 64) (q : Fin 64) :
    iblk0 V c 4 t (ix2 p q) = (V c main_v38 : S64x64.Idx → EReal) (ix2 p q) := by
  have e := (idx_facts t).2.2.2.2.1
  show (V c main_v38 : S64x64.Idx → EReal) (((cfg0.win 4).blk t).view.emb (ix2 p q)) = (V c main_v38 : S64x64.Idx → EReal) (ix2 p q)
  refine congrArg (V c main_v38 : S64x64.Idx → EReal) (funext fun a => Fin.ext ?_)
  match a with
  | ⟨0, _⟩ => show win0_4.index t (0 : Fin 2) * 64 + 1 * p.val = p.val; have := e.1; omega
  | ⟨1, _⟩ => show win0_4.index t (1 : Fin 2) * 64 + 1 * q.val = q.val; have := e.2; omega

theorem blk5_apply (t : Fin cfg0.N) (p : Fin 1) (q : Fin 64) :
    iblk0 V c 5 t (ix2 p q) = (V c main_v39 : S1x64.Idx → EReal) (ix2 p q) := by
  have e := (idx_facts t).2.2.2.2.2.1
  show (V c main_v39 : S1x64.Idx → EReal) (((cfg0.win 5).blk t).view.emb (ix2 p q)) = (V c main_v39 : S1x64.Idx → EReal) (ix2 p q)
  refine congrArg (V c main_v39 : S1x64.Idx → EReal) (funext fun a => Fin.ext ?_)
  match a with
  | ⟨0, _⟩ => show win0_5.index t (0 : Fin 2) * 1 + 1 * p.val = p.val; have := e.1; omega
  | ⟨1, _⟩ => show win0_5.index t (1 : Fin 2) * 64 + 1 * q.val = q.val; have := e.2; omega

theorem blk6_apply (t : Fin cfg0.N) (p : Fin 8) (q : Fin 64) :
    iblk0 V c 6 t (ix2 p q) = (V c main_v40 : S8x64.Idx → EReal) (ix2 p q) := by
  have e := (idx_facts t).2.2.2.2.2.2.1
  show (V c main_v40 : S8x64.Idx → EReal) (((cfg0.win 6).blk t).view.emb (ix2 p q)) = (V c main_v40 : S8x64.Idx → EReal) (ix2 p q)
  refine congrArg (V c main_v40 : S8x64.Idx → EReal) (funext fun a => Fin.ext ?_)
  match a with
  | ⟨0, _⟩ => show win0_6.index t (0 : Fin 2) * 8 + 1 * p.val = p.val; have := e.1; omega
  | ⟨1, _⟩ => show win0_6.index t (1 : Fin 2) * 64 + 1 * q.val = q.val; have := e.2; omega

theorem blk7_apply (t : Fin cfg0.N) (p : Fin 1) (q : Fin 64) :
    iblk0 V c 7 t (ix2 p q) = (V c main_v41 : S1x64.Idx → EReal) (ix2 p q) := by
  have e := (idx_facts t).2.2.2.2.2.2.2.1
  show (V c main_v41 : S1x64.Idx → EReal) (((cfg0.win 7).blk t).view.emb (ix2 p q)) = (V c main_v41 : S1x64.Idx → EReal) (ix2 p q)
  refine congrArg (V c main_v41 : S1x64.Idx → EReal) (funext fun a => Fin.ext ?_)
  match a with
  | ⟨0, _⟩ => show win0_7.index t (0 : Fin 2) * 1 + 1 * p.val = p.val; have := e.1; omega
  | ⟨1, _⟩ => show win0_7.index t (1 : Fin 2) * 64 + 1 * q.val = q.val; have := e.2; omega

theorem blk8_apply (t : Fin cfg0.N) (p : Fin 64) (q : Fin 64) :
    iblk0 V c 8 t (ix2 p q) = (V c main_arg6 : S64x64.Idx → EReal) (ix2 p q) := by
  have e := (idx_facts t).2.2.2.2.2.2.2.2.1
  show (V c main_arg6 : S64x64.Idx → EReal) (((cfg0.win 8).blk t).view.emb (ix2 p q)) = (V c main_arg6 : S64x64.Idx → EReal) (ix2 p q)
  refine congrArg (V c main_arg6 : S64x64.Idx → EReal) (funext fun a => Fin.ext ?_)
  match a with
  | ⟨0, _⟩ => show win0_8.index t (0 : Fin 2) * 64 + 1 * p.val = p.val; have := e.1; omega
  | ⟨1, _⟩ => show win0_8.index t (1 : Fin 2) * 64 + 1 * q.val = q.val; have := e.2; omega

theorem blk9_apply (t : Fin cfg0.N) (p : Fin 1) (q : Fin 64) :
    iblk0 V c 9 t (ix2 p q) = (V c main_v42 : S1x64.Idx → EReal) (ix2 p q) := by
  have e := (idx_facts t).2.2.2.2.2.2.2.2.2.1
  show (V c main_v42 : S1x64.Idx → EReal) (((cfg0.win 9).blk t).view.emb (ix2 p q)) = (V c main_v42 : S1x64.Idx → EReal) (ix2 p q)
  refine congrArg (V c main_v42 : S1x64.Idx → EReal) (funext fun a => Fin.ext ?_)
  match a with
  | ⟨0, _⟩ => show win0_9.index t (0 : Fin 2) * 1 + 1 * p.val = p.val; have := e.1; omega
  | ⟨1, _⟩ => show win0_9.index t (1 : Fin 2) * 64 + 1 * q.val = q.val; have := e.2; omega

theorem blk10_apply (t : Fin cfg0.N) (p : Fin 64) (q : Fin 64) :
    iblk0 V c 10 t (ix2 p q) = (V c main_arg8 : S64x64.Idx → EReal) (ix2 p q) := by
  have e := (idx_facts t).2.2.2.2.2.2.2.2.2.2.1
  show (V c main_arg8 : S64x64.Idx → EReal) (((cfg0.win 10).blk t).view.emb (ix2 p q)) = (V c main_arg8 : S64x64.Idx → EReal) (ix2 p q)
  refine congrArg (V c main_arg8 : S64x64.Idx → EReal) (funext fun a => Fin.ext ?_)
  match a with
  | ⟨0, _⟩ => show win0_10.index t (0 : Fin 2) * 64 + 1 * p.val = p.val; have := e.1; omega
  | ⟨1, _⟩ => show win0_10.index t (1 : Fin 2) * 64 + 1 * q.val = q.val; have := e.2; omega

theorem blk11_apply (t : Fin cfg0.N) (p : Fin 1) (q : Fin 64) :
    iblk0 V c 11 t (ix2 p q) = (V c main_v43 : S1x64.Idx → EReal) (ix2 p q) := by
  have e := (idx_facts t).2.2.2.2.2.2.2.2.2.2.2.1
  show (V c main_v43 : S1x64.Idx → EReal) (((cfg0.win 11).blk t).view.emb (ix2 p q)) = (V c main_v43 : S1x64.Idx → EReal) (ix2 p q)
  refine congrArg (V c main_v43 : S1x64.Idx → EReal) (funext fun a => Fin.ext ?_)
  match a with
  | ⟨0, _⟩ => show win0_11.index t (0 : Fin 2) * 1 + 1 * p.val = p.val; have := e.1; omega
  | ⟨1, _⟩ => show win0_11.index t (1 : Fin 2) * 64 + 1 * q.val = q.val; have := e.2; omega

theorem blk12_apply (t : Fin cfg0.N) (p : Fin 64) (q : Fin 1) :
    iblk0 V c 12 t (ix2 p q) = (V c main_arg10 : S64x1.Idx → EReal) (ix2 p q) := by
  have e := (idx_facts t).2.2.2.2.2.2.2.2.2.2.2.2.1
  show (V c main_arg10 : S64x1.Idx → EReal) (((cfg0.win 12).blk t).view.emb (ix2 p q)) = (V c main_arg10 : S64x1.Idx → EReal) (ix2 p q)
  refine congrArg (V c main_arg10 : S64x1.Idx → EReal) (funext fun a => Fin.ext ?_)
  match a with
  | ⟨0, _⟩ => show win0_12.index t (0 : Fin 2) * 64 + 1 * p.val = p.val; have := e.1; omega
  | ⟨1, _⟩ => show win0_12.index t (1 : Fin 2) * 1 + 1 * q.val = q.val; have := e.2; omega

theorem blk13_apply (t : Fin cfg0.N) (p : Fin 1) (q : Fin 1) :
    iblk0 V c 13 t (ix2 p q) = (V c main_v44 : S1x1.Idx → EReal) (ix2 p q) := by
  have e := (idx_facts t).2.2.2.2.2.2.2.2.2.2.2.2.2.1
  show (V c main_v44 : S1x1.Idx → EReal) (((cfg0.win 13).blk t).view.emb (ix2 p q)) = (V c main_v44 : S1x1.Idx → EReal) (ix2 p q)
  refine congrArg (V c main_v44 : S1x1.Idx → EReal) (funext fun a => Fin.ext ?_)
  match a with
  | ⟨0, _⟩ => show win0_13.index t (0 : Fin 2) * 1 + 1 * p.val = p.val; have := e.1; omega
  | ⟨1, _⟩ => show win0_13.index t (1 : Fin 2) * 1 + 1 * q.val = q.val; have := e.2; omega

/-! ## What a point writes back -/

section Flush
variable (hW : EdgeWeights V c P)
include hW

/-- Point `t` writes back rows `8000 t …` of the message array. -/
theorem flushed14 (t : Fin cfg0.N) :
    (dat0 V c).flushed 14 t = ((cfg0.win 14).blk t).view.read (Elt Ideal) (msgArr V c P) := by
  show (cfg0.win 14).cut (grid0.coords t) ((dat0 V c).after 14 t) = _
  rw [after0_14]
  unfold out0_14
  rw [View.canon_unit_zero hz]
  simp only [View.ld_unit_zero (S := S8000x64) hz, View.ld_unit_zero (S := S8000x9) hz, View.ld_unit_zero (S := S64x64) hz,
    View.ld_unit_zero (S := S1x64) hz, View.ld_unit_zero (S := S8x64) hz]
  funext j
  obtain ⟨r, q, rfl⟩ : ∃ (r : Fin 8000) (q : Fin 64), j = ix2 r q := ⟨j 0, j 1, eq_ix2 j⟩
  have e := (idx_facts t).2.2.2.2.2.2.2.2.2.2.2.2.2.2.1
  have hemb : ((cfg0.win 14).blk t).view.emb (ix2 r q) = (ix2 (erow t r) q : S1600000x64.Idx) := funext fun a => Fin.ext (by
    match a with
    | ⟨0, _⟩ => show win0_14.index t (0 : Fin 2) * 8000 + 1 * r.val = t.val * 8000 + r.val; have := e.1; omega
    | ⟨1, _⟩ => show win0_14.index t (1 : Fin 2) * 64 + 1 * q.val = q.val; have := e.2; omega)
  show k0_pay1 (F := Ideal) (k0_pay3 (F := Ideal) (iblk0 V c 0 t) (iblk0 V c 1 t) (iblk0 V c 2 t) (iblk0 V c 5 t) (iblk0 V c 3 t)
      (iblk0 V c 4 t) (iblk0 V c 6 t) (iblk0 V c 7 t)) (iblk0 V c 8 t) (iblk0 V c 9 t) (ix2 r q)
    = msgArr V c P (((cfg0.win 14).blk t).view.emb (ix2 r q))
  rw [hemb]
  exact msg_of_blocks P (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t)
    (hiAt V c (erow t r)) (hjAt V c (erow t r)) (radAt V c (erow t r)) (eaAt V c (erow t r)) r
    (fun k => blk0_apply V c t r k) (fun k => blk1_apply V c t r k) (blk2_apply V c t r 0)
    (fun k => blk2_apply V c t r ⟨1 + k.val, by omega⟩)
    (fun k q => (blk3_apply V c t k q).trans (hW.w1a k q)) (fun k q => (blk4_apply V c t k q).trans (hW.w1b k q))
    (fun q => (blk5_apply V c t 0 q).trans (hW.w1r q)) (fun k q => (blk6_apply V c t k q).trans (hW.w1e k q))
    (fun q => (blk7_apply V c t 0 q).trans (hW.b1 q)) (fun k q => (blk8_apply V c t k q).trans (hW.w2 k q))
    (fun q => (blk9_apply V c t 0 q).trans (hW.b2 q)) q

/-- Point `t` writes back rows `8000 t …` of the gate array. -/
theorem flushed15 (t : Fin cfg0.N) :
    (dat0 V c).flushed 15 t = ((cfg0.win 15).blk t).view.read (Elt Ideal) (gateArr V c P) := by
  show (cfg0.win 15).cut (grid0.coords t) ((dat0 V c).after 15 t) = _
  rw [after0_15]
  unfold out0_15
  rw [View.canon_unit_zero hz]
  simp only [View.ld_unit_zero (S := S8000x64) hz, View.ld_unit_zero (S := S8000x9) hz, View.ld_unit_zero (S := S64x64) hz,
    View.ld_unit_zero (S := S1x64) hz, View.ld_unit_zero (S := S8x64) hz, View.ld_unit_zero (S := S64x1) hz,
    View.ld_unit_zero (S := S1x1) hz]
  funext j
  obtain ⟨r, q, rfl⟩ : ∃ (r : Fin 8000) (q : Fin 1), j = ix2 r q := ⟨j 0, j 1, eq_ix2 j⟩
  obtain rfl : q = 0 := Subsingleton.elim _ _
  have e := (idx_facts t).2.2.2.2.2.2.2.2.2.2.2.2.2.2.2
  have hemb : ((cfg0.win 15).blk t).view.emb (ix2 r (0 : Fin 1)) = (ix2 (erow t r) (0 : Fin 1) : S1600000x1.Idx) := funext fun a => Fin.ext (by
    match a with
    | ⟨0, _⟩ => show win0_15.index t (0 : Fin 2) * 8000 + 1 * r.val = t.val * 8000 + r.val; have := e.1; omega
    | ⟨1, _⟩ => show win0_15.index t (1 : Fin 2) * 1 + 1 * 0 = 0; have := e.2; omega)
  show k0_pay2 (F := Ideal) (k0_pay3 (F := Ideal) (iblk0 V c 0 t) (iblk0 V c 1 t) (iblk0 V c 2 t) (iblk0 V c 5 t) (iblk0 V c 3 t)
      (iblk0 V c 4 t) (iblk0 V c 6 t) (iblk0 V c 7 t)) (iblk0 V c 8 t) (iblk0 V c 9 t) (iblk0 V c 10 t) (iblk0 V c 11 t)
      (iblk0 V c 12 t) (iblk0 V c 13 t) (ix2 r (0 : Fin 1))
    = gateArr V c P (((cfg0.win 15).blk t).view.emb (ix2 r (0 : Fin 1)))
  rw [hemb]
  exact gate_of_blocks P (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t)
    (hiAt V c (erow t r)) (hjAt V c (erow t r)) (radAt V c (erow t r)) (eaAt V c (erow t r)) r
    (fun k => blk0_apply V c t r k) (fun k => blk1_apply V c t r k) (blk2_apply V c t r 0)
    (fun k => blk2_apply V c t r ⟨1 + k.val, by omega⟩)
    (fun k q => (blk3_apply V c t k q).trans (hW.w1a k q)) (fun k q => (blk4_apply V c t k q).trans (hW.w1b k q))
    (fun q => (blk5_apply V c t 0 q).trans (hW.w1r q)) (fun k q => (blk6_apply V c t k q).trans (hW.w1e k q))
    (fun q => (blk7_apply V c t 0 q).trans (hW.b1 q)) (fun k q => (blk8_apply V c t k q).trans (hW.w2 k q))
    (fun q => (blk9_apply V c t 0 q).trans (hW.b2 q))
    (iblk0 V c 10 t) (iblk0 V c 11 t) (iblk0 V c 12 t) (iblk0 V c 13 t)
    (fun k q => (blk10_apply V c t k q).trans (hW.wx1 k q)) (fun q => (blk11_apply V c t 0 q).trans (hW.bx1 q))
    (fun k => (blk12_apply V c t k 0).trans (hW.wx2 k)) ((blk13_apply V c t 0 0).trans hW.bx2)

end Flush

/-! ## Every edge is in some point's block -/

theorem mem_blk14 (t : Fin cfg0.N) (i : S1600000x64.Idx) :
    i ∈ ((cfg0.win 14).blk t).view.set ↔ ∀ a : Fin 2, win0_14.index t a * S8000x64.size a ≤ (i a).val
      ∧ (i a).val < win0_14.index t a * S8000x64.size a + S8000x64.size a := by
  show i ∈ ((View.whole main_v45_0).slice (win0_14.rect t)).set ↔ _
  rw [View.set_slice_whole, Rect.mem_set_unit]
  exact Iff.rfl

theorem mem_blk15 (t : Fin cfg0.N) (i : S1600000x1.Idx) :
    i ∈ ((cfg0.win 15).blk t).view.set ↔ ∀ a : Fin 2, win0_15.index t a * S8000x1.size a ≤ (i a).val
      ∧ (i a).val < win0_15.index t a * S8000x1.size a + S8000x1.size a := by
  show i ∈ ((View.whole main_v45_1).slice (win0_15.rect t)).set ↔ _
  rw [View.set_slice_whole, Rect.mem_set_unit]
  exact Iff.rfl

theorem cover14 (i : S1600000x64.Idx) :
    ∃ t : Fin cfg0.N, (cfg0.win 14).flush t = true ∧ i ∈ ((cfg0.win 14).blk t).view.set := by
  have hi0 : (i 0).val < 1600000 := (i 0).isLt
  have hi1 : (i 1).val < 64 := (i 1).isLt
  have ht : (i 0).val / 8000 < cfg0.N := lt_of_lt_of_eq (by omega : (i 0).val / 8000 < 200) n200.symm
  have e := (idx_facts ⟨(i 0).val / 8000, ht⟩).2.2.2.2.2.2.2.2.2.2.2.2.2.2.1
  refine ⟨⟨(i 0).val / 8000, ht⟩, flush0_14 _, ?_⟩
  rw [mem_blk14]
  intro a
  match a with
  | ⟨0, _⟩ =>
    show win0_14.index ⟨(i 0).val / 8000, ht⟩ (0 : Fin 2) * 8000 ≤ (i 0).val
      ∧ (i 0).val < win0_14.index ⟨(i 0).val / 8000, ht⟩ (0 : Fin 2) * 8000 + 8000
    have e1 : win0_14.index ⟨(i 0).val / 8000, ht⟩ (0 : Fin 2) = (i 0).val / 8000 := e.1
    omega
  | ⟨1, _⟩ =>
    show win0_14.index ⟨(i 0).val / 8000, ht⟩ (1 : Fin 2) * 64 ≤ (i 1).val
      ∧ (i 1).val < win0_14.index ⟨(i 0).val / 8000, ht⟩ (1 : Fin 2) * 64 + 64
    have e2 := e.2
    omega

theorem cover15 (i : S1600000x1.Idx) :
    ∃ t : Fin cfg0.N, (cfg0.win 15).flush t = true ∧ i ∈ ((cfg0.win 15).blk t).view.set := by
  have hi0 : (i 0).val < 1600000 := (i 0).isLt
  have hi1 : (i 1).val < 1 := (i 1).isLt
  have ht : (i 0).val / 8000 < cfg0.N := lt_of_lt_of_eq (by omega : (i 0).val / 8000 < 200) n200.symm
  have e := (idx_facts ⟨(i 0).val / 8000, ht⟩).2.2.2.2.2.2.2.2.2.2.2.2.2.2.2
  refine ⟨⟨(i 0).val / 8000, ht⟩, flush0_15 _, ?_⟩
  rw [mem_blk15]
  intro a
  match a with
  | ⟨0, _⟩ =>
    show win0_15.index ⟨(i 0).val / 8000, ht⟩ (0 : Fin 2) * 8000 ≤ (i 0).val
      ∧ (i 0).val < win0_15.index ⟨(i 0).val / 8000, ht⟩ (0 : Fin 2) * 8000 + 8000
    have e1 : win0_15.index ⟨(i 0).val / 8000, ht⟩ (0 : Fin 2) = (i 0).val / 8000 := e.1
    omega
  | ⟨1, _⟩ =>
    show win0_15.index ⟨(i 0).val / 8000, ht⟩ (1 : Fin 2) * 1 ≤ (i 1).val
      ∧ (i 1).val < win0_15.index ⟨(i 0).val / 8000, ht⟩ (1 : Fin 2) * 1 + 1
    have e2 := e.2
    omega

/-! ## The two arrays after the stage -/

/-- The message array ends holding every edge's message. -/
theorem final14 (hW : EdgeWeights V c P) : (dat0 V c).arrAt 14 cfg0.N = msgArr V c P :=
  (dat0 V c).arrAt_eq_of_cover 14 (msgArr V c P) (fun t _ => flushed14 V c P hW t) (cover14)

/-- The gate array ends holding every edge's gate. -/
theorem final15 (hW : EdgeWeights V c P) : (dat0 V c).arrAt 15 cfg0.N = gateArr V c P :=
  (dat0 V c).arrAt_eq_of_cover 15 (gateArr V c P) (fun t _ => flushed15 V c P hW t) (cover15)

end Cert.KernelIdeal.EdgeValue

end
-- ==== Proof.HostEdge.lean ====
/-
  What the edge stage is entered from. The host operations before it cut the first weight matrix into its rows 0–63,
  64–127, 128 and 129–136, view four bias vectors as one-row matrices, gather the end nodes' feature rows and positions,
  and put the squared distance in front of the eight attributes. So the weight arrays the stage finds hold the layer's
  first two two-layer maps, and an edge's feature rows, squared distance and attributes are the very arrays the
  reference program builds with the same operations (those are compared as whole terms, never opened).
-/
import proofs.«169352_j52699248722544_2_alg».proof.Proof.StageData
import proofs.«169352_j52699248722544_2_alg».proof.Proof.EdgeArrays
import proofs.«169352_j52699248722544_2_alg».proof.Proof.Gen.ReferenceIdeal.Read
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.StableHlo Idealize.ShloMosaic.ValueIdx MsgPass

namespace Cert.KernelIdeal.HostValue

open Cert.KernelIdeal Cert.KernelIdeal.Gen Cert.KernelIdeal.Stage Cert.KernelIdeal.EdgeValue

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The layer's weights from the launched weight arguments. -/
abbrev PW : Weights :=
  weights (arg m c main_arg4) (arg m c main_arg5) (arg m c main_arg6) (arg m c main_arg7) (arg m c main_arg8)
    (arg m c main_arg9) (arg m c main_arg10) (arg m c main_arg11) (arg m c main_arg12) (arg m c main_arg13)
    (arg m c main_arg14) (arg m c main_arg15) (arg m c main_arg16) (arg m c main_arg17) (arg m c main_arg18)
    (arg m c main_arg19)

/-! ## The stretch's results, one buffer at a time -/

theorem v37_eq : W1 m ρ c (Proc.devRef .tc main_v37) = extractStridedSlice S64x64 ![0, 0] (arg m c main_arg4) slices_S137x64_S64x64_0_0 := by
  after_results_simp <;> rfl
theorem v38_eq : W1 m ρ c (Proc.devRef .tc main_v38) = extractStridedSlice S64x64 ![64, 0] (arg m c main_arg4) slices_S137x64_S64x64_64_0 := by
  after_results_simp <;> rfl
theorem v39_eq : W1 m ρ c (Proc.devRef .tc main_v39) = extractStridedSlice S1x64 ![128, 0] (arg m c main_arg4) slices_S137x64_S1x64_128_0 := by
  after_results_simp <;> rfl
theorem v40_eq : W1 m ρ c (Proc.devRef .tc main_v40) = extractStridedSlice S8x64 ![129, 0] (arg m c main_arg4) slices_S137x64_S8x64_129_0 := by
  after_results_simp <;> rfl
theorem v41_eq : W1 m ρ c (Proc.devRef .tc main_v41) = shapeCast S1x64 (arg m c main_arg5) shapeCasts_S64_S1x64 := by
  after_results_simp <;> rfl
theorem v42_eq : W1 m ρ c (Proc.devRef .tc main_v42) = shapeCast S1x64 (arg m c main_arg7) shapeCasts_S64_S1x64 := by
  after_results_simp <;> rfl
theorem v43_eq : W1 m ρ c (Proc.devRef .tc main_v43) = shapeCast S1x64 (arg m c main_arg9) shapeCasts_S64_S1x64 := by
  after_results_simp <;> rfl
theorem v44_eq : W1 m ρ c (Proc.devRef .tc main_v44) = shapeCast S1x1 (arg m c main_arg11) shapeCasts_S1_S1x1 := by
  after_results_simp <;> rfl
theorem a6_eq : W1 m ρ c (Proc.devRef .tc main_arg6) = arg m c main_arg6 := by after_results_simp <;> rfl
theorem a8_eq : W1 m ρ c (Proc.devRef .tc main_arg8) = arg m c main_arg8 := by after_results_simp <;> rfl
theorem a10_eq : W1 m ρ c (Proc.devRef .tc main_arg10) = arg m c main_arg10 := by after_results_simp <;> rfl

/-- Rows `o …` of the first weight matrix. -/
theorem sliceRows {A : Nat} (o : Nat) (S : Shape) (hS : S = ⟨2, ![A, 64]⟩) (ho : o + A ≤ 137)
    (h : S137x64.Slices ![o, 0] ⟨2, ![A, 64]⟩) (x : S137x64.Idx → EReal) (k : Fin A) (q : Fin 64) :
    extractStridedSlice ⟨2, ![A, 64]⟩ ![o, 0] x h (ix2 k q) = x (ix2 (⟨o + k.val, by omega⟩ : Fin 137) q) :=
  extractStridedSlice_apply _ x _ (ix2 k q) (ix2 (⟨o + k.val, by omega⟩ : Fin 137) q) fun a => by
    match a with
    | ⟨0, _⟩ => rfl
    | ⟨1, _⟩ => exact (Nat.zero_add _).symm

/-- The weight arrays the edge stage finds hold the layer's first two two-layer maps. -/
theorem edgeWeights : EdgeWeights (V1 m ρ) c (PW m c) where
  w1a k q := by
    show W1 m ρ c (Proc.devRef .tc main_v37) (ix2 k q) = _
    rw [v37_eq]
    exact (sliceRows 0 S64x64 rfl (by omega) _ _ k q).trans (by simp only [Nat.zero_add]; rfl)
  w1b k q := by
    show W1 m ρ c (Proc.devRef .tc main_v38) (ix2 k q) = _
    rw [v38_eq]
    exact sliceRows 64 S64x64 rfl (by omega) _ _ k q
  w1r q := by
    show W1 m ρ c (Proc.devRef .tc main_v39) (ix2 (0 : Fin 1) q) = _
    rw [v39_eq]
    exact sliceRows 128 S1x64 rfl (by omega) _ _ 0 q
  w1e k q := by
    show W1 m ρ c (Proc.devRef .tc main_v40) (ix2 k q) = _
    rw [v40_eq]
    exact sliceRows 129 S8x64 rfl (by omega) _ _ k q
  b1 q := by
    show W1 m ρ c (Proc.devRef .tc main_v41) (ix2 (0 : Fin 1) q) = _
    rw [v41_eq]
    exact shapeCast_a_1a_apply _ _ 0 q
  w2 k q := by
    show W1 m ρ c (Proc.devRef .tc main_arg6) (ix2 k q) = _
    rw [a6_eq]; rfl
  b2 q := by
    show W1 m ρ c (Proc.devRef .tc main_v42) (ix2 (0 : Fin 1) q) = _
    rw [v42_eq]
    exact shapeCast_a_1a_apply _ _ 0 q
  wx1 k q := by
    show W1 m ρ c (Proc.devRef .tc main_arg8) (ix2 k q) = _
    rw [a8_eq]; rfl
  bx1 q := by
    show W1 m ρ c (Proc.devRef .tc main_v43) (ix2 (0 : Fin 1) q) = _
    rw [v43_eq]
    exact shapeCast_a_1a_apply _ _ 0 q
  wx2 k := by
    show W1 m ρ c (Proc.devRef .tc main_arg10) (ix2 k (0 : Fin 1)) = _
    rw [a10_eq]; rfl
  bx2 := by
    show W1 m ρ c (Proc.devRef .tc main_v44) (ix2 (0 : Fin 1) (0 : Fin 1)) = _
    rw [v44_eq]
    exact shapeCast_a_1a_apply _ _ 0 0

/-! ## An edge's data is the reference's -/

/-- The reference's argument arrays are this program's (both programs take the same twenty-one arrays). -/
abbrev R0 := arg m c main_arg0
abbrev R1 := arg m c main_arg1
abbrev R3 := arg m c main_arg3
abbrev R20 := arg m c main_arg20

set_option maxHeartbeats 4000000 in
theorem v29_eq : W1 m ρ c (Proc.devRef .tc main_v29) = Cert.ReferenceIdeal.Read.val_main_v28 (F := Ideal) (R0 m c) (R20 m c) := by
  after_results_simp <;> rfl

set_option maxHeartbeats 4000000 in
theorem v36_eq : W1 m ρ c (Proc.devRef .tc main_v36) = Cert.ReferenceIdeal.Read.val_main_v35 (F := Ideal) (R0 m c) (R20 m c) := by
  after_results_simp <;> rfl

set_option maxHeartbeats 4000000 in
theorem v18_eq : W1 m ρ c (Proc.devRef .tc main_v18) = Cert.ReferenceIdeal.Read.val_main_v18 (F := Ideal) (R1 m c) (R20 m c) := by
  after_results_simp <;> rfl

set_option maxHeartbeats 4000000 in
theorem v1_eq : W1 m ρ c (Proc.devRef .tc main_v1) = Cert.ReferenceIdeal.Read.val_main_v1 (F := Ideal) (R20 m c) := by
  after_results_simp <;> rfl

set_option maxHeartbeats 4000000 in
/-- The squared distance, column 0 of the nine-column array. -/
theorem v22_rad (e : Fin 1600000) :
    W1 m ρ c (Proc.devRef .tc main_v22) (ix2 e (0 : Fin 9))
      = Cert.ReferenceIdeal.Read.val_main_v21 (F := Ideal) (R1 m c) (R20 m c) (ix2 e (0 : Fin 1)) := by
  after_results_simp
  refine (concatenate_pair_apply_left (t := S1600000x9) (s₁ := S1600000x1) (s₂ := S1600000x8) 1 _ _ _ (ix2 e (0 : Fin 9)) rfl
    (ix2 e (0 : Fin 1)) (fun b => by match b with | ⟨0, _⟩ => rfl | ⟨1, _⟩ => rfl)).trans ?_
  rfl

set_option maxHeartbeats 4000000 in
/-- The attributes, columns 1 to 8 of the nine-column array. -/
theorem v22_attr (e : Fin 1600000) (k : Fin 8) :
    W1 m ρ c (Proc.devRef .tc main_v22) (ix2 e (⟨1 + k.val, by omega⟩ : Fin 9)) = R3 m c (ix2 e k) := by
  after_results_simp
  refine (concatenate_pair_apply_right (t := S1600000x9) (s₁ := S1600000x1) (s₂ := S1600000x8) 1 _ _ _
    (ix2 e (⟨1 + k.val, by omega⟩ : Fin 9)) rfl rfl (ix2 e k)
    (fun b hb => by match b with | ⟨0, _⟩ => rfl | ⟨1, _⟩ => exact absurd rfl hb)
    (by show k.val + 1 = 1 + k.val; omega)).trans ?_
  rfl

end Cert.KernelIdeal.HostValue

end
-- ==== Proof.NodePayload.lean ====
/-
  The node stage's arithmetic at one entry. A block holds 5000 nodes. Row `r` has the node's 64 features `v0 r`, nine
  numbers `v1 r` — its position (columns 0–2), its velocity (3–5) and the averaged gated differences (6–8) — and the
  64 summed messages `v6 r`. The velocity gate is two layers on the features (a product, a bias, the hyperbolic tangent,
  a product with one column, a bias); the new velocity is the velocity times the gate plus the averaged differences; the
  new position adds it to the position. The new features are two layers whose first adds the features' and the summed
  messages' products with the two halves of a weight matrix.
-/
import proofs.«169352_j52699248722544_2_alg».proof.Proof.Gen.KernelIdeal.Skeleton
import proofs.«169352_j52699248722544_2_alg».proof.Proof.LibMatmulPlain
import proofs.«169352_j52699248722544_2_alg».proof.Proof.Spec
import Idealize.ShloMosaic.Lib.ValueIdx
import Idealize.ShloMosaic.Lib.Pipeline.Value
import Idealize.ShloMosaic.Lib.ValueLayout

noncomputable section

open scoped BigOperators
open Idealize.ShloMosaic Idealize.ShloMosaic.ValueIdx MsgPass

namespace Cert.KernelIdeal.NodeValue

open Cert.KernelIdeal Cert.KernelIdeal.Gen

variable [hK : Cert.KernelIdeal.Facts]

/-- The hyperbolic tangent of a vector, at an index. -/
theorem tanh_apply {s : Shape} {φ : FTy} (a : FVec Ideal s φ) (i : s.Idx) : tanh a i = T (a i) := rfl

/-- A row of 64 repeated down 5000 rows. -/
theorem bcastRow64 (v : (⟨2, ![1, 64]⟩ : Shape).Idx → EReal) (r : Fin 5000) (c : Fin 64) :
    broadcastTo S5000x64 v broadcasts_S1x64_S5000x64 (ix2 r c) = v (ix2 (0 : Fin 1) c) :=
  broadcastTo_1b_ab_apply v _ r c

/-- One number repeated down a column of 5000. -/
theorem bcastOne (v : (⟨2, ![1, 1]⟩ : Shape).Idx → EReal) (r : Fin 5000) :
    broadcastTo S5000x1 v broadcasts_S1x1_S5000x1 (ix2 r (0 : Fin 1)) = v (ix2 (0 : Fin 1) (0 : Fin 1)) :=
  broadcastTo_1b_ab_apply v _ r 0

/-- A column of 5000 repeated across 3 columns. -/
theorem bcastCol3 (v : (⟨2, ![5000, 1]⟩ : Shape).Idx → EReal) (r : Fin 5000) (j : Fin 3) :
    broadcastTo S5000x3 v broadcasts_S5000x1_S5000x3 (ix2 r j) = v (ix2 r (0 : Fin 1)) :=
  broadcastTo_apply v _ (ix2 r j) (ix2 r (0 : Fin 1)) fun a => by
    match a with
    | ⟨0, _⟩ => rfl
    | ⟨1, _⟩ => rfl

/-- Three of the nine columns, from column `o`. -/
theorem slice3 (o : Nat) (ho : o + 3 ≤ 9) (h : S5000x9.Slices ![0, o] S5000x3)
    (v : (⟨2, ![5000, 9]⟩ : Shape).Idx → EReal) (r : Fin 5000) (j : Fin 3) :
    extractStridedSlice S5000x3 ![0, o] v h (ix2 r j) = v (ix2 r (⟨o + j.val, by omega⟩ : Fin 9)) :=
  extractStridedSlice_apply _ v _ (ix2 r j) (ix2 r (⟨o + j.val, by omega⟩ : Fin 9)) fun a => by
    match a with
    | ⟨0, _⟩ => exact (Nat.zero_add _).symm
    | ⟨1, _⟩ => rfl

/-- The two matrix products of the stage, each into a zero accumulator, at an entry. -/
theorem mm64 {φ₁ φ₂ : FTy} (a : FVec Ideal S5000x64 φ₁) (b : FVec Ideal S64x64 φ₂) (r : Fin 5000) (c : Fin 64) :
    matmul dot_S5000x64_S64x64_S5000x64_1_0_0_1_n_n none a b (constant S5000x64 .f32 0x00000000#32) (ix2 r c)
      = ∑ k : Fin 64, a (ix2 r k) * b (ix2 k c) :=
  MatmulPlain.matmul_zero_apply _ rfl rfl rfl rfl rfl rfl none a b r c

theorem mm1 {φ₁ φ₂ : FTy} (a : FVec Ideal S5000x64 φ₁) (b : FVec Ideal S64x1 φ₂) (r : Fin 5000) :
    matmul dot_S5000x64_S64x1_S5000x1_1_0_0_1_n_n none a b (constant S5000x1 .f32 0x00000000#32) (ix2 r (0 : Fin 1))
      = ∑ k : Fin 64, a (ix2 r k) * b (ix2 k (0 : Fin 1)) :=
  MatmulPlain.matmul_zero_apply _ rfl rfl rfl rfl rfl rfl none a b r 0

/-- The summed messages and the second half of the weight matrix pass through unchanged. -/
theorem pass6 (v6 : Vec Ideal S5000x64 .f32) (i : S5000x64.Idx) : k1_pay6 (F := Ideal) v6 i = v6 i := by
  unfold k1_pay6; simp only [shapeCast_self, truncf_apply]
theorem pass7 (v35 : Vec Ideal S64x64 .f32) (i : S64x64.Idx) : k1_pay7 (F := Ideal) v35 i = v35 i := by
  unfold k1_pay7; simp only [shapeCast_self, truncf_apply]

/-- The features' product with the first half of the weight matrix. -/
theorem featProd_apply (v0 : Vec Ideal S5000x64 .f32) (v30 : Vec Ideal S64x64 .f32) (r : Fin 5000) (c : Fin 64) :
    k1_pay5 (F := Ideal) v0 v30 (ix2 r c) = ∑ k : Fin 64, v0 (ix2 r k) * v30 (ix2 k c) := by
  unfold k1_pay5
  simp only [shapeCast_self, truncf_apply, mm64]

/-- The new features at row `r`, output `c`: `s` is the features' product, `mi` the summed messages. -/
theorem featNew_apply (s : FVec Ideal S5000x64 .f32) (mi : FVec Ideal S5000x64 .bf16) (w2 : FVec Ideal S64x64 .bf16)
    (v40 : Vec Ideal S1x64 .f32) (v46 : Vec Ideal S64x64 .f32) (v49 : Vec Ideal S1x64 .f32) (r : Fin 5000) (c : Fin 64) :
    k1_pay1 (F := Ideal) s mi w2 v40 v46 v49 (ix2 r c)
      = (∑ k : Fin 64, T ((s (ix2 r k) + ∑ k' : Fin 64, mi (ix2 r k') * w2 (ix2 k' k)) + v40 (ix2 (0 : Fin 1) k))
            * v46 (ix2 k c))
          + v49 (ix2 (0 : Fin 1) c) := by
  unfold k1_pay1
  simp only [shapeCast_self, truncf_apply, tanh_apply, addf_apply, mm64, bcastRow64]

/-- The new velocity at row `r`, coordinate `j`. -/
theorem velNew_apply (v0 : Vec Ideal S5000x64 .f32) (v1 : Vec Ideal S5000x9 .f32) (v9 : Vec Ideal S64x64 .f32)
    (v12 : Vec Ideal S1x64 .f32) (v18 : Vec Ideal S64x1 .f32) (v21 : Vec Ideal S1x1 .f32) (r : Fin 5000) (j : Fin 3) :
    k1_pay3 (F := Ideal) v0 v1 v9 v12 v18 v21 (ix2 r j)
      = v1 (ix2 r (⟨3 + j.val, by omega⟩ : Fin 9))
          * ((∑ k : Fin 64, T ((∑ k' : Fin 64, v0 (ix2 r k') * v9 (ix2 k' k)) + v12 (ix2 (0 : Fin 1) k))
                * v18 (ix2 k (0 : Fin 1)))
              + v21 (ix2 (0 : Fin 1) (0 : Fin 1)))
        + v1 (ix2 r (⟨6 + j.val, by omega⟩ : Fin 9)) := by
  unfold k1_pay3 k1_pay2
  simp only [shapeCast_self, truncf_apply, tanh_apply, addf_apply, mulf_apply, mm64, mm1, bcastRow64, bcastOne,
    bcastCol3, slice3 3 (by omega), slice3 6 (by omega)]

/-- The new position at row `r`, coordinate `j`. -/
theorem posNew_apply (v0 : Vec Ideal S5000x64 .f32) (v1 : Vec Ideal S5000x9 .f32) (v9 : Vec Ideal S64x64 .f32)
    (v12 : Vec Ideal S1x64 .f32) (v18 : Vec Ideal S64x1 .f32) (v21 : Vec Ideal S1x1 .f32) (r : Fin 5000) (j : Fin 3) :
    k1_pay4 (F := Ideal) v0 v1 v9 v12 v18 v21 (ix2 r j)
      = v1 (ix2 r (⟨0 + j.val, by omega⟩ : Fin 9)) + k1_pay3 (F := Ideal) v0 v1 v9 v12 v18 v21 (ix2 r j) := by
  unfold k1_pay4 k1_pay2
  simp only [shapeCast_self, addf_apply, slice3 0 (by omega)]

end Cert.KernelIdeal.NodeValue

end
-- ==== Proof.NodeBlock.lean ====
/-
  One block of the node stage computes the layer's node update. If row `r` of the node blocks holds a node's features
  `h`, its position `x`, velocity `v` and averaged gated differences `am` (the nine-number row), and its summed
  messages `mi`, and the nine weight blocks hold the weight matrices and bias rows of the layer's last two two-layer
  maps — the feature update's first matrix cut into its rows 0–63 and 64–127 —, then the body stores the new features
  at `(r, q)` of one block, and the new velocity and position at columns 0–2 and 3–5 of the other. The one law used is
  that a sum over the 128 concatenated entries is the sum of the two partial sums.
-/
import proofs.«169352_j52699248722544_2_alg».proof.Proof.NodePayload
import proofs.«169352_j52699248722544_2_alg».proof.Proof.LayerLaws

noncomputable section

open scoped BigOperators
open Idealize.ShloMosaic Idealize.ShloMosaic.ValueIdx MsgPass

namespace Cert.KernelIdeal.NodeValue

open Cert.KernelIdeal Cert.KernelIdeal.Gen

variable [hK : Cert.KernelIdeal.Facts]

section
variable (P : Weights)
variable (x0 x2 : Vec Ideal S5000x64 .f32) (x1 : Vec Ideal S5000x9 .f32) (x3 : Vec Ideal S64x64 .f32)
  (x4 : Vec Ideal S1x64 .f32) (x5 : Vec Ideal S64x1 .f32) (x6 : Vec Ideal S1x1 .f32) (x7 x8 : Vec Ideal S64x64 .f32)
  (x9 : Vec Ideal S1x64 .f32) (x10 : Vec Ideal S64x64 .f32) (x11 : Vec Ideal S1x64 .f32)
variable (h mi : Fin 64 → EReal) (x v am : Fin 3 → EReal) (r : Fin 5000)
variable (h0 : ∀ k : Fin 64, x0 (ix2 r k) = h k) (h2 : ∀ k : Fin 64, x2 (ix2 r k) = mi k)
  (h1x : ∀ j : Fin 3, x1 (ix2 r (⟨0 + j.val, by omega⟩ : Fin 9)) = x j)
  (h1v : ∀ j : Fin 3, x1 (ix2 r (⟨3 + j.val, by omega⟩ : Fin 9)) = v j)
  (h1a : ∀ j : Fin 3, x1 (ix2 r (⟨6 + j.val, by omega⟩ : Fin 9)) = am j)
  (h3 : ∀ (k c : Fin 64), x3 (ix2 k c) = P.wv1 k c) (h4 : ∀ c : Fin 64, x4 (ix2 (0 : Fin 1) c) = P.bv1 c)
  (h5 : ∀ k : Fin 64, x5 (ix2 k (0 : Fin 1)) = P.wv2 k 0) (h6 : x6 (ix2 (0 : Fin 1) (0 : Fin 1)) = P.bv2 0)
  (h7 : ∀ (k c : Fin 64), x7 (ix2 k c) = P.wh1 ⟨k.val, by omega⟩ c)
  (h8 : ∀ (k c : Fin 64), x8 (ix2 k c) = P.wh1 ⟨64 + k.val, by omega⟩ c)
  (h9 : ∀ c : Fin 64, x9 (ix2 (0 : Fin 1) c) = P.bh1 c)
  (h10 : ∀ (k c : Fin 64), x10 (ix2 k c) = P.wh2 k c) (h11 : ∀ c : Fin 64, x11 (ix2 (0 : Fin 1) c) = P.bh2 c)

include h0 h2 h7 h8 h9 h10 h11 in
/-- The new-features block at `(r, q)`. -/
theorem feat_of_blocks (q : Fin 64) :
    k1_pay1 (F := Ideal) (k1_pay5 (F := Ideal) x0 x7) (k1_pay6 (F := Ideal) x2) (k1_pay7 (F := Ideal) x8) x9 x10 x11 (ix2 r q)
      = mlp (cat2 h mi) P.wh1 P.bh1 P.wh2 P.bh2 q := by
  rw [featNew_apply]
  simp only [featProd_apply, pass6, pass7, h0, h2, h7, h8, h9, h10, h11]
  unfold mlp
  simp only [aff_cat2]
  rfl

include h0 h1v h1a h3 h4 h5 h6 in
/-- The new-velocity columns at `(r, j)`. -/
theorem vel_of_blocks (j : Fin 3) :
    k1_pay3 (F := Ideal) x0 x1 x3 x4 x5 x6 (ix2 r j) = v j * vgate P h + am j := by
  rw [velNew_apply]
  simp only [h0, h1v, h1a, h3, h4, h5, h6]
  rfl

include h0 h1x h1v h1a h3 h4 h5 h6 in
/-- The new-position columns at `(r, j)`. -/
theorem pos_of_blocks (j : Fin 3) :
    k1_pay4 (F := Ideal) x0 x1 x3 x4 x5 x6 (ix2 r j) = x j + (v j * vgate P h + am j) := by
  rw [posNew_apply, vel_of_blocks P x0 x1 x3 x4 x5 x6 h v am r h0 h1v h1a h3 h4 h5 h6, h1x]

end

end Cert.KernelIdeal.NodeValue

end
-- ==== Proof.NodeArrays.lean ====
/-
  What the node stage leaves in its two output arrays. Point `t` of the 20 handles nodes `5000 t … 5000 t + 4999`: its
  blocks of the three node arrays are those rows, its blocks of the nine weight arrays are the whole arrays, and it writes
  back rows `5000 t …` of the new-feature array and of the six-column array whose columns 0–2 are the new velocity and
  3–5 the new position. Every node is covered, so the two arrays end holding each node's update as the layer defines it
  from the node's data as the stage finds it.
-/
import proofs.«169352_j52699248722544_2_alg».proof.Proof.StageData
import proofs.«169352_j52699248722544_2_alg».proof.Proof.NodeBlock
import proofs.«169352_j52699248722544_2_alg».proof.Proof.Arrays
import Idealize.ShloMosaic.Lib.Pipeline.Value

set_option maxRecDepth 16384

noncomputable section

open scoped BigOperators
open Idealize.ShloMosaic Idealize.ShloMosaic.TcCoe Idealize.SL.Sem Idealize.ShloMosaic.ValueIdx MsgPass

namespace Cert.KernelIdeal.NodeValue

open Cert.KernelIdeal Cert.KernelIdeal.Gen Cert.KernelIdeal.Stage

variable (V : (c : Dev nD) → (b : Ref sig .tc) → Buf (Elt Ideal) ((c : Thread nD τ).loc b)) (c : Dev nD) (P : Weights)

theorem hz : (![0, 0] : Fin 2 → Nat) = fun _ => 0 := funext fun a => by fin_cases a <;> rfl

/-! ## A node's data as the stage finds it -/

def hAt (n : Fin 100000) (k : Fin 64) : EReal := (V c main_arg0 : S100000x64.Idx → EReal) (ix2 n k)
def geoAt (n : Fin 100000) (k : Fin 9) : EReal := (V c main_v62 : S100000x9.Idx → EReal) (ix2 n k)
def miAt (n : Fin 100000) (k : Fin 64) : EReal := (V c main_v53 : S100000x64.Idx → EReal) (ix2 n k)

/-- The weight arrays the stage finds hold the layer's last two two-layer maps. -/
structure NodeWeights : Prop where
  wv1 : ∀ k q : Fin 64, (V c main_arg16 : S64x64.Idx → EReal) (ix2 k q) = P.wv1 k q
  bv1 : ∀ q : Fin 64, (V c main_v63 : S1x64.Idx → EReal) (ix2 (0 : Fin 1) q) = P.bv1 q
  wv2 : ∀ k : Fin 64, (V c main_arg18 : S64x1.Idx → EReal) (ix2 k (0 : Fin 1)) = P.wv2 k 0
  bv2 : (V c main_v64 : S1x1.Idx → EReal) (ix2 (0 : Fin 1) (0 : Fin 1)) = P.bv2 0
  wh1a : ∀ k q : Fin 64, (V c main_v60 : S64x64.Idx → EReal) (ix2 k q) = P.wh1 ⟨k.val, by omega⟩ q
  wh1b : ∀ k q : Fin 64, (V c main_v61 : S64x64.Idx → EReal) (ix2 k q) = P.wh1 ⟨64 + k.val, by omega⟩ q
  bh1 : ∀ q : Fin 64, (V c main_v65 : S1x64.Idx → EReal) (ix2 (0 : Fin 1) q) = P.bh1 q
  wh2 : ∀ k q : Fin 64, (V c main_arg14 : S64x64.Idx → EReal) (ix2 k q) = P.wh2 k q
  bh2 : ∀ q : Fin 64, (V c main_v66 : S1x64.Idx → EReal) (ix2 (0 : Fin 1) q) = P.bh2 q

/-- A node's new velocity and position from its nine-number row. -/
def velAt (n : Fin 100000) (j : Fin 3) : EReal :=
  geoAt V c n ⟨3 + j.val, by omega⟩ * vgate P (hAt V c n) + geoAt V c n ⟨6 + j.val, by omega⟩
def posAt (n : Fin 100000) (j : Fin 3) : EReal := geoAt V c n ⟨0 + j.val, by omega⟩ + velAt V c P n j

/-- Each node's new features, as one function of the feature array's index. -/
def featArr : S100000x64.Idx → EReal := fun i =>
  mlp (cat2 (hAt V c ⟨(i 0).val, (i 0).isLt⟩) (miAt V c ⟨(i 0).val, (i 0).isLt⟩)) P.wh1 P.bh1 P.wh2 P.bh2 ⟨(i 1).val, (i 1).isLt⟩

/-- Each node's new velocity (columns 0–2) and position (columns 3–5), as one function of the six-column array's index. -/
def geoArr : S100000x6.Idx → EReal := fun i =>
  if h : (i 1).val < 3 then velAt V c P ⟨(i 0).val, (i 0).isLt⟩ ⟨(i 1).val, h⟩
  else posAt V c P ⟨(i 0).val, (i 0).isLt⟩ ⟨(i 1).val - 3, by have h6 : (i 1).val < 6 := (i 1).isLt; omega⟩

/-! ## The blocks of a point -/

theorem n20 : cfg1.N = 20 := N_1

/-- Row `r` of point `t` is node `5000 t + r`. -/
def nrow (t : Fin cfg1.N) (r : Fin 5000) : Fin 100000 :=
  ⟨t.val * 5000 + r.val, by have h1 : t.val < 20 := lt_of_lt_of_eq t.isLt n20; have := r.isLt; omega⟩

/-- The printed index maps over the 20 points: the three node windows and the two output windows are at block row `t`,
    column block 0; the weight windows at block (0, 0). -/
theorem nidx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = t.val ∧ win1_12.index t (1 : Fin 2) = 0)
    ∧ (win1_13.index t (0 : Fin 2) = t.val ∧ win1_13.index t (1 : Fin 2) = 0) :=
  (by decide +kernel : ∀ t : Fin grid1.N, _)

theorem nblk0_apply (t : Fin cfg1.N) (r : Fin 5000) (k : Fin 64) :
    iblk1 V c 0 t (ix2 r k) = (V c main_arg0 : S100000x64.Idx → EReal) (ix2 (nrow t r) k) := by
  have e := (nidx_facts t).1
  show (V c main_arg0 : S100000x64.Idx → EReal) (((cfg1.win 0).blk t).view.emb (ix2 r k)) = (V c main_arg0 : S100000x64.Idx → EReal) (ix2 (nrow t r) k)
  refine congrArg (V c main_arg0 : S100000x64.Idx → EReal) (funext fun a => Fin.ext ?_)
  match a with
  | ⟨0, _⟩ => show win1_0.index t (0 : Fin 2) * 5000 + 1 * r.val = t.val * 5000 + r.val; have := e.1; omega
  | ⟨1, _⟩ => show win1_0.index t (1 : Fin 2) * 64 + 1 * k.val = k.val; have := e.2; omega

theorem nblk1_apply (t : Fin cfg1.N) (r : Fin 5000) (k : Fin 9) :
    iblk1 V c 1 t (ix2 r k) = (V c main_v62 : S100000x9.Idx → EReal) (ix2 (nrow t r) k) := by
  have e := (nidx_facts t).2.1
  show (V c main_v62 : S100000x9.Idx → EReal) (((cfg1.win 1).blk t).view.emb (ix2 r k)) = (V c main_v62 : S100000x9.Idx → EReal) (ix2 (nrow t r) k)
  refine congrArg (V c main_v62 : S100000x9.Idx → EReal) (funext fun a => Fin.ext ?_)
  match a with
  | ⟨0, _⟩ => show win1_1.index t (0 : Fin 2) * 5000 + 1 * r.val = t.val * 5000 + r.val; have := e.1; omega
  | ⟨1, _⟩ => show win1_1.index t (1 : Fin 2) * 9 + 1 * k.val = k.val; have := e.2; omega

theorem nblk2_apply (t : Fin cfg1.N) (r : Fin 5000) (k : Fin 64) :
    iblk1 V c 2 t (ix2 r k) = (V c main_v53 : S100000x64.Idx → EReal) (ix2 (nrow t r) k) := by
  have e := (nidx_facts t).2.2.1
  show (V c main_v53 : S100000x64.Idx → EReal) (((cfg1.win 2).blk t).view.emb (ix2 r k)) = (V c main_v53 : S100000x64.Idx → EReal) (ix2 (nrow t r) k)
  refine congrArg (V c main_v53 : S100000x64.Idx → EReal) (funext fun a => Fin.ext ?_)
  match a with
  | ⟨0, _⟩ => show win1_2.index t (0 : Fin 2) * 5000 + 1 * r.val = t.val * 5000 + r.val; have := e.1; omega
  | ⟨1, _⟩ => show win1_2.index t (1 : Fin 2) * 64 + 1 * k.val = k.val; have := e.2; omega

/-! ## The weight blocks are the whole weight arrays -/

theorem nblk3_apply (t : Fin cfg1.N) (p : Fin 64) (q : Fin 64) :
    iblk1 V c 3 t (ix2 p q) = (V c main_arg16 : S64x64.Idx → EReal) (ix2 p q) := by
  have e := (nidx_facts t).2.2.2.1
  show (V c main_arg16 : S64x64.Idx → EReal) (((cfg1.win 3).blk t).view.emb (ix2 p q)) = (V c main_arg16 : S64x64.Idx → EReal) (ix2 p q)
  refine congrArg (V c main_arg16 : S64x64.Idx → EReal) (funext fun a => Fin.ext ?_)
  match a with
  | ⟨0, _⟩ => show win1_3.index t (0 : Fin 2) * 64 + 1 * p.val = p.val; have := e.1; omega
  | ⟨1, _⟩ => show win1_3.index t (1 : Fin 2) * 64 + 1 * q.val = q.val; have := e.2; omega

theorem nblk4_apply (t : Fin cfg1.N) (p : Fin 1) (q : Fin 64) :
    iblk1 V c 4 t (ix2 p q) = (V c main_v63 : S1x64.Idx → EReal) (ix2 p q) := by
  have e := (nidx_facts t).2.2.2.2.1
  show (V c main_v63 : S1x64.Idx → EReal) (((cfg1.win 4).blk t).view.emb (ix2 p q)) = (V c main_v63 : S1x64.Idx → EReal) (ix2 p q)
  refine congrArg (V c main_v63 : S1x64.Idx → EReal) (funext fun a => Fin.ext ?_)
  match a with
  | ⟨0, _⟩ => show win1_4.index t (0 : Fin 2) * 1 + 1 * p.val = p.val; have := e.1; omega
  | ⟨1, _⟩ => show win1_4.index t (1 : Fin 2) * 64 + 1 * q.val = q.val; have := e.2; omega

theorem nblk5_apply (t : Fin cfg1.N) (p : Fin 64) (q : Fin 1) :
    iblk1 V c 5 t (ix2 p q) = (V c main_arg18 : S64x1.Idx → EReal) (ix2 p q) := by
  have e := (nidx_facts t).2.2.2.2.2.1
  show (V c main_arg18 : S64x1.Idx → EReal) (((cfg1.win 5).blk t).view.emb (ix2 p q)) = (V c main_arg18 : S64x1.Idx → EReal) (ix2 p q)
  refine congrArg (V c main_arg18 : S64x1.Idx → EReal) (funext fun a => Fin.ext ?_)
  match a with
  | ⟨0, _⟩ => show win1_5.index t (0 : Fin 2) * 64 + 1 * p.val = p.val; have := e.1; omega
  | ⟨1, _⟩ => show win1_5.index t (1 : Fin 2) * 1 + 1 * q.val = q.val; have := e.2; omega

theorem nblk6_apply (t : Fin cfg1.N) (p : Fin 1) (q : Fin 1) :
    iblk1 V c 6 t (ix2 p q) = (V c main_v64 : S1x1.Idx → EReal) (ix2 p q) := by
  have e := (nidx_facts t).2.2.2.2.2.2.1
  show (V c main_v64 : S1x1.Idx → EReal) (((cfg1.win 6).blk t).view.emb (ix2 p q)) = (V c main_v64 : S1x1.Idx → EReal) (ix2 p q)
  refine congrArg (V c main_v64 : S1x1.Idx → EReal) (funext fun a => Fin.ext ?_)
  match a with
  | ⟨0, _⟩ => show win1_6.index t (0 : Fin 2) * 1 + 1 * p.val = p.val; have := e.1; omega
  | ⟨1, _⟩ => show win1_6.index t (1 : Fin 2) * 1 + 1 * q.val = q.val; have := e.2; omega

theorem nblk7_apply (t : Fin cfg1.N) (p : Fin 64) (q : Fin 64) :
    iblk1 V c 7 t (ix2 p q) = (V c main_v60 : S64x64.Idx → EReal) (ix2 p q) := by
  have e := (nidx_facts t).2.2.2.2.2.2.2.1
  show (V c main_v60 : S64x64.Idx → EReal) (((cfg1.win 7).blk t).view.emb (ix2 p q)) = (V c main_v60 : S64x64.Idx → EReal) (ix2 p q)
  refine congrArg (V c main_v60 : S64x64.Idx → EReal) (funext fun a => Fin.ext ?_)
  match a with
  | ⟨0, _⟩ => show win1_7.index t (0 : Fin 2) * 64 + 1 * p.val = p.val; have := e.1; omega
  | ⟨1, _⟩ => show win1_7.index t (1 : Fin 2) * 64 + 1 * q.val = q.val; have := e.2; omega

theorem nblk8_apply (t : Fin cfg1.N) (p : Fin 64) (q : Fin 64) :
    iblk1 V c 8 t (ix2 p q) = (V c main_v61 : S64x64.Idx → EReal) (ix2 p q) := by
  have e := (nidx_facts t).2.2.2.2.2.2.2.2.1
  show (V c main_v61 : S64x64.Idx → EReal) (((cfg1.win 8).blk t).view.emb (ix2 p q)) = (V c main_v61 : S64x64.Idx → EReal) (ix2 p q)
  refine congrArg (V c main_v61 : S64x64.Idx → EReal) (funext fun a => Fin.ext ?_)
  match a with
  | ⟨0, _⟩ => show win1_8.index t (0 : Fin 2) * 64 + 1 * p.val = p.val; have := e.1; omega
  | ⟨1, _⟩ => show win1_8.index t (1 : Fin 2) * 64 + 1 * q.val = q.val; have := e.2; omega

theorem nblk9_apply (t : Fin cfg1.N) (p : Fin 1) (q : Fin 64) :
    iblk1 V c 9 t (ix2 p q) = (V c main_v65 : S1x64.Idx → EReal) (ix2 p q) := by
  have e := (nidx_facts t).2.2.2.2.2.2.2.2.2.1
  show (V c main_v65 : S1x64.Idx → EReal) (((cfg1.win 9).blk t).view.emb (ix2 p q)) = (V c main_v65 : S1x64.Idx → EReal) (ix2 p q)
  refine congrArg (V c main_v65 : S1x64.Idx → EReal) (funext fun a => Fin.ext ?_)
  match a with
  | ⟨0, _⟩ => show win1_9.index t (0 : Fin 2) * 1 + 1 * p.val = p.val; have := e.1; omega
  | ⟨1, _⟩ => show win1_9.index t (1 : Fin 2) * 64 + 1 * q.val = q.val; have := e.2; omega

theorem nblk10_apply (t : Fin cfg1.N) (p : Fin 64) (q : Fin 64) :
    iblk1 V c 10 t (ix2 p q) = (V c main_arg14 : S64x64.Idx → EReal) (ix2 p q) := by
  have e := (nidx_facts t).2.2.2.2.2.2.2.2.2.2.1
  show (V c main_arg14 : S64x64.Idx → EReal) (((cfg1.win 10).blk t).view.emb (ix2 p q)) = (V c main_arg14 : S64x64.Idx → EReal) (ix2 p q)
  refine congrArg (V c main_arg14 : S64x64.Idx → EReal) (funext fun a => Fin.ext ?_)
  match a with
  | ⟨0, _⟩ => show win1_10.index t (0 : Fin 2) * 64 + 1 * p.val = p.val; have := e.1; omega
  | ⟨1, _⟩ => show win1_10.index t (1 : Fin 2) * 64 + 1 * q.val = q.val; have := e.2; omega

theorem nblk11_apply (t : Fin cfg1.N) (p : Fin 1) (q : Fin 64) :
    iblk1 V c 11 t (ix2 p q) = (V c main_v66 : S1x64.Idx → EReal) (ix2 p q) := by
  have e := (nidx_facts t).2.2.2.2.2.2.2.2.2.2.2.1
  show (V c main_v66 : S1x64.Idx → EReal) (((cfg1.win 11).blk t).view.emb (ix2 p q)) = (V c main_v66 : S1x64.Idx → EReal) (ix2 p q)
  refine congrArg (V c main_v66 : S1x64.Idx → EReal) (funext fun a => Fin.ext ?_)
  match a with
  | ⟨0, _⟩ => show win1_11.index t (0 : Fin 2) * 1 + 1 * p.val = p.val; have := e.1; omega
  | ⟨1, _⟩ => show win1_11.index t (1 : Fin 2) * 64 + 1 * q.val = q.val; have := e.2; omega

/-! ## The two column-rectangles of the six-column block -/

theorem embLo (r : Fin 5000) (j : Fin 3) : boxLo.emb (ix2 r j : S5000x3.Idx) = (ix2 r (⟨j.val, by omega⟩ : Fin 6) : S5000x6.Idx) :=
  funext fun a => Fin.ext (by
    match a with
    | ⟨0, _⟩ => show 0 + 1 * r.val = r.val; omega
    | ⟨1, _⟩ => show 0 + 1 * j.val = j.val; omega)

theorem embHi (r : Fin 5000) (j : Fin 3) : boxHi.emb (ix2 r j : S5000x3.Idx) = (ix2 r (⟨3 + j.val, by omega⟩ : Fin 6) : S5000x6.Idx) :=
  funext fun a => Fin.ext (by
    match a with
    | ⟨0, _⟩ => show 0 + 1 * r.val = r.val; omega
    | ⟨1, _⟩ => show 3 + 1 * j.val = 3 + j.val; omega)

theorem not_mem_hi (r : Fin 5000) (q : Fin 6) (hq : q.val < 3) : (ix2 r q : S5000x6.Idx) ∉ boxHi.set := by
  intro hmem
  rw [Rect.mem_set_unit] at hmem
  have h1 := (hmem (1 : Fin 2)).1
  have h2 : (3 : Nat) ≤ q.val := h1
  omega

/-- Two stores, columns 0–2 then 3–5, read back at `(r, q)`: the first store's value left of column 3, the second's from it. -/
theorem canon_two (w4 w3 : S5000x3.Idx → EReal) (r : Fin 5000) (q : Fin 6) :
    View.canon [(⟨boxHi, w4⟩ : View.Piece (Elt Ideal) S5000x6 .f32), ⟨boxLo, w3⟩] (ix2 r q : S5000x6.Idx)
      = if h : q.val < 3 then w3 (ix2 r (⟨q.val, h⟩ : Fin 3)) else w4 (ix2 r (⟨q.val - 3, by have := q.isLt; omega⟩ : Fin 3)) := by
  by_cases hq : q.val < 3
  · rw [dif_pos hq]
    have hnm : (ix2 r q : S5000x6.Idx) ∉ boxHi.set := not_mem_hi r q hq
    have hy : (ix2 r q : S5000x6.Idx) = boxLo.emb (ix2 r (⟨q.val, hq⟩ : Fin 3) : S5000x3.Idx) := (embLo r ⟨q.val, hq⟩).symm
    exact (View.canon_cons_of_not_mem (Val := Elt Ideal) (e := .f32) (⟨boxHi, w4⟩ : View.Piece (Elt Ideal) S5000x6 .f32) [⟨boxLo, w3⟩] hnm).trans
      ((congrArg (View.canon [(⟨boxLo, w3⟩ : View.Piece (Elt Ideal) S5000x6 .f32)]) hy).trans
        (View.canon_cons_emb (Val := Elt Ideal) (e := .f32) boxLo w3 [] (ix2 r (⟨q.val, hq⟩ : Fin 3))))
  · rw [dif_neg hq]
    have hq6 := q.isLt
    have hy : (ix2 r q : S5000x6.Idx) = boxHi.emb (ix2 r (⟨q.val - 3, by omega⟩ : Fin 3) : S5000x3.Idx) :=
      ((embHi r ⟨q.val - 3, by omega⟩).trans (congrArg (fun z : Fin 6 => (ix2 r z : S5000x6.Idx)) (Fin.ext (by show 3 + (q.val - 3) = q.val; omega)))).symm
    exact (congrArg (View.canon [(⟨boxHi, w4⟩ : View.Piece (Elt Ideal) S5000x6 .f32), ⟨boxLo, w3⟩]) hy).trans
      (View.canon_cons_emb (Val := Elt Ideal) (e := .f32) boxHi w4 [⟨boxLo, w3⟩] (ix2 r (⟨q.val - 3, by omega⟩ : Fin 3)))

/-! ## What a point writes back -/

section Flush
variable (hW : NodeWeights V c P)
include hW

/-- Point `t` writes back rows `5000 t …` of the new-feature array. -/
theorem flushed12 (t : Fin cfg1.N) :
    (dat1 V c).flushed 12 t = ((cfg1.win 12).blk t).view.read (Elt Ideal) (featArr V c P) := by
  show (cfg1.win 12).cut (grid1.coords t) ((dat1 V c).after 12 t) = _
  rw [after1_12]
  unfold out1_12
  rw [View.canon_unit_zero hz]
  simp only [View.ld_unit_zero (S := S5000x64) hz, View.ld_unit_zero (S := S64x64) hz, View.ld_unit_zero (S := S1x64) hz]
  funext j
  obtain ⟨r, q, rfl⟩ : ∃ (r : Fin 5000) (q : Fin 64), j = ix2 r q := ⟨j 0, j 1, eq_ix2 j⟩
  have e := (nidx_facts t).2.2.2.2.2.2.2.2.2.2.2.2.1
  have hemb : ((cfg1.win 12).blk t).view.emb (ix2 r q) = (ix2 (nrow t r) q : S100000x64.Idx) := funext fun a => Fin.ext (by
    match a with
    | ⟨0, _⟩ => show win1_12.index t (0 : Fin 2) * 5000 + 1 * r.val = t.val * 5000 + r.val; have := e.1; omega
    | ⟨1, _⟩ => show win1_12.index t (1 : Fin 2) * 64 + 1 * q.val = q.val; have := e.2; omega)
  show k1_pay1 (F := Ideal) (k1_pay5 (F := Ideal) (iblk1 V c 0 t) (iblk1 V c 7 t)) (k1_pay6 (F := Ideal) (iblk1 V c 2 t))
      (k1_pay7 (F := Ideal) (iblk1 V c 8 t)) (iblk1 V c 9 t) (iblk1 V c 10 t) (iblk1 V c 11 t) (ix2 r q)
    = featArr V c P (((cfg1.win 12).blk t).view.emb (ix2 r q))
  rw [hemb]
  exact feat_of_blocks P (iblk1 V c 0 t) (iblk1 V c 2 t) (iblk1 V c 7 t) (iblk1 V c 8 t) (iblk1 V c 9 t) (iblk1 V c 10 t)
    (iblk1 V c 11 t) (hAt V c (nrow t r)) (miAt V c (nrow t r)) r
    (fun k => nblk0_apply V c t r k) (fun k => nblk2_apply V c t r k)
    (fun k q => (nblk7_apply V c t k q).trans (hW.wh1a k q)) (fun k q => (nblk8_apply V c t k q).trans (hW.wh1b k q))
    (fun q => (nblk9_apply V c t 0 q).trans (hW.bh1 q)) (fun k q => (nblk10_apply V c t k q).trans (hW.wh2 k q))
    (fun q => (nblk11_apply V c t 0 q).trans (hW.bh2 q)) q

/-- Point `t` writes back rows `5000 t …` of the six-column array. -/
theorem flushed13 (t : Fin cfg1.N) :
    (dat1 V c).flushed 13 t = ((cfg1.win 13).blk t).view.read (Elt Ideal) (geoArr V c P) := by
  show (cfg1.win 13).cut (grid1.coords t) ((dat1 V c).after 13 t) = _
  rw [after1_13]
  unfold out1_13
  simp only [View.ld_unit_zero (S := S5000x64) hz, View.ld_unit_zero (S := S5000x9) hz, View.ld_unit_zero (S := S64x64) hz,
    View.ld_unit_zero (S := S1x64) hz, View.ld_unit_zero (S := S64x1) hz, View.ld_unit_zero (S := S1x1) hz]
  funext j
  obtain ⟨r, q, rfl⟩ : ∃ (r : Fin 5000) (q : Fin 6), j = ix2 r q := ⟨j 0, j 1, eq_ix2 j⟩
  have e := (nidx_facts t).2.2.2.2.2.2.2.2.2.2.2.2.2
  have hemb : ((cfg1.win 13).blk t).view.emb (ix2 r q) = (ix2 (nrow t r) q : S100000x6.Idx) := funext fun a => Fin.ext (by
    match a with
    | ⟨0, _⟩ => show win1_13.index t (0 : Fin 2) * 5000 + 1 * r.val = t.val * 5000 + r.val; have := e.1; omega
    | ⟨1, _⟩ => show win1_13.index t (1 : Fin 2) * 6 + 1 * q.val = q.val; have := e.2; omega)
  show View.canon [(⟨boxHi, k1_pay4 (F := Ideal) (iblk1 V c 0 t) (iblk1 V c 1 t) (iblk1 V c 3 t) (iblk1 V c 4 t) (iblk1 V c 5 t) (iblk1 V c 6 t)⟩ : View.Piece (Elt Ideal) S5000x6 .f32),
      ⟨boxLo, k1_pay3 (F := Ideal) (iblk1 V c 0 t) (iblk1 V c 1 t) (iblk1 V c 3 t) (iblk1 V c 4 t) (iblk1 V c 5 t) (iblk1 V c 6 t)⟩] (ix2 r q)
    = geoArr V c P (((cfg1.win 13).blk t).view.emb (ix2 r q))
  rw [hemb]
  have hvel : ∀ j3 : Fin 3, k1_pay3 (F := Ideal) (iblk1 V c 0 t) (iblk1 V c 1 t) (iblk1 V c 3 t) (iblk1 V c 4 t) (iblk1 V c 5 t) (iblk1 V c 6 t) (ix2 r j3)
      = velAt V c P (nrow t r) j3 := fun j3 =>
    vel_of_blocks P (iblk1 V c 0 t) (iblk1 V c 1 t) (iblk1 V c 3 t) (iblk1 V c 4 t) (iblk1 V c 5 t) (iblk1 V c 6 t)
      (hAt V c (nrow t r)) (fun j => geoAt V c (nrow t r) ⟨3 + j.val, by omega⟩) (fun j => geoAt V c (nrow t r) ⟨6 + j.val, by omega⟩) r
      (fun k => nblk0_apply V c t r k) (fun j => nblk1_apply V c t r ⟨3 + j.val, by omega⟩) (fun j => nblk1_apply V c t r ⟨6 + j.val, by omega⟩)
      (fun k q => (nblk3_apply V c t k q).trans (hW.wv1 k q)) (fun q => (nblk4_apply V c t 0 q).trans (hW.bv1 q))
      (fun k => (nblk5_apply V c t k 0).trans (hW.wv2 k)) ((nblk6_apply V c t 0 0).trans hW.bv2) j3
  have hpos : ∀ j3 : Fin 3, k1_pay4 (F := Ideal) (iblk1 V c 0 t) (iblk1 V c 1 t) (iblk1 V c 3 t) (iblk1 V c 4 t) (iblk1 V c 5 t) (iblk1 V c 6 t) (ix2 r j3)
      = posAt V c P (nrow t r) j3 := fun j3 =>
    pos_of_blocks P (iblk1 V c 0 t) (iblk1 V c 1 t) (iblk1 V c 3 t) (iblk1 V c 4 t) (iblk1 V c 5 t) (iblk1 V c 6 t)
      (hAt V c (nrow t r)) (fun j => geoAt V c (nrow t r) ⟨0 + j.val, by omega⟩) (fun j => geoAt V c (nrow t r) ⟨3 + j.val, by omega⟩)
      (fun j => geoAt V c (nrow t r) ⟨6 + j.val, by omega⟩) r
      (fun k => nblk0_apply V c t r k) (fun j => nblk1_apply V c t r ⟨0 + j.val, by omega⟩) (fun j => nblk1_apply V c t r ⟨3 + j.val, by omega⟩)
      (fun j => nblk1_apply V c t r ⟨6 + j.val, by omega⟩)
      (fun k q => (nblk3_apply V c t k q).trans (hW.wv1 k q)) (fun q => (nblk4_apply V c t 0 q).trans (hW.bv1 q))
      (fun k => (nblk5_apply V c t k 0).trans (hW.wv2 k)) ((nblk6_apply V c t 0 0).trans hW.bv2) j3
  rw [canon_two]
  unfold geoArr
  by_cases hq : q.val < 3
  · rw [dif_pos hq, dif_pos (show ((ix2 (nrow t r) q : S100000x6.Idx) 1).val < 3 from hq)]
    exact hvel _
  · rw [dif_neg hq, dif_neg (show ¬ ((ix2 (nrow t r) q : S100000x6.Idx) 1).val < 3 from hq)]
    exact hpos _

end Flush

/-! ## Every node is in some point's block -/

theorem mem_blk12 (t : Fin cfg1.N) (i : S100000x64.Idx) :
    i ∈ ((cfg1.win 12).blk t).view.set ↔ ∀ a : Fin 2, win1_12.index t a * S5000x64.size a ≤ (i a).val
      ∧ (i a).val < win1_12.index t a * S5000x64.size a + S5000x64.size a := by
  show i ∈ ((View.whole main_v67_0).slice (win1_12.rect t)).set ↔ _
  rw [View.set_slice_whole, Rect.mem_set_unit]
  exact Iff.rfl

theorem mem_blk13 (t : Fin cfg1.N) (i : S100000x6.Idx) :
    i ∈ ((cfg1.win 13).blk t).view.set ↔ ∀ a : Fin 2, win1_13.index t a * S5000x6.size a ≤ (i a).val
      ∧ (i a).val < win1_13.index t a * S5000x6.size a + S5000x6.size a := by
  show i ∈ ((View.whole main_v67_1).slice (win1_13.rect t)).set ↔ _
  rw [View.set_slice_whole, Rect.mem_set_unit]
  exact Iff.rfl

theorem cover12 (i : S100000x64.Idx) :
    ∃ t : Fin cfg1.N, (cfg1.win 12).flush t = true ∧ i ∈ ((cfg1.win 12).blk t).view.set := by
  have hi0 : (i 0).val < 100000 := (i 0).isLt
  have hi1 : (i 1).val < 64 := (i 1).isLt
  have ht : (i 0).val / 5000 < cfg1.N := lt_of_lt_of_eq (by omega : (i 0).val / 5000 < 20) n20.symm
  have e := (nidx_facts ⟨(i 0).val / 5000, ht⟩).2.2.2.2.2.2.2.2.2.2.2.2.1
  refine ⟨⟨(i 0).val / 5000, ht⟩, flush1_12 _, ?_⟩
  rw [mem_blk12]
  intro a
  match a with
  | ⟨0, _⟩ =>
    show win1_12.index ⟨(i 0).val / 5000, ht⟩ (0 : Fin 2) * 5000 ≤ (i 0).val
      ∧ (i 0).val < win1_12.index ⟨(i 0).val / 5000, ht⟩ (0 : Fin 2) * 5000 + 5000
    have e1 : win1_12.index ⟨(i 0).val / 5000, ht⟩ (0 : Fin 2) = (i 0).val / 5000 := e.1
    omega
  | ⟨1, _⟩ =>
    show win1_12.index ⟨(i 0).val / 5000, ht⟩ (1 : Fin 2) * 64 ≤ (i 1).val
      ∧ (i 1).val < win1_12.index ⟨(i 0).val / 5000, ht⟩ (1 : Fin 2) * 64 + 64
    have e2 := e.2
    omega

theorem cover13 (i : S100000x6.Idx) :
    ∃ t : Fin cfg1.N, (cfg1.win 13).flush t = true ∧ i ∈ ((cfg1.win 13).blk t).view.set := by
  have hi0 : (i 0).val < 100000 := (i 0).isLt
  have hi1 : (i 1).val < 6 := (i 1).isLt
  have ht : (i 0).val / 5000 < cfg1.N := lt_of_lt_of_eq (by omega : (i 0).val / 5000 < 20) n20.symm
  have e := (nidx_facts ⟨(i 0).val / 5000, ht⟩).2.2.2.2.2.2.2.2.2.2.2.2.2
  refine ⟨⟨(i 0).val / 5000, ht⟩, flush1_13 _, ?_⟩
  rw [mem_blk13]
  intro a
  match a with
  | ⟨0, _⟩ =>
    show win1_13.index ⟨(i 0).val / 5000, ht⟩ (0 : Fin 2) * 5000 ≤ (i 0).val
      ∧ (i 0).val < win1_13.index ⟨(i 0).val / 5000, ht⟩ (0 : Fin 2) * 5000 + 5000
    have e1 : win1_13.index ⟨(i 0).val / 5000, ht⟩ (0 : Fin 2) = (i 0).val / 5000 := e.1
    omega
  | ⟨1, _⟩ =>
    show win1_13.index ⟨(i 0).val / 5000, ht⟩ (1 : Fin 2) * 6 ≤ (i 1).val
      ∧ (i 1).val < win1_13.index ⟨(i 0).val / 5000, ht⟩ (1 : Fin 2) * 6 + 6
    have e2 := e.2
    omega

/-! ## The two arrays after the stage -/

/-- The new-feature array ends holding every node's new features. -/
theorem final12 (hW : NodeWeights V c P) : (dat1 V c).arrAt 12 cfg1.N = featArr V c P :=
  (dat1 V c).arrAt_eq_of_cover 12 (featArr V c P) (fun t _ => flushed12 V c P hW t) (cover12)

/-- The six-column array ends holding every node's new velocity and position. -/
theorem final13 (hW : NodeWeights V c P) : (dat1 V c).arrAt 13 cfg1.N = geoArr V c P :=
  (dat1 V c).arrAt_eq_of_cover 13 (geoArr V c P) (fun t _ => flushed13 V c P hW t) (cover13)

end Cert.KernelIdeal.NodeValue

end
-- ==== Proof.LibScatterRows.lean ====
/-
  A scatter-add of rows. The operand has shape [N, C]; the scatter indices are a column [E, 1] of integers, one
  per update row; the updates have shape [E, C]. Update row `e` is added, entry by entry, to the operand row whose
  number is the index at `(e, 0)` read as a signed integer; a row whose index is negative or not below `N` is
  dropped. So the result at `(n, c)` is the operand there plus the sum, over the update rows `e` whose index is
  `n`, of the update at `(e, c)`. Stated for any `N`, `E`, `C` and any index width.
-/
import Idealize.ShloMosaic.PureOps.Ideal
import Idealize.ShloMosaic.Lib.ValueIdx

noncomputable section

open scoped BigOperators
open Idealize.ShloMosaic Idealize.ShloMosaic.ValueIdx

namespace ScatterRows

variable {N E C : Nat}

/-- The dimension numbers of a row scatter: the updates' axis 1 is the window, the operand's axis 0 is the one the
    index names, and the index vector lies along axis 1 of the index column. -/
abbrev rowDims (h : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := h }

variable (h : ScatterDims.WF ⟨2, ![N, C]⟩ ⟨2, ![E, 1]⟩ ⟨2, ![E, C]⟩ [1] [0] [0] 1) {w : Nat}
  (idx : IVec ⟨2, ![E, 1]⟩ w) (e : Fin E) (c : Fin C)

/-- The update at `(e, c)` reads its start index at `(e, 0)` of the index column. -/
theorem siIdx_row (k : Fin (rowDims h).scatterDimsToOperandDims.length) : (rowDims h).siIdx (ix2 e c) k = ix2 e 0 := by
  funext b
  match b with
  | ⟨0, _⟩ =>
    unfold ScatterDims.siIdx
    rw [dif_neg (fun hh => absurd hh Nat.zero_ne_one)]
    rfl
  | ⟨1, _⟩ =>
    unfold ScatterDims.siIdx
    rw [dif_pos rfl]
    apply Fin.ext
    have hk : k.val < 1 := k.isLt
    show k.val = 0
    omega

/-- On the row axis the window starts at the index, read signed. -/
theorem start_row : (rowDims h).start (ix2 e c) idx 0 = (idx (ix2 e 0)).toInt := by
  unfold ScatterDims.start
  rw [dif_pos (show (0 : Fin 2) ∈ [0] from List.mem_singleton.2 rfl), siIdx_row]

/-- On the column axis the window starts at zero. -/
theorem start_col : (rowDims h).start (ix2 e c) idx 1 = 0 := by
  unfold ScatterDims.start
  exact dif_neg (fun hh => absurd (congrArg Fin.val (List.mem_singleton.1 hh)) Nat.one_ne_zero)

/-- The window has no extent along the row axis. -/
theorem window_row : (rowDims h).window (ix2 e c) 0 = 0 := by
  have hsK : (rowDims h).sKept = [1] := rfl
  unfold ScatterDims.window
  exact dif_neg (fun hh => by
    rw [hsK] at hh; exact absurd (congrArg Fin.val (List.mem_singleton.1 hh)) Nat.zero_ne_one)

/-- Along the column axis the window coordinate is the update's column. -/
theorem window_col : (rowDims h).window (ix2 e c) 1 = c.val := by
  unfold ScatterDims.window
  rw [dif_pos (show (1 : Fin 2) ∈ (rowDims h).sKept from List.mem_singleton.2 rfl)]
  rfl

/-- **Where an update lands**: the update at `(e, c)` lands at `(n, c')` exactly when the index of row `e`, read
    signed, is `n`, and the columns agree. -/
theorem resultIdx?_rows (n : Fin N) (c' : Fin C) :
    (rowDims h).resultIdx? (ix2 e c) idx = some (ix2 n c') ↔ (idx (ix2 e 0)).toInt = (n.val : Int) ∧ c' = c := by
  unfold ScatterDims.resultIdx?
  constructor
  · intro hr
    split at hr
    · next hb =>
      have hf := Option.some.inj hr
      have h0 : ((rowDims h).start (ix2 e c) idx 0 + ((rowDims h).window (ix2 e c) 0 : Nat)).toNat = n.val :=
        congrArg (fun f => (f 0).val) hf
      have h1 : ((rowDims h).start (ix2 e c) idx 1 + ((rowDims h).window (ix2 e c) 1 : Nat)).toNat = c'.val :=
        congrArg (fun f => (f 1).val) hf
      have b0 := (hb 0).1
      rw [start_row, window_row] at h0 b0
      rw [start_col, window_col] at h1
      exact ⟨by omega, Fin.ext (by omega)⟩
    · cases hr
  · rintro ⟨hv, rfl⟩
    have hb : ∀ a : Fin (⟨2, ![N, C]⟩ : Shape).rank,
        0 ≤ (rowDims h).start (ix2 e c') idx a + ((rowDims h).window (ix2 e c') a : Nat) ∧
          (rowDims h).start (ix2 e c') idx a + ((rowDims h).window (ix2 e c') a : Nat)
            < (((⟨2, ![N, C]⟩ : Shape).size a : Nat) : Int) := fun a => by
      match a with
      | ⟨0, _⟩ =>
        show 0 ≤ (rowDims h).start (ix2 e c') idx 0 + ((rowDims h).window (ix2 e c') 0 : Nat) ∧
          (rowDims h).start (ix2 e c') idx 0 + ((rowDims h).window (ix2 e c') 0 : Nat) < ((N : Nat) : Int)
        rw [start_row, window_row, hv]
        have := n.isLt
        omega
      | ⟨1, _⟩ =>
        show 0 ≤ (rowDims h).start (ix2 e c') idx 1 + ((rowDims h).window (ix2 e c') 1 : Nat) ∧
          (rowDims h).start (ix2 e c') idx 1 + ((rowDims h).window (ix2 e c') 1 : Nat) < ((C : Nat) : Int)
        rw [start_col, window_col]
        have := c'.isLt
        omega
    rw [dif_pos hb]
    refine congrArg some (funext fun a => Fin.ext ?_)
    match a with
    | ⟨0, _⟩ =>
      show ((rowDims h).start (ix2 e c') idx 0 + ((rowDims h).window (ix2 e c') 0 : Nat)).toNat = n.val
      rw [start_row, window_row, hv]
      omega
    | ⟨1, _⟩ =>
      show ((rowDims h).start (ix2 e c') idx 1 + ((rowDims h).window (ix2 e c') 1 : Nat)).toNat = c'.val
      rw [start_col, window_col]
      omega

/-- **A row scatter-add read at an index**: the operand at `(n, c)` plus the sum, over the update rows whose index
    is `n`, of the update at `(e, c)`. -/
theorem hostScatterAdd_rows (x : (⟨2, ![N, C]⟩ : Shape).Idx → EReal) (upd : (⟨2, ![E, C]⟩ : Shape).Idx → EReal)
    (n : Fin N) (c : Fin C) :
    Ideal.hostScatterAdd (rowDims h) x idx upd (ix2 n c)
      = x (ix2 n c)
        + ∑ e ∈ Finset.univ.filter (fun e : Fin E => (idx (ix2 e 0)).toInt = (n.val : Int)), upd (ix2 e c) := by
  unfold Ideal.hostScatterAdd
  refine congrArg (x (ix2 n c) + ·) ?_
  rw [Finset.sum_filter, sum_idx2, Finset.sum_filter]
  refine Finset.sum_congr rfl fun e _ => ?_
  simp only [resultIdx?_rows]
  by_cases hv : (idx (ix2 e 0)).toInt = (n.val : Int)
  · simp only [hv, true_and, if_true]
    rw [Finset.sum_ite_eq]
    exact if_pos (Finset.mem_univ c)
  · simp only [hv, false_and, if_false]
    exact Finset.sum_const_zero

end ScatterRows

end
-- ==== Proof.LibConcat3.lean ====
/-
  Three arrays laid side by side along the columns, read at an entry: for two-axis arrays of `A` rows and `b1`, `b2`,
  `b3` columns, the concatenation along axis 1 has at `(p, k)`, `(p, b1 + k)` and `(p, b1 + b2 + k)` the first, second
  and third array's entry `(p, k)`; for any sizes.
-/
import Idealize.ShloMosaic.Lib.Pipeline.Value
import Idealize.ShloMosaic.Lib.ValueIdx

noncomputable section

open Idealize.ShloMosaic Idealize.ShloMosaic.ValueIdx

namespace Concat3

variable {α : Type} {A b1 b2 b3 B : Nat}
variable (h : Shape.Concatenates [(⟨2, ![A, b1]⟩ : Shape), ⟨2, ![A, b2]⟩, ⟨2, ![A, b3]⟩] ⟨2, ![A, B]⟩ 1)
variable (x1 : (⟨2, ![A, b1]⟩ : Shape).Idx → α) (x2 : (⟨2, ![A, b2]⟩ : Shape).Idx → α) (x3 : (⟨2, ![A, b3]⟩ : Shape).Idx → α)

/-- An entry in the first piece's columns. -/
theorem first (p : Fin A) (k : Fin b1) (hk : k.val < B) :
    concatenate ⟨2, ![A, B]⟩ 1 [⟨⟨2, ![A, b1]⟩, x1⟩, ⟨⟨2, ![A, b2]⟩, x2⟩, ⟨⟨2, ![A, b3]⟩, x3⟩] h (ix2 p (⟨k.val, hk⟩ : Fin B))
      = x1 (ix2 p k) :=
  concatenate_apply_piece (t := ⟨2, ![A, B]⟩) 1 [⟨⟨2, ![A, b1]⟩, x1⟩, ⟨⟨2, ![A, b2]⟩, x2⟩, ⟨⟨2, ![A, b3]⟩, x3⟩] h (ix2 p (⟨k.val, hk⟩ : Fin B)) 0 (show 0 < 3 by omega) ⟨2, ![A, b1]⟩ x1 rfl rfl 0 rfl (ix2 p k)
    (fun b hb => by
      match b with
      | ⟨0, _⟩ => rfl
      | ⟨1, _⟩ => exact absurd rfl hb)
    (Nat.zero_add _)

/-- An entry in the second piece's columns. -/
theorem second (p : Fin A) (k : Fin b2) (hk : b1 + k.val < B) :
    concatenate ⟨2, ![A, B]⟩ 1 [⟨⟨2, ![A, b1]⟩, x1⟩, ⟨⟨2, ![A, b2]⟩, x2⟩, ⟨⟨2, ![A, b3]⟩, x3⟩] h (ix2 p (⟨b1 + k.val, hk⟩ : Fin B))
      = x2 (ix2 p k) :=
  concatenate_apply_piece (t := ⟨2, ![A, B]⟩) 1 [⟨⟨2, ![A, b1]⟩, x1⟩, ⟨⟨2, ![A, b2]⟩, x2⟩, ⟨⟨2, ![A, b3]⟩, x3⟩] h (ix2 p (⟨b1 + k.val, hk⟩ : Fin B)) 1 (show 1 < 3 by omega) ⟨2, ![A, b2]⟩ x2 rfl rfl b1
    (by simp) (ix2 p k)
    (fun b hb => by
      match b with
      | ⟨0, _⟩ => rfl
      | ⟨1, _⟩ => exact absurd rfl hb)
    rfl

/-- An entry in the third piece's columns. -/
theorem third (p : Fin A) (k : Fin b3) (hk : b1 + b2 + k.val < B) :
    concatenate ⟨2, ![A, B]⟩ 1 [⟨⟨2, ![A, b1]⟩, x1⟩, ⟨⟨2, ![A, b2]⟩, x2⟩, ⟨⟨2, ![A, b3]⟩, x3⟩] h (ix2 p (⟨b1 + b2 + k.val, hk⟩ : Fin B))
      = x3 (ix2 p k) :=
  concatenate_apply_piece (t := ⟨2, ![A, B]⟩) 1 [⟨⟨2, ![A, b1]⟩, x1⟩, ⟨⟨2, ![A, b2]⟩, x2⟩, ⟨⟨2, ![A, b3]⟩, x3⟩] h (ix2 p (⟨b1 + b2 + k.val, hk⟩ : Fin B)) 2 (show 2 < 3 by omega) ⟨2, ![A, b3]⟩ x3 rfl rfl (b1 + b2)
    (by simp) (ix2 p k)
    (fun b hb => by
      match b with
      | ⟨0, _⟩ => rfl
      | ⟨1, _⟩ => exact absurd rfl hb)
    rfl

end Concat3

end
-- ==== Proof.HostNode.lean ====
/-
  What the node stage is entered from. After the edge stage the message and gate arrays hold every edge's message and
  gate; the host operations between the stages cut the feature update's first weight matrix into its two halves and view
  four bias vectors as one-row matrices; they scatter-add the 68 columns `message | gated difference | one` of every
  edge into its source node's row, so a node's row holds its summed messages, its summed gated differences and its
  number of edges; and they put a node's position, velocity and averaged gated differences side by side.
-/
import proofs.«169352_j52699248722544_2_alg».proof.Proof.HostEdge
import proofs.«169352_j52699248722544_2_alg».proof.Proof.NodeArrays
import proofs.«169352_j52699248722544_2_alg».proof.Proof.LibScatterRows
import proofs.«169352_j52699248722544_2_alg».proof.Proof.LibConcat3

set_option maxRecDepth 16384

noncomputable section

open scoped BigOperators
open Idealize.ShloMosaic Idealize.ShloMosaic.TcCoe Idealize.SL.Sem Idealize.ShloMosaic.StableHlo Idealize.ShloMosaic.ValueIdx MsgPass

namespace Cert.KernelIdeal.HostValue

open Cert.KernelIdeal Cert.KernelIdeal.Gen Cert.KernelIdeal.Stage Cert.KernelIdeal.EdgeValue Cert.KernelIdeal.NodeValue

variable (m : (ℓ : Loc nD τ sig) → Buf (Elt Ideal) ℓ) (ρ : Dev nD → PrngReg) (c : Dev nD)

/-! ## After the edge stage -/

/-- The message array after the edge stage. -/
theorem W2_msg : W2 m ρ c (Proc.devRef .tc main_v45_0) = msgArr (V1 m ρ) c (PW m c) :=
  (W2_arr m ρ c 14).trans (final14 (V1 m ρ) c (PW m c) (edgeWeights m ρ c))

/-- The gate array after the edge stage. -/
theorem W2_gate : W2 m ρ c (Proc.devRef .tc main_v45_1) = gateArr (V1 m ρ) c (PW m c) :=
  (W2_arr m ρ c 15).trans (final15 (V1 m ρ) c (PW m c) (edgeWeights m ρ c))

/-- A buffer that is no array of the edge stage, or one the launch wrote and no host operation writes, is as launched. -/
theorem W2_arg (b : Ref sig .tc) (hb : ∀ w, Pipeline.arrRef spec0 w ≠ b)
    (h1 : W1 m ρ c (Proc.devRef .tc b) = arg m c b) : W2 m ρ c (Proc.devRef .tc b) = arg m c b :=
  (W2_of_ne m ρ c b hb).trans h1

theorem W1_a0 : W1 m ρ c (Proc.devRef .tc main_arg0) = arg m c main_arg0 := by after_results_simp <;> rfl
theorem W1_a1 : W1 m ρ c (Proc.devRef .tc main_arg1) = arg m c main_arg1 := by after_results_simp <;> rfl
theorem W1_a2 : W1 m ρ c (Proc.devRef .tc main_arg2) = arg m c main_arg2 := by after_results_simp <;> rfl
theorem W1_a12 : W1 m ρ c (Proc.devRef .tc main_arg12) = arg m c main_arg12 := by after_results_simp <;> rfl
theorem W1_a13 : W1 m ρ c (Proc.devRef .tc main_arg13) = arg m c main_arg13 := by after_results_simp <;> rfl
theorem W1_a14 : W1 m ρ c (Proc.devRef .tc main_arg14) = arg m c main_arg14 := by after_results_simp <;> rfl
theorem W1_a15 : W1 m ρ c (Proc.devRef .tc main_arg15) = arg m c main_arg15 := by after_results_simp <;> rfl
theorem W1_a16 : W1 m ρ c (Proc.devRef .tc main_arg16) = arg m c main_arg16 := by after_results_simp <;> rfl
theorem W1_a17 : W1 m ρ c (Proc.devRef .tc main_arg17) = arg m c main_arg17 := by after_results_simp <;> rfl
theorem W1_a18 : W1 m ρ c (Proc.devRef .tc main_arg18) = arg m c main_arg18 := by after_results_simp <;> rfl
theorem W1_a19 : W1 m ρ c (Proc.devRef .tc main_arg19) = arg m c main_arg19 := by after_results_simp <;> rfl

theorem W2_a0 : W2 m ρ c (Proc.devRef .tc main_arg0) = arg m c main_arg0 := W2_arg m ρ c _ (by decide) (W1_a0 m ρ c)
theorem W2_a1 : W2 m ρ c (Proc.devRef .tc main_arg1) = arg m c main_arg1 := W2_arg m ρ c _ (by decide) (W1_a1 m ρ c)
theorem W2_a2 : W2 m ρ c (Proc.devRef .tc main_arg2) = arg m c main_arg2 := W2_arg m ρ c _ (by decide) (W1_a2 m ρ c)
theorem W2_a12 : W2 m ρ c (Proc.devRef .tc main_arg12) = arg m c main_arg12 := W2_arg m ρ c _ (by decide) (W1_a12 m ρ c)
theorem W2_a13 : W2 m ρ c (Proc.devRef .tc main_arg13) = arg m c main_arg13 := W2_arg m ρ c _ (by decide) (W1_a13 m ρ c)
theorem W2_a14 : W2 m ρ c (Proc.devRef .tc main_arg14) = arg m c main_arg14 := W2_arg m ρ c _ (by decide) (W1_a14 m ρ c)
theorem W2_a15 : W2 m ρ c (Proc.devRef .tc main_arg15) = arg m c main_arg15 := W2_arg m ρ c _ (by decide) (W1_a15 m ρ c)
theorem W2_a16 : W2 m ρ c (Proc.devRef .tc main_arg16) = arg m c main_arg16 := W2_arg m ρ c _ (by decide) (W1_a16 m ρ c)
theorem W2_a17 : W2 m ρ c (Proc.devRef .tc main_arg17) = arg m c main_arg17 := W2_arg m ρ c _ (by decide) (W1_a17 m ρ c)
theorem W2_a18 : W2 m ρ c (Proc.devRef .tc main_arg18) = arg m c main_arg18 := W2_arg m ρ c _ (by decide) (W1_a18 m ρ c)
theorem W2_a19 : W2 m ρ c (Proc.devRef .tc main_arg19) = arg m c main_arg19 := W2_arg m ρ c _ (by decide) (W1_a19 m ρ c)

/-! ## The second stretch's plain results -/

theorem v60_eq : W3 m ρ c (Proc.devRef .tc main_v60) = extractStridedSlice S64x64 ![0, 0] (arg m c main_arg12) slices_S128x64_S64x64_0_0 := by
  after_results_simp; rw [W2_a12]
theorem v61_eq : W3 m ρ c (Proc.devRef .tc main_v61) = extractStridedSlice S64x64 ![64, 0] (arg m c main_arg12) slices_S128x64_S64x64_64_0 := by
  after_results_simp; rw [W2_a12]
theorem v63_eq : W3 m ρ c (Proc.devRef .tc main_v63) = shapeCast S1x64 (arg m c main_arg17) shapeCasts_S64_S1x64 := by
  after_results_simp; rw [W2_a17]; rfl
theorem v64_eq : W3 m ρ c (Proc.devRef .tc main_v64) = shapeCast S1x1 (arg m c main_arg19) shapeCasts_S1_S1x1 := by
  after_results_simp; rw [W2_a19]; rfl
theorem v65_eq : W3 m ρ c (Proc.devRef .tc main_v65) = shapeCast S1x64 (arg m c main_arg13) shapeCasts_S64_S1x64 := by
  after_results_simp; rw [W2_a13]; rfl
theorem v66_eq : W3 m ρ c (Proc.devRef .tc main_v66) = shapeCast S1x64 (arg m c main_arg15) shapeCasts_S64_S1x64 := by
  after_results_simp; rw [W2_a15]; rfl
theorem W3_a0 : W3 m ρ c (Proc.devRef .tc main_arg0) = arg m c main_arg0 := by after_results_simp; rw [W2_a0]
theorem W3_a14 : W3 m ρ c (Proc.devRef .tc main_arg14) = arg m c main_arg14 := by after_results_simp; rw [W2_a14]
theorem W3_a16 : W3 m ρ c (Proc.devRef .tc main_arg16) = arg m c main_arg16 := by after_results_simp; rw [W2_a16]
theorem W3_a18 : W3 m ρ c (Proc.devRef .tc main_arg18) = arg m c main_arg18 := by after_results_simp; rw [W2_a18]

/-- Rows `o …` of the feature update's first weight matrix. -/
theorem sliceRows128 (o : Nat) (ho : o + 64 ≤ 128) (h : S128x64.Slices ![o, 0] ⟨2, ![64, 64]⟩) (x : S128x64.Idx → EReal)
    (k q : Fin 64) :
    extractStridedSlice ⟨2, ![64, 64]⟩ ![o, 0] x h (ix2 k q) = x (ix2 (⟨o + k.val, by omega⟩ : Fin 128) q) :=
  extractStridedSlice_apply _ x _ (ix2 k q) (ix2 (⟨o + k.val, by omega⟩ : Fin 128) q) fun a => by
    match a with
    | ⟨0, _⟩ => rfl
    | ⟨1, _⟩ => exact (Nat.zero_add _).symm

/-- The weight arrays the node stage finds hold the layer's last two two-layer maps. -/
theorem nodeWeights : NodeWeights (V3 m ρ) c (PW m c) where
  wv1 k q := by
    show W3 m ρ c (Proc.devRef .tc main_arg16) (ix2 k q) = _
    rw [W3_a16]; rfl
  bv1 q := by
    show W3 m ρ c (Proc.devRef .tc main_v63) (ix2 (0 : Fin 1) q) = _
    rw [v63_eq]
    exact shapeCast_a_1a_apply _ _ 0 q
  wv2 k := by
    show W3 m ρ c (Proc.devRef .tc main_arg18) (ix2 k (0 : Fin 1)) = _
    rw [W3_a18]; rfl
  bv2 := by
    show W3 m ρ c (Proc.devRef .tc main_v64) (ix2 (0 : Fin 1) (0 : Fin 1)) = _
    rw [v64_eq]
    exact shapeCast_a_1a_apply _ _ 0 0
  wh1a k q := by
    show W3 m ρ c (Proc.devRef .tc main_v60) (ix2 k q) = _
    rw [v60_eq]
    exact (sliceRows128 0 (by omega) _ _ k q).trans (by simp only [Nat.zero_add]; rfl)
  wh1b k q := by
    show W3 m ρ c (Proc.devRef .tc main_v61) (ix2 k q) = _
    rw [v61_eq]
    exact sliceRows128 64 (by omega) _ _ k q
  bh1 q := by
    show W3 m ρ c (Proc.devRef .tc main_v65) (ix2 (0 : Fin 1) q) = _
    rw [v65_eq]
    exact shapeCast_a_1a_apply _ _ 0 q
  wh2 k q := by
    show W3 m ρ c (Proc.devRef .tc main_arg14) (ix2 k q) = _
    rw [W3_a14]; rfl
  bh2 q := by
    show W3 m ρ c (Proc.devRef .tc main_v66) (ix2 (0 : Fin 1) q) = _
    rw [v66_eq]
    exact shapeCast_a_1a_apply _ _ 0 q

end Cert.KernelIdeal.HostValue

end
-- ==== Proof.LibScatterAt.lean ====
/-
  A row scatter-add read at an entry, for a dimension record given by its fields. A scatter of update rows `[E, C]` into
  an `[N, C]` array at a column `[E, 1]` of 32-bit row indices, whose dimension numbers say "update axis 1 is the window,
  operand axis 0 is indexed, the index vector is axis 1", with an adding body on the extended reals, has at `(n, q)` the
  operand's entry plus the sum of the updates' entries `(e, q)` over the edges `e` whose index, read signed, is `n`.
  Stated over any record with those fields, so that a use at a printed record only checks the four fields.
-/
import proofs.«169352_j52699248722544_2_alg».proof.Proof.LibScatterRows
import proofs.«169352_j52699248722544_2_alg».proof.Proof.Arrays
import Idealize.ShloMosaic.PureOps.Ideal

noncomputable section

open scoped BigOperators
open Idealize.ShloMosaic Idealize.ShloMosaic.ValueIdx MsgPass

namespace ScatterAt

/-- The row scatter-add at `(n, q)`. -/
theorem rows {N E C : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : (⟨2, ![E, 1]⟩ : Shape).Idx → BitVec 32)
    (upd : (⟨2, ![E, C]⟩ : Shape).Idx → EReal) (n : Fin N) (q : Fin C) :
    Host.scatterAdd (F := Ideal) (φ := .f32) d x idx upd (ix2 n q) = x (ix2 n q) + ∑ e ∈ landing idx n, upd (ix2 e q) := by
  obtain ⟨a, b, s, v, wf⟩ := d
  simp only at h1 h2 h3 h4
  subst h1 h2 h3 h4
  exact ScatterRows.hostScatterAdd_rows wf idx x upd n q

end ScatterAt

end
-- ==== Proof.HostScatter.lean ====
/-
  The scatter-add between the stages, read at an entry. Every edge contributes 68 numbers — its 64 message entries,
  its three gated coordinate differences and a one — to the row of its source node; a node's row starts from zero. So
  a node's row holds, column by column, zero plus the sum over its edges of that column: its summed messages, its
  summed gated differences, its number of edges. The averaged gated differences divide the sums by the larger of the
  number and one, and a node's nine numbers put its launched position and velocity in front of them.
-/
import proofs.«169352_j52699248722544_2_alg».proof.Proof.HostNode
import proofs.«169352_j52699248722544_2_alg».proof.Proof.LibConcat3
import proofs.«169352_j52699248722544_2_alg».proof.Proof.LibScatterAt

set_option maxRecDepth 16384
set_option pp.maxSteps 2000
set_option pp.deepTerms false
set_option pp.proofs false

noncomputable section

open scoped BigOperators
open Idealize.ShloMosaic Idealize.ShloMosaic.TcCoe Idealize.SL.Sem Idealize.ShloMosaic.StableHlo Idealize.ShloMosaic.ValueIdx MsgPass

namespace Cert.KernelIdeal.HostValue

open Cert.KernelIdeal Cert.KernelIdeal.Gen Cert.KernelIdeal.Stage Cert.KernelIdeal.EdgeValue Cert.KernelIdeal.NodeValue

variable (m : (ℓ : Loc nD τ sig) → Buf (Elt Ideal) ℓ) (ρ : Dev nD → PrngReg) (c : Dev nD)

theorem W2_v1 : W2 m ρ c (Proc.devRef .tc main_v1) = W1 m ρ c (Proc.devRef .tc main_v1) := W2_of_ne m ρ c _ (by decide)
theorem W2_v18 : W2 m ρ c (Proc.devRef .tc main_v18) = W1 m ρ c (Proc.devRef .tc main_v18) := W2_of_ne m ρ c _ (by decide)

/-- The column of row indices the scatter-add reads: every edge's source node. -/
abbrev colK : (⟨2, ![1600000, 1]⟩ : Shape).Idx → BitVec 32 :=
  broadcastInDim S1600000x1 ![0] bcast_S1600000_S1600000x1_0 (W1 m ρ c (Proc.devRef .tc main_v1) : S1600000.Idx → BitVec 32)

/-- The edges whose source node is `n`. -/
def SK (n : Fin 100000) : Finset (Fin 1600000) := landing (colK m ρ c) n

/-- An edge's message, gate, coordinate difference and gated difference, from its data as the edge stage found it. -/
def mK (e : Fin 1600000) (k : Fin 64) : EReal :=
  msg (PW m c) (hiAt (V1 m ρ) c e) (hjAt (V1 m ρ) c e) (radAt (V1 m ρ) c e) (eaAt (V1 m ρ) c e) k
def gK (e : Fin 1600000) : EReal :=
  gate (PW m c) (hiAt (V1 m ρ) c e) (hjAt (V1 m ρ) c e) (radAt (V1 m ρ) c e) (eaAt (V1 m ρ) c e)
def difK (e : Fin 1600000) (j : Fin 3) : EReal := (W1 m ρ c (Proc.devRef .tc main_v18) : S1600000x3.Idx → EReal) (ix2 e j)
def trK (e : Fin 1600000) (j : Fin 3) : EReal := difK m ρ c e j * gK m ρ c e

/-! ## A column of [E, 1] repeated across three columns; a scalar repeated everywhere -/

theorem bcastGate (G : S1600000x1.Idx → EReal) (e : Fin 1600000) (j : Fin 3) :
    broadcastInDim S1600000x3 ![0, 1] bcast_S1600000x1_S1600000x3_0_1 G (ix2 e j) = G (ix2 e (0 : Fin 1)) :=
  broadcastInDim_apply _ _ G (ix2 e j) (ix2 e (0 : Fin 1)) fun a => by
    match a with
    | ⟨0, _⟩ => rfl
    | ⟨1, _⟩ => rfl

theorem bcastCount (G : S100000x1.Idx → EReal) (n : Fin 100000) (j : Fin 3) :
    broadcastInDim S100000x3 ![0, 1] bcast_S100000x1_S100000x3_0_1 G (ix2 n j) = G (ix2 n (0 : Fin 1)) :=
  broadcastInDim_apply _ _ G (ix2 n j) (ix2 n (0 : Fin 1)) fun a => by
    match a with
    | ⟨0, _⟩ => rfl
    | ⟨1, _⟩ => rfl

/-! ## An edge's 68 numbers -/

set_option maxHeartbeats 1000000 in
theorem v49_msg (e : Fin 1600000) (k : Fin 64) :
    W3 m ρ c (Proc.devRef .tc main_v49) (ix2 e (⟨k.val, by omega⟩ : Fin 68)) = mK m ρ c e k := by
  after_results_simp
  refine (Concat3.first (A := 1600000) (b1 := 64) (b2 := 3) (b3 := 1) (B := 68) _ _ _ _ e k (by omega)).trans ?_
  show W2 m ρ c (Proc.devRef .tc main_v45_0) (ix2 e k) = _
  rw [W2_msg]
  rfl

set_option maxHeartbeats 1000000 in
theorem v49_tr (e : Fin 1600000) (j : Fin 3) :
    W3 m ρ c (Proc.devRef .tc main_v49) (ix2 e (⟨64 + j.val, by omega⟩ : Fin 68)) = trK m ρ c e j := by
  after_results_simp
  refine (Concat3.second (A := 1600000) (b1 := 64) (b2 := 3) (b3 := 1) (B := 68) _ _ _ _ e j (by omega)).trans ?_
  show mulf (F := Ideal) (s := S1600000x3) (φ := .f32) (W2 m ρ c (Proc.devRef .tc main_v18))
      (broadcastInDim S1600000x3 ![0, 1] bcast_S1600000x1_S1600000x3_0_1 (W2 m ρ c (Proc.devRef .tc main_v45_1) : S1600000x1.Idx → EReal)) (ix2 e j) = _
  rw [mulf_apply, bcastGate, W2_v18, W2_gate]
  rfl

set_option maxHeartbeats 1000000 in
theorem v49_one (e : Fin 1600000) :
    W3 m ρ c (Proc.devRef .tc main_v49) (ix2 e (⟨67, by omega⟩ : Fin 68)) = oneW := by
  after_results_simp
  refine (Concat3.third (A := 1600000) (b1 := 64) (b2 := 3) (b3 := 1) (B := 68) _ _ _ _ e (0 : Fin 1) (by omega)).trans ?_
  rfl

/-! ## A node's row after the scatter-add -/

set_option maxHeartbeats 1000000 in
/-- Column `q` of node `n`'s row: zero plus the sum over its edges of their column `q`. -/
theorem agg_apply (n : Fin 100000) (q : Fin 68) :
    @Eq EReal (W3 m ρ c (Proc.devRef .tc main_v52) (ix2 n q))
      (zeroW + @Finset.sum (Fin 1600000) EReal _ (SK m ρ c n) (fun e => W3 m ρ c (Proc.devRef .tc main_v49) (ix2 e q))) := by
  after_results_simp
  rw [W2_v1]
  refine (ScatterAt.rows scatter_S100000x68_S1600000x1_S1600000x68_1_0_0_1 rfl rfl rfl rfl _ _ _ n q).trans ?_
  exact congrArg₂ (· + ·) rfl (Finset.sum_congr rfl fun e _ => rfl)

end Cert.KernelIdeal.HostValue

end
-- ==== Proof.HostCuts.lean ====
/-
  The cuts of a node's row after the scatter-add — columns 0–63, 64–66 and 67 —, the quotient of the second by the
  larger of the third and one, and the nine numbers that put a node's launched position and velocity in front of that
  quotient: each buffer read at an entry from the buffers it is computed from.
-/
import proofs.«169352_j52699248722544_2_alg».proof.Proof.HostScatter

set_option maxRecDepth 16384
set_option pp.maxSteps 2000
set_option pp.deepTerms false
set_option pp.proofs false

noncomputable section

open scoped BigOperators
open Idealize.ShloMosaic Idealize.ShloMosaic.TcCoe Idealize.SL.Sem Idealize.ShloMosaic.StableHlo Idealize.ShloMosaic.ValueIdx MsgPass

namespace Cert.KernelIdeal.HostValue

open Cert.KernelIdeal Cert.KernelIdeal.Gen Cert.KernelIdeal.Stage Cert.KernelIdeal.EdgeValue Cert.KernelIdeal.NodeValue

variable (m : (ℓ : Loc nD τ sig) → Buf (Elt Ideal) ℓ) (ρ : Dev nD → PrngReg) (c : Dev nD)

/-! ## The three cuts of a node's row -/

set_option maxHeartbeats 1000000 in
theorem v53_apply (n : Fin 100000) (k : Fin 64) :
    W3 m ρ c (Proc.devRef .tc main_v53) (ix2 n k) = W3 m ρ c (Proc.devRef .tc main_v52) (ix2 n (⟨k.val, by omega⟩ : Fin 68)) := by
  after_results_simp
  exact extractStridedSlice_apply _ _ _ (ix2 n k) (ix2 n (⟨k.val, by omega⟩ : Fin 68)) fun a => by
    match a with
    | ⟨0, _⟩ => exact (Nat.zero_add _).symm
    | ⟨1, _⟩ => exact (Nat.zero_add _).symm

set_option maxHeartbeats 1000000 in
theorem v54_apply (n : Fin 100000) (j : Fin 3) :
    W3 m ρ c (Proc.devRef .tc main_v54) (ix2 n j) = W3 m ρ c (Proc.devRef .tc main_v52) (ix2 n (⟨64 + j.val, by omega⟩ : Fin 68)) := by
  after_results_simp
  exact extractStridedSlice_apply _ _ _ (ix2 n j) (ix2 n (⟨64 + j.val, by omega⟩ : Fin 68)) fun a => by
    match a with
    | ⟨0, _⟩ => exact (Nat.zero_add _).symm
    | ⟨1, _⟩ => rfl

set_option maxHeartbeats 1000000 in
theorem v55_apply (n : Fin 100000) :
    W3 m ρ c (Proc.devRef .tc main_v55) (ix2 n (0 : Fin 1)) = W3 m ρ c (Proc.devRef .tc main_v52) (ix2 n (⟨67, by omega⟩ : Fin 68)) := by
  after_results_simp
  exact extractStridedSlice_apply _ _ _ (ix2 n (0 : Fin 1)) (ix2 n (⟨67, by omega⟩ : Fin 68)) fun a => by
    match a with
    | ⟨0, _⟩ => exact (Nat.zero_add _).symm
    | ⟨1, _⟩ => rfl

/-- A quotient by the larger of a column and one, the column repeated across three columns, at an entry. -/
theorem div_max_apply (X : S100000x3.Idx → EReal) (Y : S100000x1.Idx → EReal) (n : Fin 100000) (j : Fin 3) :
    Host.divf (F := Ideal) (s := S100000x3) (φ := .f32) X
        (broadcastInDim S100000x3 ![0, 1] bcast_S100000x1_S100000x3_0_1
          (maximumf (F := Ideal) (s := S100000x1) (φ := .f32) Y
            (broadcastInDim S100000x1 ![] bcast_S_S100000x1 (constant (F := Ideal) S_ .f32 0x3F800000#32)))) (ix2 n j)
      = Ideal.div (X (ix2 n j)) (max (Y (ix2 n (0 : Fin 1))) oneW) := by
  exact congrArg (Ideal.div (X (ix2 n j)))
    (bcastCount (maximumf (F := Ideal) (s := S100000x1) (φ := .f32) Y
      (broadcastInDim S100000x1 ![] bcast_S_S100000x1 (constant (F := Ideal) S_ .f32 0x3F800000#32))) n j)

set_option maxHeartbeats 1000000 in
/-- The averaged gated differences: the sums over the larger of the count and one. -/
theorem v59_apply (n : Fin 100000) (j : Fin 3) :
    W3 m ρ c (Proc.devRef .tc main_v59) (ix2 n j)
      = Ideal.div (W3 m ρ c (Proc.devRef .tc main_v54) (ix2 n j)) (max (W3 m ρ c (Proc.devRef .tc main_v55) (ix2 n (0 : Fin 1))) oneW) := by
  after_results_simp
  exact div_max_apply _ _ n j

/-! ## The nine numbers -/

set_option maxHeartbeats 1000000 in
theorem v62_pos (n : Fin 100000) (j : Fin 3) :
    W3 m ρ c (Proc.devRef .tc main_v62) (ix2 n (⟨j.val, by omega⟩ : Fin 9)) = arg m c main_arg1 (ix2 n j) := by
  after_results_simp
  refine (Concat3.first (A := 100000) (b1 := 3) (b2 := 3) (b3 := 3) (B := 9) _ _ _ _ n j (by omega)).trans ?_
  show W2 m ρ c (Proc.devRef .tc main_arg1) (ix2 n j) = _
  rw [W2_a1]

set_option maxHeartbeats 1000000 in
theorem v62_vel (n : Fin 100000) (j : Fin 3) :
    W3 m ρ c (Proc.devRef .tc main_v62) (ix2 n (⟨3 + j.val, by omega⟩ : Fin 9)) = arg m c main_arg2 (ix2 n j) := by
  after_results_simp
  refine (Concat3.second (A := 100000) (b1 := 3) (b2 := 3) (b3 := 3) (B := 9) _ _ _ _ n j (by omega)).trans ?_
  show W2 m ρ c (Proc.devRef .tc main_arg2) (ix2 n j) = _
  rw [W2_a2]

set_option maxHeartbeats 1000000 in
theorem v62_mean (n : Fin 100000) (j : Fin 3) :
    W3 m ρ c (Proc.devRef .tc main_v62) (ix2 n (⟨6 + j.val, by omega⟩ : Fin 9)) = W3 m ρ c (Proc.devRef .tc main_v59) (ix2 n j) := by
  after_results_simp
  refine (Concat3.third (A := 100000) (b1 := 3) (b2 := 3) (b3 := 3) (B := 9) _ _ _ _ n j (by omega)).trans ?_
  simp only [Matrix.cons_val]
  after_results_simp
  try simp only [Matrix.cons_val]
  try (with_reducible rfl)

end Cert.KernelIdeal.HostValue

end
-- ==== Proof.HostGeo.lean ====
/-
  A node's data as the node stage finds it. Its summed messages are columns 0–63 of its row after the scatter-add; its
  averaged gated differences are columns 64–66 divided by the larger of column 67 (its number of edges) and one; the
  nine numbers the node stage reads put its launched position and velocity in front of the averages; its features are
  its launched features.
-/
import proofs.«169352_j52699248722544_2_alg».proof.Proof.HostCuts

set_option maxRecDepth 16384
set_option pp.maxSteps 2000
set_option pp.deepTerms false
set_option pp.proofs false

noncomputable section

open scoped BigOperators
open Idealize.ShloMosaic Idealize.ShloMosaic.TcCoe Idealize.SL.Sem Idealize.ShloMosaic.StableHlo Idealize.ShloMosaic.ValueIdx MsgPass

namespace Cert.KernelIdeal.HostValue

open Cert.KernelIdeal Cert.KernelIdeal.Gen Cert.KernelIdeal.Stage Cert.KernelIdeal.EdgeValue Cert.KernelIdeal.NodeValue

variable (m : (ℓ : Loc nD τ sig) → Buf (Elt Ideal) ℓ) (ρ : Dev nD → PrngReg) (c : Dev nD)

/-- Its features are its launched features. -/
theorem h_node (n : Fin 100000) (k : Fin 64) : hAt (V3 m ρ) c n k = arg m c main_arg0 (ix2 n k) := by
  show W3 m ρ c (Proc.devRef .tc main_arg0) (ix2 n k) = _
  rw [W3_a0]

/-- A column of a node's row over its edges, for the three kinds of column. -/
theorem sum_msg (n : Fin 100000) (k : Fin 64) :
    @Finset.sum (Fin 1600000) EReal _ (SK m ρ c n) (fun e => W3 m ρ c (Proc.devRef .tc main_v49) (ix2 e (⟨k.val, by omega⟩ : Fin 68)))
      = ∑ e ∈ SK m ρ c n, mK m ρ c e k :=
  Finset.sum_congr rfl fun e _ => v49_msg m ρ c e k
theorem sum_tr (n : Fin 100000) (j : Fin 3) :
    @Finset.sum (Fin 1600000) EReal _ (SK m ρ c n) (fun e => W3 m ρ c (Proc.devRef .tc main_v49) (ix2 e (⟨64 + j.val, by omega⟩ : Fin 68)))
      = ∑ e ∈ SK m ρ c n, trK m ρ c e j :=
  Finset.sum_congr rfl fun e _ => v49_tr m ρ c e j
theorem sum_one (n : Fin 100000) :
    @Finset.sum (Fin 1600000) EReal _ (SK m ρ c n) (fun e => W3 m ρ c (Proc.devRef .tc main_v49) (ix2 e (⟨67, by omega⟩ : Fin 68)))
      = ∑ _e ∈ SK m ρ c n, oneW :=
  Finset.sum_congr rfl fun e _ => v49_one m ρ c e

/-- Its summed messages. -/
theorem mi_node (n : Fin 100000) (k : Fin 64) : miAt (V3 m ρ) c n k = msgSum (SK m ρ c n) zeroW (mK m ρ c) k := by
  show W3 m ρ c (Proc.devRef .tc main_v53) (ix2 n k) = _
  refine (v53_apply m ρ c n k).trans ((agg_apply m ρ c n ⟨k.val, by omega⟩).trans ?_)
  unfold msgSum
  exact congrArg (fun s : EReal => zeroW + s) (sum_msg m ρ c n k)

theorem geo_pos (n : Fin 100000) (j : Fin 3) :
    geoAt (V3 m ρ) c n ⟨0 + j.val, by omega⟩ = arg m c main_arg1 (ix2 n j) := by
  show W3 m ρ c (Proc.devRef .tc main_v62) (ix2 n (⟨0 + j.val, by omega⟩ : Fin 9)) = _
  exact (congrArg (fun z : Fin 9 => W3 m ρ c (Proc.devRef .tc main_v62) (ix2 n z)) (Fin.ext (Nat.zero_add _))).trans
    (v62_pos m ρ c n j)

theorem geo_vel (n : Fin 100000) (j : Fin 3) :
    geoAt (V3 m ρ) c n ⟨3 + j.val, by omega⟩ = arg m c main_arg2 (ix2 n j) := v62_vel m ρ c n j

theorem geo_mean (n : Fin 100000) (j : Fin 3) :
    geoAt (V3 m ρ) c n ⟨6 + j.val, by omega⟩ = trMean (SK m ρ c n) zeroW oneW (trK m ρ c) j := by
  show W3 m ρ c (Proc.devRef .tc main_v62) (ix2 n (⟨6 + j.val, by omega⟩ : Fin 9)) = _
  refine (v62_mean m ρ c n j).trans ((v59_apply m ρ c n j).trans ?_)
  unfold trMean
  exact congrArg₂ Ideal.div
    ((v54_apply m ρ c n j).trans ((agg_apply m ρ c n ⟨64 + j.val, by omega⟩).trans
      (congrArg (fun s : EReal => zeroW + s) (sum_tr m ρ c n j))))
    (congrArg (fun z : EReal => max z oneW)
      ((v55_apply m ρ c n).trans ((agg_apply m ρ c n ⟨67, by omega⟩).trans
        (congrArg (fun s : EReal => zeroW + s) (sum_one m ρ c n)))))

end Cert.KernelIdeal.HostValue

end
-- ==== Proof.KernelLayer.lean ====
/-
  The three results of the kernel program as the layer's functions. After the node stage the new-feature array holds
  every node's new features and the six-column array its new velocity and position; the last host operations cut the
  six columns into the two results. With a node's data as the node stage found it — its launched features, position
  and velocity, its summed messages and averaged gated differences over the edges whose source it is — these are the
  layer's `featNew`, `velNew` and `posNew`.
-/
import proofs.«169352_j52699248722544_2_alg».proof.Proof.HostGeo

set_option maxRecDepth 16384
set_option pp.maxSteps 2000
set_option pp.deepTerms false
set_option pp.proofs false

noncomputable section

open scoped BigOperators
open Idealize.ShloMosaic Idealize.ShloMosaic.TcCoe Idealize.SL.Sem Idealize.ShloMosaic.StableHlo Idealize.ShloMosaic.ValueIdx MsgPass

namespace Cert.KernelIdeal.HostValue

open Cert.KernelIdeal Cert.KernelIdeal.Gen Cert.KernelIdeal.Stage Cert.KernelIdeal.EdgeValue Cert.KernelIdeal.NodeValue

variable (m : (ℓ : Loc nD τ sig) → Buf (Elt Ideal) ℓ) (ρ : Dev nD → PrngReg) (c : Dev nD)

/-- The new-feature array after the node stage. -/
theorem W4_feat : W4 m ρ c (Proc.devRef .tc main_v67_0) = featArr (V3 m ρ) c (PW m c) :=
  (W4_arr m ρ c 12).trans (final12 (V3 m ρ) c (PW m c) (nodeWeights m ρ c))

/-- The six-column array after the node stage. -/
theorem W4_geo : W4 m ρ c (Proc.devRef .tc main_v67_1) = geoArr (V3 m ρ) c (PW m c) :=
  (W4_arr m ρ c 13).trans (final13 (V3 m ρ) c (PW m c) (nodeWeights m ρ c))

theorem W5_feat : W5 m ρ c (Proc.devRef .tc main_v67_0) = featArr (V3 m ρ) c (PW m c) := by
  after_results_simp; rw [W4_feat]
theorem W5_vel : W5 m ρ c (Proc.devRef .tc main_v68)
    = extractStridedSlice S100000x3 ![0, 0] (geoArr (V3 m ρ) c (PW m c)) slices_S100000x6_S100000x3_0_0 := by
  after_results_simp; rw [W4_geo]
theorem W5_pos : W5 m ρ c (Proc.devRef .tc main_v69)
    = extractStridedSlice S100000x3 ![0, 3] (geoArr (V3 m ρ) c (PW m c)) slices_S100000x6_S100000x3_0_3 := by
  after_results_simp; rw [W4_geo]

/-- A node's launched features, position and velocity. -/
abbrev hK (n : Fin 100000) : Fin 64 → EReal := fun k => arg m c main_arg0 (ix2 n k)
abbrev xK (n : Fin 100000) : Fin 3 → EReal := fun j => arg m c main_arg1 (ix2 n j)
abbrev vK (n : Fin 100000) : Fin 3 → EReal := fun j => arg m c main_arg2 (ix2 n j)

theorem hAt_eq (n : Fin 100000) : hAt (V3 m ρ) c n = hK m c n := funext fun k => h_node m ρ c n k
theorem miAt_eq (n : Fin 100000) : miAt (V3 m ρ) c n = msgSum (SK m ρ c n) zeroW (mK m ρ c) :=
  funext fun k => mi_node m ρ c n k

/-- A node's new velocity. -/
theorem velAt_eq (n : Fin 100000) (j : Fin 3) :
    velAt (V3 m ρ) c (PW m c) n j = velNew (PW m c) (SK m ρ c n) zeroW oneW (trK m ρ c) (hK m c n) (vK m c n) j := by
  unfold velAt velNew
  rw [geo_vel, geo_mean, hAt_eq]

/-- A node's new position. -/
theorem posAt_eq (n : Fin 100000) (j : Fin 3) :
    posAt (V3 m ρ) c (PW m c) n j
      = posNew (PW m c) (SK m ρ c n) zeroW oneW (trK m ρ c) (hK m c n) (xK m c n) (vK m c n) j := by
  unfold posAt posNew
  rw [geo_pos, velAt_eq]

/-- RESULT 0: the new features. -/
theorem out_feat (n : Fin 100000) (q : Fin 64) :
    W5 m ρ c (Proc.devRef .tc main_v67_0) (ix2 n q) = featNew (PW m c) (SK m ρ c n) zeroW (mK m ρ c) (hK m c n) q := by
  rw [W5_feat]
  show mlp (cat2 (hAt (V3 m ρ) c n) (miAt (V3 m ρ) c n)) (PW m c).wh1 (PW m c).bh1 (PW m c).wh2 (PW m c).bh2 q = _
  rw [hAt_eq, miAt_eq]
  rfl

/-- RESULT 2: the new velocity (columns 0–2 of the six). -/
theorem out_vel (n : Fin 100000) (j : Fin 3) :
    W5 m ρ c (Proc.devRef .tc main_v68) (ix2 n j)
      = velNew (PW m c) (SK m ρ c n) zeroW oneW (trK m ρ c) (hK m c n) (vK m c n) j := by
  rw [W5_vel]
  refine (extractStridedSlice_apply _ (geoArr (V3 m ρ) c (PW m c)) _ (ix2 n j) (ix2 n (⟨j.val, by omega⟩ : Fin 6)) fun a => by
    match a with
    | ⟨0, _⟩ => exact (Nat.zero_add _).symm
    | ⟨1, _⟩ => exact (Nat.zero_add _).symm).trans ?_
  unfold geoArr
  rw [dif_pos (show ((ix2 n (⟨j.val, by omega⟩ : Fin 6) : S100000x6.Idx) 1).val < 3 from j.isLt)]
  exact velAt_eq m ρ c n j

/-- RESULT 1: the new position (columns 3–5 of the six). -/
theorem out_pos (n : Fin 100000) (j : Fin 3) :
    W5 m ρ c (Proc.devRef .tc main_v69) (ix2 n j)
      = posNew (PW m c) (SK m ρ c n) zeroW oneW (trK m ρ c) (hK m c n) (xK m c n) (vK m c n) j := by
  rw [W5_pos]
  refine (extractStridedSlice_apply _ (geoArr (V3 m ρ) c (PW m c)) _ (ix2 n j) (ix2 n (⟨3 + j.val, by omega⟩ : Fin 6)) fun a => by
    match a with
    | ⟨0, _⟩ => exact (Nat.zero_add _).symm
    | ⟨1, _⟩ => rfl).trans ?_
  unfold geoArr
  rw [dif_neg (show ¬ ((ix2 n (⟨3 + j.val, by omega⟩ : Fin 6) : S100000x6.Idx) 1).val < 3 from by
    show ¬ (3 + j.val < 3); omega)]
  exact (congrArg (posAt (V3 m ρ) c (PW m c) n) (Fin.ext (by show 3 + j.val - 3 = j.val; omega))).trans (posAt_eq m ρ c n j)

end Cert.KernelIdeal.HostValue

end
-- ==== Proof.RefEdge.lean ====
/-
  The per-edge part of the reference program read at an index: the 137 inputs of an edge's first affine map, its
  message, and its coordinate gate, as the functions of `MsgPass`.
-/
import proofs.«169352_j52699248722544_2_alg».proof.Proof.Gen.ReferenceIdeal.Read
import proofs.«169352_j52699248722544_2_alg».proof.Proof.Spec
import proofs.«169352_j52699248722544_2_alg».proof.Proof.Arrays
import Idealize.ShloMosaic.Lib.ValueIdx
import Idealize.ShloMosaic.Lib.Pipeline.Value
import Idealize.ShloMosaic.PureOps.Ideal.Laws

noncomputable section

namespace Cert.ReferenceIdeal.Layer

open Cert.ReferenceIdeal Cert.ReferenceIdeal.Gen Cert.ReferenceIdeal.Read Idealize.ShloMosaic Idealize.ShloMosaic.ValueIdx MsgPass
open scoped BigOperators

variable (x0 : (⟨S100000x64, .f32⟩ : BufTy).Contents (Elt Ideal)) (x1 x2 : (⟨S100000x3, .f32⟩ : BufTy).Contents (Elt Ideal)) (x3 : (⟨S1600000x8, .f32⟩ : BufTy).Contents (Elt Ideal))
  (x4 : (⟨S137x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal)) (x10 : (⟨S64x1, .f32⟩ : BufTy).Contents (Elt Ideal)) (x11 : (⟨S1, .f32⟩ : BufTy).Contents (Elt Ideal))
  (x12 : (⟨S128x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal))
  (x16 : (⟨S64x64, .f32⟩ : BufTy).Contents (Elt Ideal)) (x17 : (⟨S64, .f32⟩ : BufTy).Contents (Elt Ideal)) (x18 : (⟨S64x1, .f32⟩ : BufTy).Contents (Elt Ideal)) (x19 : (⟨S1, .f32⟩ : BufTy).Contents (Elt Ideal))
  (x20 : (⟨S2x1600000, .i32⟩ : BufTy).Contents (Elt Ideal))

/-- Two indices of a two-axis array agree when both coordinates do. -/
macro "idx2" : tactic =>
  `(tactic| exact funext fun a => Fin.ext (by match a with | ⟨0, _⟩ => rfl | ⟨1, _⟩ => rfl))
/-- Two indices of a one-axis array agree when the coordinate does. -/
macro "idx1" : tactic =>
  `(tactic| exact funext fun a => Fin.ext (by match a with | ⟨0, _⟩ => rfl))

local notation "st18" => val_main_v18 (F := Ideal) x1 x20
local notation "st21" => val_main_v21 (F := Ideal) x1 x20
local notation "st28" => val_main_v28 (F := Ideal) x0 x20
local notation "st35" => val_main_v35 (F := Ideal) x0 x20
local notation "st36" => val_main_v36 (F := Ideal) x0 x1 x3 x20
local notation "st37" => val_main_v37 (F := Ideal) x0 x1 x3 x4 x20
local notation "st39" => val_main_v39 (F := Ideal) x5
local notation "st40" => val_main_v40 (F := Ideal) x0 x1 x3 x4 x5 x20
local notation "st41" => val_main_v41 (F := Ideal) x0 x1 x3 x4 x5 x20
local notation "st42" => val_main_v42 (F := Ideal) x0 x1 x3 x4 x5 x6 x20
local notation "st44" => val_main_v44 (F := Ideal) x7
local notation "st45" => val_main_v45 (F := Ideal) x0 x1 x3 x4 x5 x6 x7 x20
local notation "st46" => val_main_v46 (F := Ideal) x0 x1 x3 x4 x5 x6 x7 x20
local notation "st47" => val_main_v47 (F := Ideal) x0 x1 x3 x4 x5 x6 x7 x8 x20
local notation "st49" => val_main_v49 (F := Ideal) x9
local notation "st50" => val_main_v50 (F := Ideal) x0 x1 x3 x4 x5 x6 x7 x8 x9 x20
local notation "st51" => val_main_v51 (F := Ideal) x0 x1 x3 x4 x5 x6 x7 x8 x9 x20
local notation "st52" => val_main_v52 (F := Ideal) x0 x1 x3 x4 x5 x6 x7 x8 x9 x10 x20
local notation "st54" => val_main_v54 (F := Ideal) x11
local notation "st55" => val_main_v55 (F := Ideal) x0 x1 x3 x4 x5 x6 x7 x8 x9 x10 x11 x20
local notation "st56" => val_main_v56 (F := Ideal) x0 x1 x3 x4 x5 x6 x7 x8 x9 x10 x11 x20

/-- The weights of the layer, read out of the program's weight arguments. -/
abbrev P : Weights := weights x4 x5 x6 x7 x8 x9 x10 x11 x12 x13 x14 x15 x16 x17 x18 x19

/-- The feature row of an edge's first end node (the program's first gathered array, kept as it is). -/
abbrev hi (e : Fin 1600000) : Fin 64 → EReal := fun k => st28 (ix2 e k)
/-- The feature row of an edge's second end node. -/
abbrev hj (e : Fin 1600000) : Fin 64 → EReal := fun k => st35 (ix2 e k)
/-- The difference of the end nodes' coordinates. -/
abbrev dif (e : Fin 1600000) : Fin 3 → EReal := fun j => st18 (ix2 e j)
/-- Its squared length, as the program sums it. -/
abbrev rad (e : Fin 1600000) : EReal := st21 (ix2 e 0)
/-- The edge's eight attributes. -/
abbrev ea (e : Fin 1600000) : Fin 8 → EReal := fun k => x3 (ix2 e k)

/-! ## The 137 inputs of the first affine map -/

/-- The joined array at `(e, k)` is entry `k` of the edge's 137 inputs: the piece that holds column `k`, read at
    the column less the widths before it. -/
theorem feat_eq (e : Fin 1600000) (k : Fin 137) :
    st36 (ix2 e k) = feat (hi x0 x20 e) (hj x0 x20 e) (rad x1 x20 e) (ea x3 e) k := by
  unfold val_main_v36 feat
  by_cases h1 : k.val < 64
  · rw [dif_pos h1]
    exact concatenate_apply_piece _ _ _ (ix2 e k) 0 (by show (0 : Nat) < 4; omega) S1600000x64
      (val_main_v28 (F := Ideal) x0 x20) rfl rfl 0 rfl (ix2 e ⟨k.val, h1⟩)
      (fun b hb => by match b with | ⟨0, _⟩ => rfl | ⟨1, _⟩ => exact absurd (Fin.ext rfl) hb)
      (by show 0 + k.val = k.val; omega)
  rw [dif_neg h1]
  by_cases h2 : k.val < 128
  · rw [dif_pos h2]
    exact concatenate_apply_piece _ _ _ (ix2 e k) 1 (by show (1 : Nat) < 4; omega) S1600000x64
      (val_main_v35 (F := Ideal) x0 x20) rfl rfl 64 rfl (ix2 e ⟨k.val - 64, by omega⟩)
      (fun b hb => by match b with | ⟨0, _⟩ => rfl | ⟨1, _⟩ => exact absurd (Fin.ext rfl) hb)
      (by show 64 + (k.val - 64) = k.val; omega)
  rw [dif_neg h2]
  by_cases h3 : k.val = 128
  · rw [if_pos h3]
    exact concatenate_apply_piece _ _ _ (ix2 e k) 2 (by show (2 : Nat) < 4; omega) S1600000x1
      (val_main_v21 (F := Ideal) x1 x20) rfl rfl 128 rfl (ix2 e (0 : Fin 1))
      (fun b hb => by match b with | ⟨0, _⟩ => rfl | ⟨1, _⟩ => exact absurd (Fin.ext rfl) hb)
      (by show 128 + 0 = k.val; omega)
  rw [if_neg h3]
  have hk := k.isLt
  exact concatenate_apply_piece _ _ _ (ix2 e k) 3 (by show (3 : Nat) < 4; omega) S1600000x8
    x3 rfl rfl 129 rfl (ix2 e ⟨k.val - 129, by omega⟩)
    (fun b hb => by match b with | ⟨0, _⟩ => rfl | ⟨1, _⟩ => exact absurd (Fin.ext rfl) hb)
    (by show 129 + (k.val - 129) = k.val; omega)

/-! ## The message: two affine maps, the hyperbolic tangent after each -/

theorem dot37 (e : Fin 1600000) (c : Fin 64) :
    st37 (ix2 e c) = ∑ k : Fin 137, st36 (ix2 e k) * x4 (ix2 k c) := by
  rw [val_main_v37_apply]
  refine Finset.sum_congr rfl fun k _ => ?_
  rw [show lidx_main_v37 (ix2 e c) k = ix2 e k by idx2, show ridx_main_v37 (ix2 e c) k = ix2 k c by idx2]

theorem bias39 (e : Fin 1600000) (c : Fin 64) : st39 (ix2 e c) = x5 (ix1 c) := by
  rw [val_main_v39_apply, val_main_v38_apply]
  exact congrArg x5 (by idx1)

/-- The first affine map of the message at output `c`. -/
theorem aff40 (e : Fin 1600000) (c : Fin 64) :
    st40 (ix2 e c) = aff (feat (hi x0 x20 e) (hj x0 x20 e) (rad x1 x20 e) (ea x3 e)) (P x4 x5 x6 x7 x8 x9 x10 x11 x12 x13 x14 x15 x16 x17 x18 x19).we1 (P x4 x5 x6 x7 x8 x9 x10 x11 x12 x13 x14 x15 x16 x17 x18 x19).be1 c := by
  rw [val_main_v40_apply, dot37, bias39]
  simp only [feat_eq]
  rfl

theorem tanh41 (e : Fin 1600000) (c : Fin 64) :
    st41 (ix2 e c) = T (aff (feat (hi x0 x20 e) (hj x0 x20 e) (rad x1 x20 e) (ea x3 e)) (P x4 x5 x6 x7 x8 x9 x10 x11 x12 x13 x14 x15 x16 x17 x18 x19).we1 (P x4 x5 x6 x7 x8 x9 x10 x11 x12 x13 x14 x15 x16 x17 x18 x19).be1 c) := by
  rw [val_main_v41_apply, aff40 x0 x1 x3 x4 x5 x6 x7 x8 x9 x10 x11 x12 x13 x14 x15 x16 x17 x18 x19 x20]
  rfl

theorem dot42 (e : Fin 1600000) (c : Fin 64) :
    st42 (ix2 e c) = ∑ k : Fin 64, st41 (ix2 e k) * x6 (ix2 k c) := by
  rw [val_main_v42_apply]
  refine Finset.sum_congr rfl fun k _ => ?_
  rw [show lidx_main_v42 (ix2 e c) k = ix2 e k by idx2, show ridx_main_v42 (ix2 e c) k = ix2 k c by idx2]

theorem bias44 (e : Fin 1600000) (c : Fin 64) : st44 (ix2 e c) = x7 (ix1 c) := by
  rw [val_main_v44_apply, val_main_v43_apply]
  exact congrArg x7 (by idx1)

theorem mlp45 (e : Fin 1600000) (c : Fin 64) :
    st45 (ix2 e c) = mlp (feat (hi x0 x20 e) (hj x0 x20 e) (rad x1 x20 e) (ea x3 e)) (P x4 x5 x6 x7 x8 x9 x10 x11 x12 x13 x14 x15 x16 x17 x18 x19).we1 (P x4 x5 x6 x7 x8 x9 x10 x11 x12 x13 x14 x15 x16 x17 x18 x19).be1 (P x4 x5 x6 x7 x8 x9 x10 x11 x12 x13 x14 x15 x16 x17 x18 x19).we2 (P x4 x5 x6 x7 x8 x9 x10 x11 x12 x13 x14 x15 x16 x17 x18 x19).be2 c := by
  rw [val_main_v45_apply, dot42, bias44]
  simp only [tanh41 x0 x1 x3 x4 x5 x6 x7 x8 x9 x10 x11 x12 x13 x14 x15 x16 x17 x18 x19 x20]
  rfl

/-- **The message of edge `e`**, entry `c`. -/
theorem msg_eq (e : Fin 1600000) (c : Fin 64) :
    st46 (ix2 e c) = msg (P x4 x5 x6 x7 x8 x9 x10 x11 x12 x13 x14 x15 x16 x17 x18 x19) (hi x0 x20 e) (hj x0 x20 e) (rad x1 x20 e) (ea x3 e) c := by
  rw [val_main_v46_apply, mlp45 x0 x1 x3 x4 x5 x6 x7 x8 x9 x10 x11 x12 x13 x14 x15 x16 x17 x18 x19 x20]
  rfl

/-! ## The coordinate gate: two more affine maps applied to the message -/

theorem dot47 (e : Fin 1600000) (c : Fin 64) :
    st47 (ix2 e c) = ∑ k : Fin 64, st46 (ix2 e k) * x8 (ix2 k c) := by
  rw [val_main_v47_apply]
  refine Finset.sum_congr rfl fun k _ => ?_
  rw [show lidx_main_v47 (ix2 e c) k = ix2 e k by idx2, show ridx_main_v47 (ix2 e c) k = ix2 k c by idx2]

theorem bias49 (e : Fin 1600000) (c : Fin 64) : st49 (ix2 e c) = x9 (ix1 c) := by
  rw [val_main_v49_apply, val_main_v48_apply]
  exact congrArg x9 (by idx1)

theorem aff50 (e : Fin 1600000) (c : Fin 64) :
    st50 (ix2 e c) = aff (msg (P x4 x5 x6 x7 x8 x9 x10 x11 x12 x13 x14 x15 x16 x17 x18 x19) (hi x0 x20 e) (hj x0 x20 e) (rad x1 x20 e) (ea x3 e)) (P x4 x5 x6 x7 x8 x9 x10 x11 x12 x13 x14 x15 x16 x17 x18 x19).wx1 (P x4 x5 x6 x7 x8 x9 x10 x11 x12 x13 x14 x15 x16 x17 x18 x19).bx1 c := by
  rw [val_main_v50_apply, dot47, bias49]
  simp only [msg_eq x0 x1 x3 x4 x5 x6 x7 x8 x9 x10 x11 x12 x13 x14 x15 x16 x17 x18 x19 x20]
  rfl

theorem tanh51 (e : Fin 1600000) (c : Fin 64) :
    st51 (ix2 e c) = T (aff (msg (P x4 x5 x6 x7 x8 x9 x10 x11 x12 x13 x14 x15 x16 x17 x18 x19) (hi x0 x20 e) (hj x0 x20 e) (rad x1 x20 e) (ea x3 e)) (P x4 x5 x6 x7 x8 x9 x10 x11 x12 x13 x14 x15 x16 x17 x18 x19).wx1 (P x4 x5 x6 x7 x8 x9 x10 x11 x12 x13 x14 x15 x16 x17 x18 x19).bx1 c) := by
  rw [val_main_v51_apply, aff50 x0 x1 x3 x4 x5 x6 x7 x8 x9 x10 x11 x12 x13 x14 x15 x16 x17 x18 x19 x20]
  rfl

theorem dot52 (e : Fin 1600000) :
    st52 (ix2 e (0 : Fin 1)) = ∑ k : Fin 64, st51 (ix2 e k) * x10 (ix2 k (0 : Fin 1)) := by
  rw [val_main_v52_apply]
  refine Finset.sum_congr rfl fun k _ => ?_
  rw [show lidx_main_v52 (ix2 e (0 : Fin 1)) k = ix2 e k by idx2, show ridx_main_v52 (ix2 e (0 : Fin 1)) k = ix2 k (0 : Fin 1) by idx2]

theorem bias54 (e : Fin 1600000) : st54 (ix2 e (0 : Fin 1)) = x11 (ix1 (0 : Fin 1)) := by
  rw [val_main_v54_apply, val_main_v53_apply]
  exact congrArg x11 (by idx1)

theorem mlp55 (e : Fin 1600000) :
    st55 (ix2 e (0 : Fin 1))
      = mlp (msg (P x4 x5 x6 x7 x8 x9 x10 x11 x12 x13 x14 x15 x16 x17 x18 x19) (hi x0 x20 e) (hj x0 x20 e) (rad x1 x20 e) (ea x3 e)) (P x4 x5 x6 x7 x8 x9 x10 x11 x12 x13 x14 x15 x16 x17 x18 x19).wx1 (P x4 x5 x6 x7 x8 x9 x10 x11 x12 x13 x14 x15 x16 x17 x18 x19).bx1 (P x4 x5 x6 x7 x8 x9 x10 x11 x12 x13 x14 x15 x16 x17 x18 x19).wx2 (P x4 x5 x6 x7 x8 x9 x10 x11 x12 x13 x14 x15 x16 x17 x18 x19).bx2 0 := by
  rw [val_main_v55_apply, dot52, bias54]
  simp only [tanh51 x0 x1 x3 x4 x5 x6 x7 x8 x9 x10 x11 x12 x13 x14 x15 x16 x17 x18 x19 x20]
  rfl

/-- **The coordinate gate of edge `e`.** -/
theorem gate_eq (e : Fin 1600000) :
    st56 (ix2 e (0 : Fin 1)) = gate (P x4 x5 x6 x7 x8 x9 x10 x11 x12 x13 x14 x15 x16 x17 x18 x19) (hi x0 x20 e) (hj x0 x20 e) (rad x1 x20 e) (ea x3 e) := by
  rw [val_main_v56_apply, mlp55 x0 x1 x3 x4 x5 x6 x7 x8 x9 x10 x11 x12 x13 x14 x15 x16 x17 x18 x19 x20]
  rfl

end Cert.ReferenceIdeal.Layer

end
-- ==== Proof.RefNode.lean ====
/-
  The per-node part of the reference program read at an index: the node's velocity gate, the three sums over the
  edges that land on a node, and from them the three results (new features, new position, new velocity) as the
  functions of `MsgPass`.
-/
import proofs.«169352_j52699248722544_2_alg».proof.Proof.RefEdge
import proofs.«169352_j52699248722544_2_alg».proof.Proof.LibScatterAt

set_option pp.maxSteps 2000
set_option pp.deepTerms false
set_option pp.proofs false

noncomputable section

namespace Cert.ReferenceIdeal.Layer

open Cert.ReferenceIdeal Cert.ReferenceIdeal.Gen Cert.ReferenceIdeal.Read Idealize.ShloMosaic Idealize.ShloMosaic.ValueIdx MsgPass
open scoped BigOperators

variable (x0 : (⟨S100000x64, .f32⟩ : BufTy).Contents (Elt Ideal)) (x1 x2 : (⟨S100000x3, .f32⟩ : BufTy).Contents (Elt Ideal)) (x3 : (⟨S1600000x8, .f32⟩ : BufTy).Contents (Elt Ideal))
  (x4 : (⟨S137x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal)) (x10 : (⟨S64x1, .f32⟩ : BufTy).Contents (Elt Ideal)) (x11 : (⟨S1, .f32⟩ : BufTy).Contents (Elt Ideal))
  (x12 : (⟨S128x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal))
  (x16 : (⟨S64x64, .f32⟩ : BufTy).Contents (Elt Ideal)) (x17 : (⟨S64, .f32⟩ : BufTy).Contents (Elt Ideal)) (x18 : (⟨S64x1, .f32⟩ : BufTy).Contents (Elt Ideal)) (x19 : (⟨S1, .f32⟩ : BufTy).Contents (Elt Ideal))
  (x20 : (⟨S2x1600000, .i32⟩ : BufTy).Contents (Elt Ideal))

/-- The column of row indices all three sums are scattered by: the first row of the edge list. -/
abbrev col : (⟨2, ![1600000, 1]⟩ : Shape).Idx → BitVec 32 := val_main_v69 (F := Ideal) x20
/-- The edges that land on node `n`. -/
abbrev S (n : Fin 100000) : Finset (Fin 1600000) := landing (col x20) n
/-- The message of edge `e`. -/
abbrev m (e : Fin 1600000) : Fin 64 → EReal := msg (P x4 x5 x6 x7 x8 x9 x10 x11 x12 x13 x14 x15 x16 x17 x18 x19) (hi x0 x20 e) (hj x0 x20 e) (rad x1 x20 e) (ea x3 e)
/-- The gated coordinate difference of edge `e`. -/
abbrev tr (e : Fin 1600000) : Fin 3 → EReal := fun j => dif x1 x20 e j * gate (P x4 x5 x6 x7 x8 x9 x10 x11 x12 x13 x14 x15 x16 x17 x18 x19) (hi x0 x20 e) (hj x0 x20 e) (rad x1 x20 e) (ea x3 e)
/-- The feature row of node `n`. -/
abbrev hrow (n : Fin 100000) : Fin 64 → EReal := fun k => x0 (ix2 n k)

/-! ## The node's velocity gate -/

theorem dot57 (n : Fin 100000) (c : Fin 64) :
    (val_main_v57 (F := Ideal) x0 x16) (ix2 n c) = ∑ k : Fin 64, x0 (ix2 n k) * x16 (ix2 k c) := by
  rw [val_main_v57_apply]
  refine Finset.sum_congr rfl fun k _ => ?_
  rw [show lidx_main_v57 (ix2 n c) k = ix2 n k by idx2, show ridx_main_v57 (ix2 n c) k = ix2 k c by idx2]

theorem bias59 (n : Fin 100000) (c : Fin 64) : (val_main_v59 (F := Ideal) x17) (ix2 n c) = x17 (ix1 c) := by
  rw [val_main_v59_apply, val_main_v58_apply]
  exact congrArg x17 (by idx1)

theorem aff60 (n : Fin 100000) (c : Fin 64) :
    (val_main_v60 (F := Ideal) x0 x16 x17) (ix2 n c) = aff (hrow x0 n) (P x4 x5 x6 x7 x8 x9 x10 x11 x12 x13 x14 x15 x16 x17 x18 x19).wv1 (P x4 x5 x6 x7 x8 x9 x10 x11 x12 x13 x14 x15 x16 x17 x18 x19).bv1 c := by
  rw [val_main_v60_apply, dot57, bias59]
  rfl

theorem tanh61 (n : Fin 100000) (c : Fin 64) :
    (val_main_v61 (F := Ideal) x0 x16 x17) (ix2 n c) = T (aff (hrow x0 n) (P x4 x5 x6 x7 x8 x9 x10 x11 x12 x13 x14 x15 x16 x17 x18 x19).wv1 (P x4 x5 x6 x7 x8 x9 x10 x11 x12 x13 x14 x15 x16 x17 x18 x19).bv1 c) := by
  rw [val_main_v61_apply, aff60 x0 x4 x5 x6 x7 x8 x9 x10 x11 x12 x13 x14 x15 x16 x17 x18 x19]
  rfl

theorem dot62 (n : Fin 100000) :
    (val_main_v62 (F := Ideal) x0 x16 x17 x18) (ix2 n (0 : Fin 1)) = ∑ k : Fin 64, (val_main_v61 (F := Ideal) x0 x16 x17) (ix2 n k) * x18 (ix2 k (0 : Fin 1)) := by
  rw [val_main_v62_apply]
  refine Finset.sum_congr rfl fun k _ => ?_
  rw [show lidx_main_v62 (ix2 n (0 : Fin 1)) k = ix2 n k by idx2, show ridx_main_v62 (ix2 n (0 : Fin 1)) k = ix2 k (0 : Fin 1) by idx2]

theorem bias64 (n : Fin 100000) : (val_main_v64 (F := Ideal) x19) (ix2 n (0 : Fin 1)) = x19 (ix1 (0 : Fin 1)) := by
  rw [val_main_v64_apply, val_main_v63_apply]
  exact congrArg x19 (by idx1)

/-- **The velocity gate of node `n`.** -/
theorem vgate_eq (n : Fin 100000) : (val_main_v65 (F := Ideal) x0 x16 x17 x18 x19) (ix2 n (0 : Fin 1)) = vgate (P x4 x5 x6 x7 x8 x9 x10 x11 x12 x13 x14 x15 x16 x17 x18 x19) (hrow x0 n) := by
  rw [val_main_v65_apply, dot62, bias64]
  simp only [tanh61 x0 x4 x5 x6 x7 x8 x9 x10 x11 x12 x13 x14 x15 x16 x17 x18 x19]
  rfl

/-! ## The constants the sums start from, and the index column -/

theorem zero68 (n : Fin 100000) (j : Fin 3) : (val_main_v68 (F := Ideal)) (ix2 n j) = zeroW := by
  rw [val_main_v68_apply, val_main_cst_7_apply, Ideal.ofBits_def]
theorem zero72 (n : Fin 100000) : (val_main_v72 (F := Ideal)) (ix2 n (0 : Fin 1)) = zeroW := by
  rw [val_main_v72_apply, val_main_cst_9_apply, Ideal.ofBits_def]
theorem zero83 (n : Fin 100000) (c : Fin 64) : (val_main_v83 (F := Ideal)) (ix2 n c) = zeroW := by
  rw [val_main_v83_apply, val_main_cst_11_apply, Ideal.ofBits_def]
theorem one71 (e : Fin 1600000) : (val_main_v71 (F := Ideal)) (ix2 e (0 : Fin 1)) = oneW := by
  rw [val_main_v71_apply, val_main_cst_8_apply, Ideal.ofBits_def]
theorem one75 (n : Fin 100000) : (val_main_v75 (F := Ideal)) (ix2 n (0 : Fin 1)) = oneW := by
  rw [val_main_v75_apply, val_main_cst_10_apply, Ideal.ofBits_def]

/-- The three scatters are indexed by one and the same column. -/
theorem col73 : (val_main_v73 (F := Ideal) x20) = col x20 := rfl
theorem col84 : (val_main_v84 (F := Ideal) x20) = col x20 := rfl

/-! ## The three sums over the edges that land on a node -/

/-- The gated difference of edge `e`, coordinate `j`. -/
theorem gated67 (e : Fin 1600000) (j : Fin 3) : (val_main_v67 (F := Ideal) x0 x1 x3 x4 x5 x6 x7 x8 x9 x10 x11 x20) (ix2 e j) = (tr x0 x1 x3 x4 x5 x6 x7 x8 x9 x10 x11 x12 x13 x14 x15 x16 x17 x18 x19 x20) e j := by
  rw [val_main_v67_apply, val_main_v66_apply, show idx_main_v66 (ix2 e j) = ix2 e (0 : Fin 1) by idx2,
    gate_eq x0 x1 x3 x4 x5 x6 x7 x8 x9 x10 x11 x12 x13 x14 x15 x16 x17 x18 x19 x20]
  rfl

/-- The gated differences summed over the edges that land on `n`. -/
theorem sum70 (n : Fin 100000) (j : Fin 3) :
    (val_main_v70 (F := Ideal) x0 x1 x3 x4 x5 x6 x7 x8 x9 x10 x11 x20) (ix2 n j) = zeroW + ∑ e ∈ S x20 n, (tr x0 x1 x3 x4 x5 x6 x7 x8 x9 x10 x11 x12 x13 x14 x15 x16 x17 x18 x19 x20) e j := by
  unfold val_main_v70
  refine (ScatterAt.rows scatter_S100000x3_S1600000x1_S1600000x3_1_0_0_1 rfl rfl rfl rfl _ _ _ n j).trans ?_
  rw [zero68]
  exact congrArg (zeroW + ·) (Finset.sum_congr rfl fun e _ => gated67 x0 x1 x3 x4 x5 x6 x7 x8 x9 x10 x11 x12 x13 x14 x15 x16 x17 x18 x19 x20 e j)

/-- The number of edges that land on `n`, as the sum of ones. -/
theorem sum74 (n : Fin 100000) :
    (val_main_v74 (F := Ideal) x20) (ix2 n (0 : Fin 1)) = zeroW + ∑ _e ∈ S x20 n, oneW := by
  unfold val_main_v74
  refine (ScatterAt.rows scatter_S100000x1_S1600000x1_S1600000x1_1_0_0_1 rfl rfl rfl rfl _ _ _ n (0 : Fin 1)).trans ?_
  rw [zero72]
  exact congrArg (zeroW + ·) (Finset.sum_congr rfl fun e _ => one71 e)

/-- The messages summed over the edges that land on `n`. -/
theorem sum85 (n : Fin 100000) (c : Fin 64) :
    (val_main_v85 (F := Ideal) x0 x1 x3 x4 x5 x6 x7 x20) (ix2 n c) = msgSum (S x20 n) zeroW (m x0 x1 x3 x4 x5 x6 x7 x8 x9 x10 x11 x12 x13 x14 x15 x16 x17 x18 x19 x20) c := by
  unfold msgSum val_main_v85
  refine (ScatterAt.rows scatter_S100000x64_S1600000x1_S1600000x64_1_0_0_1 rfl rfl rfl rfl _ _ _ n c).trans ?_
  rw [zero83]
  exact congrArg (zeroW + ·) (Finset.sum_congr rfl fun e _ => msg_eq x0 x1 x3 x4 x5 x6 x7 x8 x9 x10 x11 x12 x13 x14 x15 x16 x17 x18 x19 x20 e c)

/-! ## The new velocity and position -/

/-- The mean of the gated differences: their sum over the larger of their number and one. -/
theorem mean78 (n : Fin 100000) (j : Fin 3) :
    (val_main_v78 (F := Ideal) x0 x1 x3 x4 x5 x6 x7 x8 x9 x10 x11 x20) (ix2 n j) = trMean (S x20 n) zeroW oneW (tr x0 x1 x3 x4 x5 x6 x7 x8 x9 x10 x11 x12 x13 x14 x15 x16 x17 x18 x19 x20) j := by
  rw [val_main_v78_apply, sum70 x0 x1 x3 x4 x5 x6 x7 x8 x9 x10 x11 x12 x13 x14 x15 x16 x17 x18 x19 x20, val_main_v77_apply, show idx_main_v77 (ix2 n j) = ix2 n (0 : Fin 1) by idx2,
    val_main_v76_apply, sum74, one75]
  simp only [Ideal.hostDivf_def, Ideal.maximumf_def, trMean]

/-- **The new velocity of node `n`**, coordinate `j`. -/
theorem vel_eq (n : Fin 100000) (j : Fin 3) :
    val_main_v81 (F := Ideal) x0 x1 x2 x3 x4 x5 x6 x7 x8 x9 x10 x11 x16 x17 x18 x19 x20 (ix2 n j)
      = velNew (P x4 x5 x6 x7 x8 x9 x10 x11 x12 x13 x14 x15 x16 x17 x18 x19) (S x20 n) zeroW oneW (tr x0 x1 x3 x4 x5 x6 x7 x8 x9 x10 x11 x12 x13 x14 x15 x16 x17 x18 x19 x20) (hrow x0 n) (fun j => x2 (ix2 n j)) j := by
  rw [val_main_v81_apply, val_main_v80_apply, val_main_v79_apply,
    show idx_main_v79 (ix2 n j) = ix2 n (0 : Fin 1) by idx2,
    vgate_eq x0 x4 x5 x6 x7 x8 x9 x10 x11 x12 x13 x14 x15 x16 x17 x18 x19, mean78 x0 x1 x3 x4 x5 x6 x7 x8 x9 x10 x11 x12 x13 x14 x15 x16 x17 x18 x19 x20]
  simp only [Ideal.addf_def, Ideal.mulf_def, velNew]

/-- **The new position of node `n`**, coordinate `j`. -/
theorem pos_eq (n : Fin 100000) (j : Fin 3) :
    val_main_v82 (F := Ideal) x0 x1 x2 x3 x4 x5 x6 x7 x8 x9 x10 x11 x16 x17 x18 x19 x20 (ix2 n j)
      = posNew (P x4 x5 x6 x7 x8 x9 x10 x11 x12 x13 x14 x15 x16 x17 x18 x19) (S x20 n) zeroW oneW (tr x0 x1 x3 x4 x5 x6 x7 x8 x9 x10 x11 x12 x13 x14 x15 x16 x17 x18 x19 x20) (hrow x0 n) (fun j => x1 (ix2 n j)) (fun j => x2 (ix2 n j)) j := by
  rw [val_main_v82_apply, vel_eq x0 x1 x2 x3 x4 x5 x6 x7 x8 x9 x10 x11 x12 x13 x14 x15 x16 x17 x18 x19 x20]
  simp only [Ideal.addf_def, posNew]

/-! ## The new features -/

/-- The node's own features joined with the summed messages, entry `k` of 128. -/
theorem cat86 (n : Fin 100000) (k : Fin 128) :
    (val_main_v86 (F := Ideal) x0 x1 x3 x4 x5 x6 x7 x20) (ix2 n k) = cat2 (hrow x0 n) (msgSum (S x20 n) zeroW (m x0 x1 x3 x4 x5 x6 x7 x8 x9 x10 x11 x12 x13 x14 x15 x16 x17 x18 x19 x20)) k := by
  unfold cat2
  by_cases h1 : k.val < 64
  · rw [dif_pos h1]
    unfold val_main_v86
    exact concatenate_apply_piece _ _ _ (ix2 n k) 0 (by show (0 : Nat) < 2; omega) S100000x64
      x0 rfl rfl 0 rfl (ix2 n ⟨k.val, h1⟩)
      (fun b hb => by match b with | ⟨0, _⟩ => rfl | ⟨1, _⟩ => exact absurd (Fin.ext rfl) hb)
      (by show 0 + k.val = k.val; omega)
  rw [dif_neg h1, ← sum85 x0 x1 x3 x4 x5 x6 x7 x8 x9 x10 x11 x12 x13 x14 x15 x16 x17 x18 x19 x20]
  have hk := k.isLt
  unfold val_main_v86
  exact concatenate_apply_piece _ _ _ (ix2 n k) 1 (by show (1 : Nat) < 2; omega) S100000x64
    (val_main_v85 (F := Ideal) x0 x1 x3 x4 x5 x6 x7 x20) rfl rfl 64 rfl (ix2 n ⟨k.val - 64, by omega⟩)
    (fun b hb => by match b with | ⟨0, _⟩ => rfl | ⟨1, _⟩ => exact absurd (Fin.ext rfl) hb)
    (by show 64 + (k.val - 64) = k.val; omega)

theorem dot87 (n : Fin 100000) (c : Fin 64) :
    (val_main_v87 (F := Ideal) x0 x1 x3 x4 x5 x6 x7 x12 x20) (ix2 n c) = ∑ k : Fin 128, (val_main_v86 (F := Ideal) x0 x1 x3 x4 x5 x6 x7 x20) (ix2 n k) * x12 (ix2 k c) := by
  rw [val_main_v87_apply]
  refine Finset.sum_congr rfl fun k _ => ?_
  rw [show lidx_main_v87 (ix2 n c) k = ix2 n k by idx2, show ridx_main_v87 (ix2 n c) k = ix2 k c by idx2]

theorem bias89 (n : Fin 100000) (c : Fin 64) : (val_main_v89 (F := Ideal) x13) (ix2 n c) = x13 (ix1 c) := by
  rw [val_main_v89_apply, val_main_v88_apply]
  exact congrArg x13 (by idx1)

theorem aff90 (n : Fin 100000) (c : Fin 64) :
    (val_main_v90 (F := Ideal) x0 x1 x3 x4 x5 x6 x7 x12 x13 x20) (ix2 n c) = aff (cat2 (hrow x0 n) (msgSum (S x20 n) zeroW (m x0 x1 x3 x4 x5 x6 x7 x8 x9 x10 x11 x12 x13 x14 x15 x16 x17 x18 x19 x20))) (P x4 x5 x6 x7 x8 x9 x10 x11 x12 x13 x14 x15 x16 x17 x18 x19).wh1 (P x4 x5 x6 x7 x8 x9 x10 x11 x12 x13 x14 x15 x16 x17 x18 x19).bh1 c := by
  rw [val_main_v90_apply, dot87, bias89]
  simp only [cat86 x0 x1 x3 x4 x5 x6 x7 x8 x9 x10 x11 x12 x13 x14 x15 x16 x17 x18 x19 x20]
  rfl

theorem tanh91 (n : Fin 100000) (c : Fin 64) :
    (val_main_v91 (F := Ideal) x0 x1 x3 x4 x5 x6 x7 x12 x13 x20) (ix2 n c)
      = T (aff (cat2 (hrow x0 n) (msgSum (S x20 n) zeroW (m x0 x1 x3 x4 x5 x6 x7 x8 x9 x10 x11 x12 x13 x14 x15 x16 x17 x18 x19 x20))) (P x4 x5 x6 x7 x8 x9 x10 x11 x12 x13 x14 x15 x16 x17 x18 x19).wh1 (P x4 x5 x6 x7 x8 x9 x10 x11 x12 x13 x14 x15 x16 x17 x18 x19).bh1 c) := by
  rw [val_main_v91_apply, aff90 x0 x1 x3 x4 x5 x6 x7 x8 x9 x10 x11 x12 x13 x14 x15 x16 x17 x18 x19 x20]
  rfl

theorem dot92 (n : Fin 100000) (c : Fin 64) :
    (val_main_v92 (F := Ideal) x0 x1 x3 x4 x5 x6 x7 x12 x13 x14 x20) (ix2 n c) = ∑ k : Fin 64, (val_main_v91 (F := Ideal) x0 x1 x3 x4 x5 x6 x7 x12 x13 x20) (ix2 n k) * x14 (ix2 k c) := by
  rw [val_main_v92_apply]
  refine Finset.sum_congr rfl fun k _ => ?_
  rw [show lidx_main_v92 (ix2 n c) k = ix2 n k by idx2, show ridx_main_v92 (ix2 n c) k = ix2 k c by idx2]

theorem bias94 (n : Fin 100000) (c : Fin 64) : (val_main_v94 (F := Ideal) x15) (ix2 n c) = x15 (ix1 c) := by
  rw [val_main_v94_apply, val_main_v93_apply]
  exact congrArg x15 (by idx1)

/-- **The new features of node `n`**, entry `c`. -/
theorem feat_new_eq (n : Fin 100000) (c : Fin 64) :
    (val_main_v95 (F := Ideal) x0 x1 x3 x4 x5 x6 x7 x12 x13 x14 x15 x20) (ix2 n c) = featNew (P x4 x5 x6 x7 x8 x9 x10 x11 x12 x13 x14 x15 x16 x17 x18 x19) (S x20 n) zeroW (m x0 x1 x3 x4 x5 x6 x7 x8 x9 x10 x11 x12 x13 x14 x15 x16 x17 x18 x19 x20) (hrow x0 n) c := by
  rw [val_main_v95_apply, dot92, bias94]
  simp only [tanh91 x0 x1 x3 x4 x5 x6 x7 x8 x9 x10 x11 x12 x13 x14 x15 x16 x17 x18 x19 x20]
  rfl

end Cert.ReferenceIdeal.Layer

end
-- ==== Proof.RefResults.lean ====
/-
  The reference program's three results read at an index, with every argument array explicit and the right-hand
  sides spelled out in the functions of `MsgPass` alone: node `n`'s new features, new velocity and new position.
  The edge data stay the program's own gathered arrays; the edges that land on `n` are those the first row of the
  edge list sends there.
-/
import proofs.«169352_j52699248722544_2_alg».proof.Proof.RefNode

noncomputable section

namespace Cert.ReferenceIdeal.Layer

open Cert.ReferenceIdeal Cert.ReferenceIdeal.Gen Cert.ReferenceIdeal.Read Idealize.ShloMosaic Idealize.ShloMosaic.ValueIdx MsgPass
open scoped BigOperators

/-- **New features**: the first result at `(n, q)`. -/
theorem result_feat (x0 : (⟨S100000x64, .f32⟩ : BufTy).Contents (Elt Ideal)) (x1 x2 : (⟨S100000x3, .f32⟩ : BufTy).Contents (Elt Ideal)) (x3 : (⟨S1600000x8, .f32⟩ : BufTy).Contents (Elt Ideal))
    (x4 : (⟨S137x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal)) (x10 : (⟨S64x1, .f32⟩ : BufTy).Contents (Elt Ideal)) (x11 : (⟨S1, .f32⟩ : BufTy).Contents (Elt Ideal))
    (x12 : (⟨S128x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal))
    (x16 : (⟨S64x64, .f32⟩ : BufTy).Contents (Elt Ideal)) (x17 : (⟨S64, .f32⟩ : BufTy).Contents (Elt Ideal)) (x18 : (⟨S64x1, .f32⟩ : BufTy).Contents (Elt Ideal)) (x19 : (⟨S1, .f32⟩ : BufTy).Contents (Elt Ideal))
    (x20 : (⟨S2x1600000, .i32⟩ : BufTy).Contents (Elt Ideal))
    (n : Fin 100000) (q : Fin 64) :
    val_main_v95 (F := Ideal) x0 x1 x3 x4 x5 x6 x7 x12 x13 x14 x15 x20 (ix2 n q)
      = featNew (weights x4 x5 x6 x7 x8 x9 x10 x11 x12 x13 x14 x15 x16 x17 x18 x19) (landing (val_main_v69 (F := Ideal) x20) n) zeroW
          (fun e : Fin 1600000 => msg (weights x4 x5 x6 x7 x8 x9 x10 x11 x12 x13 x14 x15 x16 x17 x18 x19) (fun k : Fin 64 => val_main_v28 (F := Ideal) x0 x20 (ix2 e k)) (fun k : Fin 64 => val_main_v35 (F := Ideal) x0 x20 (ix2 e k)) (val_main_v21 (F := Ideal) x1 x20 (ix2 e (0 : Fin 1))) (fun k : Fin 8 => x3 (ix2 e k)))
          (fun k => x0 (ix2 n k)) q :=
  feat_new_eq x0 x1 x3 x4 x5 x6 x7 x8 x9 x10 x11 x12 x13 x14 x15 x16 x17 x18 x19 x20 n q

/-- **New velocity**: the third result at `(n, j)`. -/
theorem result_vel (x0 : (⟨S100000x64, .f32⟩ : BufTy).Contents (Elt Ideal)) (x1 x2 : (⟨S100000x3, .f32⟩ : BufTy).Contents (Elt Ideal)) (x3 : (⟨S1600000x8, .f32⟩ : BufTy).Contents (Elt Ideal))
    (x4 : (⟨S137x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal)) (x10 : (⟨S64x1, .f32⟩ : BufTy).Contents (Elt Ideal)) (x11 : (⟨S1, .f32⟩ : BufTy).Contents (Elt Ideal))
    (x12 : (⟨S128x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal))
    (x16 : (⟨S64x64, .f32⟩ : BufTy).Contents (Elt Ideal)) (x17 : (⟨S64, .f32⟩ : BufTy).Contents (Elt Ideal)) (x18 : (⟨S64x1, .f32⟩ : BufTy).Contents (Elt Ideal)) (x19 : (⟨S1, .f32⟩ : BufTy).Contents (Elt Ideal))
    (x20 : (⟨S2x1600000, .i32⟩ : BufTy).Contents (Elt Ideal))
    (n : Fin 100000) (j : Fin 3) :
    val_main_v81 (F := Ideal) x0 x1 x2 x3 x4 x5 x6 x7 x8 x9 x10 x11 x16 x17 x18 x19 x20 (ix2 n j)
      = velNew (weights x4 x5 x6 x7 x8 x9 x10 x11 x12 x13 x14 x15 x16 x17 x18 x19) (landing (val_main_v69 (F := Ideal) x20) n) zeroW oneW
          (fun e : Fin 1600000 => fun j : Fin 3 => val_main_v18 (F := Ideal) x1 x20 (ix2 e j) * gate (weights x4 x5 x6 x7 x8 x9 x10 x11 x12 x13 x14 x15 x16 x17 x18 x19) (fun k : Fin 64 => val_main_v28 (F := Ideal) x0 x20 (ix2 e k)) (fun k : Fin 64 => val_main_v35 (F := Ideal) x0 x20 (ix2 e k)) (val_main_v21 (F := Ideal) x1 x20 (ix2 e (0 : Fin 1))) (fun k : Fin 8 => x3 (ix2 e k)))
          (fun k => x0 (ix2 n k)) (fun j => x2 (ix2 n j)) j :=
  vel_eq x0 x1 x2 x3 x4 x5 x6 x7 x8 x9 x10 x11 x12 x13 x14 x15 x16 x17 x18 x19 x20 n j

/-- **New position**: the second result at `(n, j)`. -/
theorem result_pos (x0 : (⟨S100000x64, .f32⟩ : BufTy).Contents (Elt Ideal)) (x1 x2 : (⟨S100000x3, .f32⟩ : BufTy).Contents (Elt Ideal)) (x3 : (⟨S1600000x8, .f32⟩ : BufTy).Contents (Elt Ideal))
    (x4 : (⟨S137x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal)) (x10 : (⟨S64x1, .f32⟩ : BufTy).Contents (Elt Ideal)) (x11 : (⟨S1, .f32⟩ : BufTy).Contents (Elt Ideal))
    (x12 : (⟨S128x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal))
    (x16 : (⟨S64x64, .f32⟩ : BufTy).Contents (Elt Ideal)) (x17 : (⟨S64, .f32⟩ : BufTy).Contents (Elt Ideal)) (x18 : (⟨S64x1, .f32⟩ : BufTy).Contents (Elt Ideal)) (x19 : (⟨S1, .f32⟩ : BufTy).Contents (Elt Ideal))
    (x20 : (⟨S2x1600000, .i32⟩ : BufTy).Contents (Elt Ideal))
    (n : Fin 100000) (j : Fin 3) :
    val_main_v82 (F := Ideal) x0 x1 x2 x3 x4 x5 x6 x7 x8 x9 x10 x11 x16 x17 x18 x19 x20 (ix2 n j)
      = posNew (weights x4 x5 x6 x7 x8 x9 x10 x11 x12 x13 x14 x15 x16 x17 x18 x19) (landing (val_main_v69 (F := Ideal) x20) n) zeroW oneW
          (fun e : Fin 1600000 => fun j : Fin 3 => val_main_v18 (F := Ideal) x1 x20 (ix2 e j) * gate (weights x4 x5 x6 x7 x8 x9 x10 x11 x12 x13 x14 x15 x16 x17 x18 x19) (fun k : Fin 64 => val_main_v28 (F := Ideal) x0 x20 (ix2 e k)) (fun k : Fin 64 => val_main_v35 (F := Ideal) x0 x20 (ix2 e k)) (val_main_v21 (F := Ideal) x1 x20 (ix2 e (0 : Fin 1))) (fun k : Fin 8 => x3 (ix2 e k)))
          (fun k => x0 (ix2 n k)) (fun j => x1 (ix2 n j)) (fun j => x2 (ix2 n j)) j :=
  pos_eq x0 x1 x2 x3 x4 x5 x6 x7 x8 x9 x10 x11 x12 x13 x14 x15 x16 x17 x18 x19 x20 n j

end Cert.ReferenceIdeal.Layer

end
-- ==== Proof.Bridge.lean ====
/-
  The two programs compute the same three arrays. The kernel program's results are the layer's new features, position
  and velocity of every node, from the edges' data as its edge stage found it; the reference's results are the same
  functions of the same data, because the gathered feature rows, the coordinate differences, the squared distances and
  the column of source nodes are built by the same operations in both programs, and the memories agree on the
  twenty-one arguments.
-/
import proofs.«169352_j52699248722544_2_alg».proof.Proof.Agree
import proofs.«169352_j52699248722544_2_alg».proof.Proof.KernelLayer
import proofs.«169352_j52699248722544_2_alg».proof.Proof.RefResults

set_option maxRecDepth 16384
set_option pp.maxSteps 2000
set_option pp.deepTerms false
set_option pp.proofs false

noncomputable section

open scoped BigOperators
open Idealize.ShloMosaic Idealize.ShloMosaic.TcCoe Idealize.SL.Sem Idealize.ShloMosaic.ValueIdx MsgPass

namespace Cert.Bridge

open Cert.KernelIdeal Cert.KernelIdeal.Gen Cert.KernelIdeal.Stage Cert.KernelIdeal.EdgeValue Cert.KernelIdeal.NodeValue
open Cert.KernelIdeal.HostValue Cert.ReferenceIdeal.Read

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- An argument array of the kernel program as launched. -/
abbrev A (b : Ref Cert.KernelIdeal.sig .tc) := arg m c b

/-! ## An edge's data is the reference's -/

theorem hi_eq (e : Fin 1600000) :
    hiAt (V1 m ρ) c e = fun k : Fin 64 => val_main_v28 (F := Ideal) (A m c main_arg0) (A m c main_arg20) (ix2 e k) :=
  funext fun k => by
    show W1 m ρ c (Proc.devRef .tc main_v29) (ix2 e k) = _
    rw [v29_eq]

theorem hj_eq (e : Fin 1600000) :
    hjAt (V1 m ρ) c e = fun k : Fin 64 => val_main_v35 (F := Ideal) (A m c main_arg0) (A m c main_arg20) (ix2 e k) :=
  funext fun k => by
    show W1 m ρ c (Proc.devRef .tc main_v36) (ix2 e k) = _
    rw [v36_eq]

theorem rad_eq (e : Fin 1600000) :
    radAt (V1 m ρ) c e = val_main_v21 (F := Ideal) (A m c main_arg1) (A m c main_arg20) (ix2 e (0 : Fin 1)) :=
  v22_rad m ρ c e

theorem ea_eq (e : Fin 1600000) : eaAt (V1 m ρ) c e = fun k : Fin 8 => A m c main_arg3 (ix2 e k) :=
  funext fun k => v22_attr m ρ c e k

theorem dif_eq (e : Fin 1600000) (j : Fin 3) :
    difK m ρ c e j = val_main_v18 (F := Ideal) (A m c main_arg1) (A m c main_arg20) (ix2 e j) := by
  unfold difK
  rw [v18_eq]

theorem col_eq : colK m ρ c = val_main_v69 (F := Ideal) (A m c main_arg20) := by
  show broadcastInDim _ _ _ (W1 m ρ c (Proc.devRef .tc main_v1)) = _
  rw [v1_eq]
  rfl

theorem SK_eq (n : Fin 100000) : SK m ρ c n = landing (val_main_v69 (F := Ideal) (A m c main_arg20)) n := by
  unfold SK
  rw [col_eq]

/-- The layer's weights from the reference's weight arguments are the kernel's. -/
abbrev WR : Weights :=
  weights (A m c main_arg4) (A m c main_arg5) (A m c main_arg6) (A m c main_arg7) (A m c main_arg8) (A m c main_arg9)
    (A m c main_arg10) (A m c main_arg11) (A m c main_arg12) (A m c main_arg13) (A m c main_arg14) (A m c main_arg15)
    (A m c main_arg16) (A m c main_arg17) (A m c main_arg18) (A m c main_arg19)

theorem mK_eq : mK m ρ c = fun e =>
    msg (WR m c) (fun k : Fin 64 => val_main_v28 (F := Ideal) (A m c main_arg0) (A m c main_arg20) (ix2 e k))
      (fun k : Fin 64 => val_main_v35 (F := Ideal) (A m c main_arg0) (A m c main_arg20) (ix2 e k))
      (val_main_v21 (F := Ideal) (A m c main_arg1) (A m c main_arg20) (ix2 e (0 : Fin 1)))
      (fun k : Fin 8 => A m c main_arg3 (ix2 e k)) :=
  funext fun e => by
    unfold mK
    rw [hi_eq, hj_eq, rad_eq, ea_eq]

theorem trK_eq : trK m ρ c = fun e => fun j : Fin 3 =>
    val_main_v18 (F := Ideal) (A m c main_arg1) (A m c main_arg20) (ix2 e j)
      * gate (WR m c) (fun k : Fin 64 => val_main_v28 (F := Ideal) (A m c main_arg0) (A m c main_arg20) (ix2 e k))
          (fun k : Fin 64 => val_main_v35 (F := Ideal) (A m c main_arg0) (A m c main_arg20) (ix2 e k))
          (val_main_v21 (F := Ideal) (A m c main_arg1) (A m c main_arg20) (ix2 e (0 : Fin 1)))
          (fun k : Fin 8 => A m c main_arg3 (ix2 e k)) :=
  funext fun e => funext fun j => by
    unfold trK gK
    rw [dif_eq, hi_eq, hj_eq, rad_eq, ea_eq]

/-! ## The three results -/

variable (m' : (ℓ : Loc Cert.ReferenceIdeal.nD Cert.ReferenceIdeal.τ Cert.ReferenceIdeal.sig) → Buf (Elt Ideal) ℓ)

theorem feat_eq (h : Agree m m' c) :
    Cert.ReferenceIdeal.Value.res_main_v95 m' c = W5 m ρ c (Proc.devRef .tc Cert.KernelIdeal.main_v67_0) := by
  obtain ⟨h0, h1, h2, h3, h4, h5, h6, h7, h8, h9, h10, h11, h12, h13, h14, h15, h16, h17, h18, h19, h20⟩ := h
  rw [Cert.ReferenceIdeal.Read.val_main_v95_eq, h0, h1, h3, h4, h5, h6, h7, h12, h13, h14, h15, h20]
  funext i
  obtain ⟨n, q, rfl⟩ : ∃ (n : Fin 100000) (q : Fin 64), i = ix2 n q := ⟨i 0, i 1, eq_ix2 i⟩
  refine (Cert.ReferenceIdeal.Layer.result_feat (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) n q).trans ?_
  rw [out_feat m ρ c n q, SK_eq, mK_eq]

theorem vel_eq (h : Agree m m' c) :
    Cert.ReferenceIdeal.Value.res_main_v81 m' c = W5 m ρ c (Proc.devRef .tc Cert.KernelIdeal.main_v68) := by
  obtain ⟨h0, h1, h2, h3, h4, h5, h6, h7, h8, h9, h10, h11, h12, h13, h14, h15, h16, h17, h18, h19, h20⟩ := h
  rw [Cert.ReferenceIdeal.Read.val_main_v81_eq, h0, h1, h2, h3, h4, h5, h6, h7, h8, h9, h10, h11, h16, h17, h18, h19, h20]
  funext i
  obtain ⟨n, j, rfl⟩ : ∃ (n : Fin 100000) (j : Fin 3), i = ix2 n j := ⟨i 0, i 1, eq_ix2 i⟩
  refine (Cert.ReferenceIdeal.Layer.result_vel (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) n j).trans ?_
  rw [out_vel m ρ c n j, SK_eq, trK_eq]

theorem pos_eq (h : Agree m m' c) :
    Cert.ReferenceIdeal.Value.res_main_v82 m' c = W5 m ρ c (Proc.devRef .tc Cert.KernelIdeal.main_v69) := by
  obtain ⟨h0, h1, h2, h3, h4, h5, h6, h7, h8, h9, h10, h11, h12, h13, h14, h15, h16, h17, h18, h19, h20⟩ := h
  rw [Cert.ReferenceIdeal.Read.val_main_v82_eq, h0, h1, h2, h3, h4, h5, h6, h7, h8, h9, h10, h11, h16, h17, h18, h19, h20]
  funext i
  obtain ⟨n, j, rfl⟩ : ∃ (n : Fin 100000) (j : Fin 3), i = ix2 n j := ⟨i 0, i 1, eq_ix2 i⟩
  refine (Cert.ReferenceIdeal.Layer.result_pos (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) n j).trans ?_
  rw [out_pos m ρ c n j, SK_eq, trK_eq]

end Cert.Bridge

end
-- ==== Proof.lean ====
/-
  The assembly of `Cert.Claim`: the five claims about the message-passing layer's two programs.

  The kernel program runs the layer in two pipelined stages among plain array operations: an edge stage that computes
  every edge's message and coordinate gate block by block (200 blocks of 8000 edges), a scatter-add that sums them into
  the nodes, and a node stage that updates every node's features, velocity and position (20 blocks of 5000 nodes). The
  reference program computes the same layer with whole-array operations.

  * Frames of the kernel program, at words and on the extended reals: `Run.lean` / `BitsRun.lean` (over `StageData`,
    `EdgeStage`, `NodeStage` and their word-level copies) show that the run ends without fault, with every unscoped
    buffer at a named value and every argument array as launched.
  * Frame of the reference program: the run of `Gen/ReferenceIdeal/Run.lean`, which also names its three results.
  * The idealization rewrote nothing, so the kernel program on the extended reals is its own text read there.
  * Equality of the results on the extended reals: `Bridge.lean` shows, from memories agreeing on the arguments
    (`Agree.lean`), that the new features, positions and velocities the kernel program ends with are those the reference
    program ends with. Both are the layer of `Spec.lean`: the stages' blocks and the arrays they fill are read in
    `EdgePayload`, `EdgeBlock`, `EdgeArrays`, `NodePayload`, `NodeBlock`, `NodeArrays`, the operations around them in
    `HostEdge`, `HostNode`, the reference in `RefEdge`, `RefNode`; the two arrangements of an affine map over a
    concatenated row differ by the regrouping laws of `LayerLaws.lean` (commutativity and associativity of addition).
-/
import proofs.«169352_j52699248722544_2_alg».proof.Defs
import proofs.«169352_j52699248722544_2_alg».proof.Proof.Gen.Kernel
import proofs.«169352_j52699248722544_2_alg».proof.Proof.Gen.KernelIdeal
import proofs.«169352_j52699248722544_2_alg».proof.Proof.Gen.ReferenceIdeal
import proofs.«169352_j52699248722544_2_alg».proof.Proof.Gen.ReferenceIdeal.Run
import proofs.«169352_j52699248722544_2_alg».proof.Proof.Gen.Pre_finite_inputs
import proofs.«169352_j52699248722544_2_alg».proof.Proof.Run
import proofs.«169352_j52699248722544_2_alg».proof.Proof.BitsRun
import proofs.«169352_j52699248722544_2_alg».proof.Proof.Bridge

noncomputable section

namespace Cert.Proof

open Idealize.ShloMosaic Idealize.SL.Sem

/-- The word-level kernel program runs to the end and leaves its arguments as launched. -/
theorem frame_Kernel : Cert.frame_Kernel (hKernel := Cert.Kernel.Gen.facts) (hPre_finite_inputs := Cert.Pre_finite_inputs.Gen.facts) :=
  fun m ρ _ => Cert.Kernel.Stage.frame m ρ

/-- So does the kernel program on the extended reals. -/
theorem frame_KernelIdeal : Cert.frame_KernelIdeal (hKernelIdeal := Cert.KernelIdeal.Gen.facts) (hPre_finite_inputs := Cert.Pre_finite_inputs.Gen.facts) :=
  fun m ρ _ => Cert.KernelIdeal.Stage.frame m ρ

/-- So does the reference program: its run names the three results and the arguments; the arguments' part is kept. -/
theorem frame_ReferenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

section
open Cert.KernelIdeal Cert.KernelIdeal.Stage

/-- From memories agreeing on the arguments both programs run, end with equal results — the kernel program's final
    contents of its three result buffers — and leave their arguments as launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => W5 m ρ c (Proc.devRef .tc main_v67_0), fun c => W5 m ρ c (Proc.devRef .tc main_v69),
    fun c => W5 m ρ c (Proc.devRef .tc main_v68), ?_, ?_⟩
  · exact (θ_run _ _ _).mono (fun r h c =>
      ⟨h c _ (mem_uc main_v67_0 (by decide)), h c _ (mem_uc main_v69 (by decide)), h c _ (mem_uc main_v68 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c),
      (h c _ (mem_uc main_arg14 (by decide))).trans (W5_main_arg14 m ρ c),
      (h c _ (mem_uc main_arg15 (by decide))).trans (W5_main_arg15 m ρ c),
      (h c _ (mem_uc main_arg16 (by decide))).trans (W5_main_arg16 m ρ c),
      (h c _ (mem_uc main_arg17 (by decide))).trans (W5_main_arg17 m ρ c),
      (h c _ (mem_uc main_arg18 (by decide))).trans (W5_main_arg18 m ρ c),
      (h c _ (mem_uc main_arg19 (by decide))).trans (W5_main_arg19 m ρ c),
      (h c _ (mem_uc main_arg20 (by decide))).trans (W5_main_arg20 m ρ c)⟩) (run_all m ρ)
  · exact (θ_run _ _ _).mono (fun r h c =>
      ⟨(h c).1.trans (Cert.Bridge.feat_eq m ρ c m' (hagree c)), (h c).2.1.trans (Cert.Bridge.pos_eq m ρ c m' (hagree c)),
        (h c).2.2.1.trans (Cert.Bridge.vel_eq m ρ c m' (hagree c)), (h c).2.2.2⟩) (Cert.ReferenceIdeal.Value.run (F := Ideal) m' ρ')

end

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
